-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x40 : Shape := ⟨2, ![32, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x40 : S_.BroadcastsInDim S32x40 (![] : Fin 0 → Fin S32x40.rank)
  reducesTo_S32x40_S_d0_1 : S32x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg9 : FVec F S64x32 .f32) (main_arg10 : FVec F S32 .f32) (main_arg11 : FVec F S32x40 .f32) (main_arg12 : FVec F S40 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x40 .f32 := Host.absf main_arg11
  let main_cst_16 : FVec F S_ .f32 := constant S_ .f32 0x7F800000#32
  let main_v45 : FVec F S32x40 .f32 := broadcastInDim S32x40 ![] bcast_S_S32x40 main_cst_16
  let main_v46 : IVec S32x40 1 := cmpf .olt main_v44 main_v45
  let main_c_17 : IVec S_ 1 := constantI S_ 1 1#1
  let main_v47 : IVec S_ 1 := (fun x v => Host.reduce IntOp.andi x v reducesTo_S32x40_S_d0_1 h_S_) main_v46 main_c_17
  let main_v48 : IVec S_ 1 := andi main_v43 main_v47
  let main_v49 : FVec F S40 .f32 := Host.absf main_arg12
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_arg11 : FVec F S32x40 .f32) (main_arg12 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x32 .f32) (main_arg10 : FVec F S32 .f32) (main_arg11 : FVec F S32x40 .f32) (main_arg12 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x40 : Shape := ⟨2, ![32, 40]⟩
abbrev S40 : Shape := ⟨1, ![40]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S100000x40 : Shape := ⟨2, ![100000, 40]⟩
abbrev S10000x40 : Shape := ⟨2, ![10000, 40]⟩
abbrev S10000x32 : Shape := ⟨2, ![10000, 32]⟩
abbrev S1x32 : Shape := ⟨2, ![1, 32]⟩
abbrev S1x40 : Shape := ⟨2, ![1, 40]⟩
abbrev S10000 : Shape := ⟨1, ![10000]⟩
abbrev S10000x1 : Shape := ⟨2, ![10000, 1]⟩

abbrev nBuf : Space → Nat
  | .hbm => 105
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x40, .f32⟩
  | .hbm, ⟨12, _⟩ => ⟨S40, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S100000, .i32⟩
  | .hbm, ⟨18, _⟩ => ⟨S1700000, .i32⟩
  | .hbm, ⟨19, _⟩ => ⟨S1700000, .i32⟩
  | .hbm, ⟨20, _⟩ => ⟨S_, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x64, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x1, .f32⟩
  | .hbm, ⟨64, _⟩ => ⟨S1700000x64, .f32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S100000x64, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x64, .f32⟩
  | .hbm, ⟨97, _⟩ => ⟨S1700000x1, .f32⟩
  | .hbm, ⟨98, _⟩ => ⟨S1700000x64, .f32⟩
  | .hbm, ⟨99, _⟩ => ⟨S1700000x64, .f32⟩
  | .hbm, ⟨100, _⟩ => ⟨S_, .f32⟩
  | .hbm, ⟨101, _⟩ => ⟨S100000x64, .f32⟩
  | .hbm, ⟨102, _⟩ => ⟨S1700000x1, .i32⟩
  | .hbm, ⟨103, _⟩ => ⟨S100000x64, .f32⟩
  | .hbm, ⟨104, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64, .f32⟩
  | .local _ .vmem, ⟨20, _⟩ => ⟨S64x32, .f32⟩
  | .local _ .vmem, ⟨21, _⟩ => ⟨S32, .f32⟩
  | .local _ .vmem, ⟨22, _⟩ => ⟨S32x40, .f32⟩
  | .local _ .vmem, ⟨23, _⟩ => ⟨S40, .f32⟩
  | .local _ .vmem, ⟨24, _⟩ => ⟨S10000x40, .f32⟩
  | .local _ .vmem, ⟨25, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_c_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_c_13 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem6_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S40 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x40 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S32x40_S32x40_0_0 : ∀ a, (![0, 0] : Fin 2 → Nat) a + S32x40.size a ≤ S32x40.size a
  h_S32x40 : 0 < S32x40.numel
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  dot_S10000x32_S32x40_S10000x40_1_0_0_1_n_n_wf : DotDims.WF S10000x32 S32x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32.size a ≤ S32.size a
  hwx3_3 : ∀ i : grid3.Coords, EltTy.bits .f32 = 32 ∨ (Rect.block (s := S32) S32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x40.size a ≤ S32x40.size a
  hwx3_4 : ∀ i : grid3.Coords, EltTy.bits .f32 = 32 ∨ (Rect.block (s := S32x40) S32x40.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S40.size a ≤ S40.size a
  hwx3_5 : ∀ i : grid3.Coords, EltTy.bits .f32 = 32 ∨ (Rect.block (s := S40) S40.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x40.size a ≤ S100000x40.size a
  hwx3_6 : ∀ i : grid3.Coords, EltTy.bits .f32 = 32 ∨ (Rect.block (s := S100000x40) S10000x40.size (cc3_transform_6 i) (hinb3_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x40_S10000x40_1_0_0_1_n_n : DotDims S10000x32 S32x40 S10000x40 where
  lhsContracting := [1]
  rhsContracting := [0]
  lhsNonContracting := [0]
  rhsNonContracting := [1]
  lhsBatch := []
  rhsBatch := []
  wf := dot_S10000x32_S32x40_S10000x40_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v71) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S32x40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S40.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v72) S10000x40.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x40 : Shape := ⟨2, ![32, 40]⟩
abbrev S40 : Shape := ⟨1, ![40]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1x32 : Shape := ⟨2, ![1, 32]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 220
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x32, .f32⟩
  | 10 => ⟨S32, .f32⟩
  | 11 => ⟨S32x40, .f32⟩
  | 12 => ⟨S40, .f32⟩
  | 13 => ⟨S1x1600000, .i32⟩
  | 14 => ⟨S1600000, .i32⟩
  | 15 => ⟨S1x1600000, .i32⟩
  | 16 => ⟨S1600000, .i32⟩
  | 17 => ⟨S100000x64, .f32⟩
  | 18 => ⟨S100000, .i32⟩
  | 19 => ⟨S1700000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x64, .f32⟩
  | 63 => ⟨S1700000x1, .f32⟩
  | 64 => ⟨S1700000x64, .f32⟩
  | 65 => ⟨S1700000x64, .f32⟩
  | 66 => ⟨S_, .f32⟩
  | 67 => ⟨S100000x64, .f32⟩
  | 68 => ⟨S1700000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S100000, .i32⟩
  | 78 => ⟨S1700000, .i32⟩
  | 79 => ⟨S1700000, .i32⟩
  | 80 => ⟨S_, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000, .f32⟩
  | 112 => ⟨S1700000, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x64, .f32⟩
  | 122 => ⟨S1700000x1, .f32⟩
  | 123 => ⟨S1700000x64, .f32⟩
  | 124 => ⟨S1700000x64, .f32⟩
  | 125 => ⟨S_, .f32⟩
  | 126 => ⟨S100000x64, .f32⟩
  | 127 => ⟨S1700000x1, .i32⟩
  | _ => ⟨S100000x64, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S100000x64, .f32⟩
  | 8 => ⟨S100000, .i32⟩
  | 9 => ⟨S1700000, .i32⟩
  | 10 => ⟨S1700000, .i32⟩
  | 11 => ⟨S_, .f32⟩
  | 12 => ⟨S1700000, .f32⟩
  | 13 => ⟨S_, .f32⟩
  | 14 => ⟨S100000, .f32⟩
  | 15 => ⟨S1700000x1, .i32⟩
  | 16 => ⟨S100000, .f32⟩
  | 17 => ⟨S_, .f32⟩
  | 18 => ⟨S100000, .f32⟩
  | 19 => ⟨S100000, .i1⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x64, .f32⟩
  | 53 => ⟨S1700000x1, .f32⟩
  | 54 => ⟨S1700000x64, .f32⟩
  | 55 => ⟨S1700000x64, .f32⟩
  | 56 => ⟨S_, .f32⟩
  | 57 => ⟨S100000x64, .f32⟩
  | 58 => ⟨S1700000x1, .i32⟩
  | 59 => ⟨S100000x64, .f32⟩
  | 60 => ⟨S1x64, .f32⟩
  | 61 => ⟨S100000x64, .f32⟩
  | 62 => ⟨S100000x64, .f32⟩
  | 63 => ⟨S_, .f32⟩
  | 64 => ⟨S100000x64, .f32⟩
  | 65 => ⟨S100000x64, .f32⟩
  | 66 => ⟨S100000x32, .f32⟩
  | 67 => ⟨S1x32, .f32⟩
  | 68 => ⟨S100000x32, .f32⟩
  | 69 => ⟨S100000x32, .f32⟩
  | 70 => ⟨S_, .f32⟩
  | 71 => ⟨S100000x32, .f32⟩
  | 72 => ⟨S100000x32, .f32⟩
  | 73 => ⟨S100000x40, .f32⟩
  | 74 => ⟨S1x40, .f32⟩
  | 75 => ⟨S100000x40, .f32⟩
  | 76 => ⟨S100000x40, .f32⟩
  | 77 => ⟨S_, .f32⟩
  | 78 => ⟨S100000, .f32⟩
  | 79 => ⟨S_, .f32⟩
  | 80 => ⟨S100000, .f32⟩
  | 81 => ⟨S100000, .f32⟩
  | 82 => ⟨S100000x1, .f32⟩
  | 83 => ⟨S100000x40, .f32⟩
  | 84 => ⟨S100000x40, .f32⟩
  | 85 => ⟨S100000x40, .f32⟩
  | 86 => ⟨S_, .f32⟩
  | 87 => ⟨S100000, .f32⟩
  | 88 => ⟨S100000x1, .f32⟩
  | 89 => ⟨S100000x1, .f32⟩
  | 90 => ⟨S100000x40, .f32⟩
  | 91 => ⟨S100000x40, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v59 : Ref sig .tc := ⟨.hbm, 93, rfl⟩
abbrev main_c_13 : Ref sig .tc := ⟨.hbm, 94, rfl⟩
abbrev main_v60 : Ref sig .tc := ⟨.hbm, 95, rfl⟩
abbrev main_v61 : Ref sig .tc := ⟨.hbm, 96, rfl⟩
abbrev main_c_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_15 : Ref sig .tc := ⟨.hbm, 103, rfl⟩
abbrev main_v67 : Ref sig .tc := ⟨.hbm, 104, rfl⟩
abbrev main_v68 : Ref sig .tc := ⟨.hbm, 105, rfl⟩
abbrev main_c_16 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_17 : Ref sig .tc := ⟨.hbm, 113, rfl⟩
abbrev main_v75 : Ref sig .tc := ⟨.hbm, 114, rfl⟩
abbrev main_v76 : Ref sig .tc := ⟨.hbm, 115, rfl⟩
abbrev main_c_18 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_19 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_call3_cst : Ref sig .tc := ⟨.hbm, 132, rfl⟩
abbrev main_call3_v0 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_20 : Ref sig .tc := ⟨.hbm, 139, rfl⟩
abbrev main_v96 : Ref sig .tc := ⟨.hbm, 140, rfl⟩
abbrev main_cst_21 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_22 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_23 : Ref sig .tc := ⟨.hbm, 149, rfl⟩
abbrev main_call4_v0 : Ref sig .tc := ⟨.hbm, 150, rfl⟩
abbrev main_call4_v1 : Ref sig .tc := ⟨.hbm, 151, rfl⟩
abbrev main_v103 : Ref sig .tc := ⟨.hbm, 152, rfl⟩
abbrev main_c_24 : Ref sig .tc := ⟨.hbm, 153, rfl⟩
abbrev main_v104 : Ref sig .tc := ⟨.hbm, 154, rfl⟩
abbrev main_v105 : Ref sig .tc := ⟨.hbm, 155, rfl⟩
abbrev main_c_25 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_c_26 : Ref sig .tc := ⟨.hbm, 162, rfl⟩
abbrev main_v111 : Ref sig .tc := ⟨.hbm, 163, rfl⟩
abbrev main_v112 : Ref sig .tc := ⟨.hbm, 164, rfl⟩
abbrev main_c_27 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_c_28 : Ref sig .tc := ⟨.hbm, 172, rfl⟩
abbrev main_v119 : Ref sig .tc := ⟨.hbm, 173, rfl⟩
abbrev main_v120 : Ref sig .tc := ⟨.hbm, 174, rfl⟩
abbrev main_c_29 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_cst_30 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_call5_cst : Ref sig .tc := ⟨.hbm, 191, rfl⟩
abbrev main_call5_v0 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_call6_cst : Ref sig .tc := ⟨.hbm, 198, rfl⟩
abbrev main_call6_v0 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_call7_cst : Ref sig .tc := ⟨.hbm, 205, rfl⟩
abbrev main_call7_v0 : Ref sig .tc := ⟨.hbm, 206, rfl⟩
abbrev main_call7_cst_0 : Ref sig .tc := ⟨.hbm, 207, rfl⟩
abbrev main_call7_v1 : Ref sig .tc := ⟨.hbm, 208, rfl⟩
abbrev main_call7_v2 : Ref sig .tc := ⟨.hbm, 209, rfl⟩
abbrev main_call7_v3 : Ref sig .tc := ⟨.hbm, 210, rfl⟩
abbrev main_call7_v4 : Ref sig .tc := ⟨.hbm, 211, rfl⟩
abbrev main_call7_v5 : Ref sig .tc := ⟨.hbm, 212, rfl⟩
abbrev main_call7_v6 : Ref sig .tc := ⟨.hbm, 213, rfl⟩
abbrev main_call7_cst_1 : Ref sig .tc := ⟨.hbm, 214, rfl⟩
abbrev main_call7_v7 : Ref sig .tc := ⟨.hbm, 215, rfl⟩
abbrev main_call7_v8 : Ref sig .tc := ⟨.hbm, 216, rfl⟩
abbrev main_call7_v9 : Ref sig .tc := ⟨.hbm, 217, rfl⟩
abbrev main_call7_v10 : Ref sig .tc := ⟨.hbm, 218, rfl⟩
abbrev main_v145 : Ref sig .tc := ⟨.hbm, 219, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  dot_S100000x32_S32x40_S100000x40_1_0_0_1_n_n_wf : DotDims.WF S100000x32 S32x40 S100000x40 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x40_S100000x40_1_0_0_1_n_n : DotDims S100000x32 S32x40 S100000x40 where
  lhsContracting := [1]
  rhsContracting := [0]
  lhsNonContracting := [0]
  rhsNonContracting := [1]
  lhsBatch := []
  rhsBatch := []
  wf := dot_S100000x32_S32x40_S100000x40_1_0_0_1_n_n_wf

class Facts : Prop extends Facts₀ where

variable [Facts]
-- ==== Proof.RefChunks.lean ====
/-
  The reference's operation list cut into consecutive pieces.

  The contents of the buffers after the whole line of operations is a fold of the operations' results over the launch
  contents, and the fold over a list put together from two pieces is the fold over the second piece of the fold over the
  first.  So the fold over the first n + k operations is the fold over operations n … n + k − 1 of the fold over the first n,
  and the whole line can be read piece by piece: the edge lists, the edge weights, an aggregation, a dense stage, three times
  over, then the head.
-/
import proofs.«107386_j38878043964109_1_alg».proof.Proof.RefRunP
import Idealize.ShloMosaic.PureOps.Ideal

noncomputable section

namespace Cert.ReferenceIdeal.Chunks

open Cert.ReferenceIdeal Cert.ReferenceIdeal.Gen Cert.ReferenceIdeal.ValueP Idealize.ShloMosaic Idealize.ShloMosaic.TcCoe Idealize.SL.Sem Idealize.ShloMosaic.StableHlo

/-- The reference's operations, read at the extended reals. -/
abbrev opsI : List (HloOp τ sig (Elt Ideal)) := ops (F := Ideal)

/-- Operations n, n + 1, …, n + k − 1 of the line. -/
abbrev chunk (n k : Nat) : List (HloOp τ sig (Elt Ideal)) := (opsI.drop n).take k

theorem after_append (l1 l2 : List (HloOp τ sig (Elt Ideal))) (V : Valuation τ sig (Elt Ideal)) :
    after (l1 ++ l2) V = after l2 (after l1 V) := by
  induction l1 generalizing V with
  | nil => rfl
  | cons a l ih => exact ih (a.result V)

/-- The fold over the first n + k operations, from the fold over the first n. -/
theorem after_take_add (n k : Nat) (V : Valuation τ sig (Elt Ideal)) :
    after (opsI.take (n + k)) V = after (chunk n k) (after (opsI.take n) V) := by
  rw [← after_append, List.take_add]

theorem length_ops : opsI.length = 207 := rfl

/-- The fold over all 207 operations is the fold over the line. -/
theorem after_take_all (V : Valuation τ sig (Elt Ideal)) : after (opsI.take 207) V = after opsI V := by
  rw [List.take_of_length_le (le_of_eq length_ops)]

end Cert.ReferenceIdeal.Chunks

end
-- ==== Proof.RefKeep.lean ====
/-
  What each piece of the reference's operation list leaves alone: a piece writes only its own results' buffers, so the
  argument arrays, and the earlier results a later piece still reads, hold after it what they held before it.
-/
import proofs.«107386_j38878043964109_1_alg».proof.Proof.RefChunks

set_option maxRecDepth 65536
set_option maxHeartbeats 2000000

noncomputable section

namespace Cert.ReferenceIdeal.Keep

open Cert.ReferenceIdeal Cert.ReferenceIdeal.Gen Cert.ReferenceIdeal.ValueP Cert.ReferenceIdeal.Chunks
open Idealize.ShloMosaic Idealize.ShloMosaic.TcCoe Idealize.SL.Sem Idealize.ShloMosaic.StableHlo

variable (Wv : Valuation τ sig (Elt Ideal))

theorem keep_A1 : after (chunk 0 8) Wv (Proc.devRef .tc main_arg0) = Wv (Proc.devRef .tc main_arg0)
    ∧ after (chunk 0 8) Wv (Proc.devRef .tc main_arg1) = Wv (Proc.devRef .tc main_arg1)
    ∧ after (chunk 0 8) Wv (Proc.devRef .tc main_arg2) = Wv (Proc.devRef .tc main_arg2)
    ∧ after (chunk 0 8) Wv (Proc.devRef .tc main_arg3) = Wv (Proc.devRef .tc main_arg3)
    ∧ after (chunk 0 8) Wv (Proc.devRef .tc main_arg4) = Wv (Proc.devRef .tc main_arg4)
    ∧ after (chunk 0 8) Wv (Proc.devRef .tc main_arg5) = Wv (Proc.devRef .tc main_arg5)
    ∧ after (chunk 0 8) Wv (Proc.devRef .tc main_arg6) = Wv (Proc.devRef .tc main_arg6)
    ∧ after (chunk 0 8) Wv (Proc.devRef .tc main_arg7) = Wv (Proc.devRef .tc main_arg7)
    ∧ after (chunk 0 8) Wv (Proc.devRef .tc main_arg8) = Wv (Proc.devRef .tc main_arg8)
    ∧ after (chunk 0 8) Wv (Proc.devRef .tc main_arg9) = Wv (Proc.devRef .tc main_arg9)
    ∧ after (chunk 0 8) Wv (Proc.devRef .tc main_arg10) = Wv (Proc.devRef .tc main_arg10)
    ∧ after (chunk 0 8) Wv (Proc.devRef .tc main_arg11) = Wv (Proc.devRef .tc main_arg11)
    ∧ after (chunk 0 8) Wv (Proc.devRef .tc main_arg12) = Wv (Proc.devRef .tc main_arg12) := by
  simp only [chunk, opsI, ops, List.drop_succ_cons, List.drop_zero, List.take_succ_cons, List.take_zero]
  refine ⟨?_, ?_, ?_, ?_, ?_, ?_, ?_, ?_, ?_, ?_, ?_, ?_, ?_⟩ <;> after_results_simp

theorem keep_A2a : after (chunk 8 11) Wv (Proc.devRef .tc main_arg0) = Wv (Proc.devRef .tc main_arg0)
    ∧ after (chunk 8 11) Wv (Proc.devRef .tc main_arg1) = Wv (Proc.devRef .tc main_arg1)
    ∧ after (chunk 8 11) Wv (Proc.devRef .tc main_arg2) = Wv (Proc.devRef .tc main_arg2)
    ∧ after (chunk 8 11) Wv (Proc.devRef .tc main_arg3) = Wv (Proc.devRef .tc main_arg3)
    ∧ after (chunk 8 11) Wv (Proc.devRef .tc main_arg4) = Wv (Proc.devRef .tc main_arg4)
    ∧ after (chunk 8 11) Wv (Proc.devRef .tc main_arg5) = Wv (Proc.devRef .tc main_arg5)
    ∧ after (chunk 8 11) Wv (Proc.devRef .tc main_arg6) = Wv (Proc.devRef .tc main_arg6)
    ∧ after (chunk 8 11) Wv (Proc.devRef .tc main_arg7) = Wv (Proc.devRef .tc main_arg7)
    ∧ after (chunk 8 11) Wv (Proc.devRef .tc main_arg8) = Wv (Proc.devRef .tc main_arg8)
    ∧ after (chunk 8 11) Wv (Proc.devRef .tc main_arg9) = Wv (Proc.devRef .tc main_arg9)
    ∧ after (chunk 8 11) Wv (Proc.devRef .tc main_arg10) = Wv (Proc.devRef .tc main_arg10)
    ∧ after (chunk 8 11) Wv (Proc.devRef .tc main_arg11) = Wv (Proc.devRef .tc main_arg11)
    ∧ after (chunk 8 11) Wv (Proc.devRef .tc main_arg12) = Wv (Proc.devRef .tc main_arg12)
    ∧ after (chunk 8 11) Wv (Proc.devRef .tc main_v1) = Wv (Proc.devRef .tc main_v1)
    ∧ after (chunk 8 11) Wv (Proc.devRef .tc main_v3) = Wv (Proc.devRef .tc main_v3)
    ∧ after (chunk 8 11) Wv (Proc.devRef .tc main_v4) = Wv (Proc.devRef .tc main_v4)
    ∧ after (chunk 8 11) Wv (Proc.devRef .tc main_v6) = Wv (Proc.devRef .tc main_v6)
    ∧ after (chunk 8 11) Wv (Proc.devRef .tc main_v7) = Wv (Proc.devRef .tc main_v7) := by
  simp only [chunk, opsI, ops, List.drop_succ_cons, List.drop_zero, List.take_succ_cons, List.take_zero]
  refine ⟨?_, ?_, ?_, ?_, ?_, ?_, ?_, ?_, ?_, ?_, ?_, ?_, ?_, ?_, ?_, ?_, ?_, ?_⟩ <;> after_results_simp

theorem keep_A2b : after (chunk 19 3) Wv (Proc.devRef .tc main_arg0) = Wv (Proc.devRef .tc main_arg0)
    ∧ after (chunk 19 3) Wv (Proc.devRef .tc main_arg1) = Wv (Proc.devRef .tc main_arg1)
    ∧ after (chunk 19 3) Wv (Proc.devRef .tc main_arg2) = Wv (Proc.devRef .tc main_arg2)
    ∧ after (chunk 19 3) Wv (Proc.devRef .tc main_arg3) = Wv (Proc.devRef .tc main_arg3)
    ∧ after (chunk 19 3) Wv (Proc.devRef .tc main_arg4) = Wv (Proc.devRef .tc main_arg4)
    ∧ after (chunk 19 3) Wv (Proc.devRef .tc main_arg5) = Wv (Proc.devRef .tc main_arg5)
    ∧ after (chunk 19 3) Wv (Proc.devRef .tc main_arg6) = Wv (Proc.devRef .tc main_arg6)
    ∧ after (chunk 19 3) Wv (Proc.devRef .tc main_arg7) = Wv (Proc.devRef .tc main_arg7)
    ∧ after (chunk 19 3) Wv (Proc.devRef .tc main_arg8) = Wv (Proc.devRef .tc main_arg8)
    ∧ after (chunk 19 3) Wv (Proc.devRef .tc main_arg9) = Wv (Proc.devRef .tc main_arg9)
    ∧ after (chunk 19 3) Wv (Proc.devRef .tc main_arg10) = Wv (Proc.devRef .tc main_arg10)
    ∧ after (chunk 19 3) Wv (Proc.devRef .tc main_arg11) = Wv (Proc.devRef .tc main_arg11)
    ∧ after (chunk 19 3) Wv (Proc.devRef .tc main_arg12) = Wv (Proc.devRef .tc main_arg12)
    ∧ after (chunk 19 3) Wv (Proc.devRef .tc main_v1) = Wv (Proc.devRef .tc main_v1)
    ∧ after (chunk 19 3) Wv (Proc.devRef .tc main_v3) = Wv (Proc.devRef .tc main_v3)
    ∧ after (chunk 19 3) Wv (Proc.devRef .tc main_v4) = Wv (Proc.devRef .tc main_v4)
    ∧ after (chunk 19 3) Wv (Proc.devRef .tc main_v6) = Wv (Proc.devRef .tc main_v6)
    ∧ after (chunk 19 3) Wv (Proc.devRef .tc main_v7) = Wv (Proc.devRef .tc main_v7) := by
  simp only [chunk, opsI, ops, List.drop_succ_cons, List.drop_zero, List.take_succ_cons, List.take_zero]
  refine ⟨?_, ?_, ?_, ?_, ?_, ?_, ?_, ?_, ?_, ?_, ?_, ?_, ?_, ?_, ?_, ?_, ?_, ?_⟩ <;> after_results_simp

theorem keep_A2c : after (chunk 22 19) Wv (Proc.devRef .tc main_arg0) = Wv (Proc.devRef .tc main_arg0)
    ∧ after (chunk 22 19) Wv (Proc.devRef .tc main_arg1) = Wv (Proc.devRef .tc main_arg1)
    ∧ after (chunk 22 19) Wv (Proc.devRef .tc main_arg2) = Wv (Proc.devRef .tc main_arg2)
    ∧ after (chunk 22 19) Wv (Proc.devRef .tc main_arg3) = Wv (Proc.devRef .tc main_arg3)
    ∧ after (chunk 22 19) Wv (Proc.devRef .tc main_arg4) = Wv (Proc.devRef .tc main_arg4)
    ∧ after (chunk 22 19) Wv (Proc.devRef .tc main_arg5) = Wv (Proc.devRef .tc main_arg5)
    ∧ after (chunk 22 19) Wv (Proc.devRef .tc main_arg6) = Wv (Proc.devRef .tc main_arg6)
    ∧ after (chunk 22 19) Wv (Proc.devRef .tc main_arg7) = Wv (Proc.devRef .tc main_arg7)
    ∧ after (chunk 22 19) Wv (Proc.devRef .tc main_arg8) = Wv (Proc.devRef .tc main_arg8)
    ∧ after (chunk 22 19) Wv (Proc.devRef .tc main_arg9) = Wv (Proc.devRef .tc main_arg9)
    ∧ after (chunk 22 19) Wv (Proc.devRef .tc main_arg10) = Wv (Proc.devRef .tc main_arg10)
    ∧ after (chunk 22 19) Wv (Proc.devRef .tc main_arg11) = Wv (Proc.devRef .tc main_arg11)
    ∧ after (chunk 22 19) Wv (Proc.devRef .tc main_arg12) = Wv (Proc.devRef .tc main_arg12)
    ∧ after (chunk 22 19) Wv (Proc.devRef .tc main_v1) = Wv (Proc.devRef .tc main_v1)
    ∧ after (chunk 22 19) Wv (Proc.devRef .tc main_v3) = Wv (Proc.devRef .tc main_v3)
    ∧ after (chunk 22 19) Wv (Proc.devRef .tc main_v4) = Wv (Proc.devRef .tc main_v4)
    ∧ after (chunk 22 19) Wv (Proc.devRef .tc main_v6) = Wv (Proc.devRef .tc main_v6)
    ∧ after (chunk 22 19) Wv (Proc.devRef .tc main_v7) = Wv (Proc.devRef .tc main_v7) := by
  simp only [chunk, opsI, ops, List.drop_succ_cons, List.drop_zero, List.take_succ_cons, List.take_zero]
  refine ⟨?_, ?_, ?_, ?_, ?_, ?_, ?_, ?_, ?_, ?_, ?_, ?_, ?_, ?_, ?_, ?_, ?_, ?_⟩ <;> after_results_simp

theorem keep_B : after (chunk 41 16) Wv (Proc.devRef .tc main_arg0) = Wv (Proc.devRef .tc main_arg0)
    ∧ after (chunk 41 16) Wv (Proc.devRef .tc main_arg1) = Wv (Proc.devRef .tc main_arg1)
    ∧ after (chunk 41 16) Wv (Proc.devRef .tc main_arg2) = Wv (Proc.devRef .tc main_arg2)
    ∧ after (chunk 41 16) Wv (Proc.devRef .tc main_arg3) = Wv (Proc.devRef .tc main_arg3)
    ∧ after (chunk 41 16) Wv (Proc.devRef .tc main_arg4) = Wv (Proc.devRef .tc main_arg4)
    ∧ after (chunk 41 16) Wv (Proc.devRef .tc main_arg5) = Wv (Proc.devRef .tc main_arg5)
    ∧ after (chunk 41 16) Wv (Proc.devRef .tc main_arg6) = Wv (Proc.devRef .tc main_arg6)
    ∧ after (chunk 41 16) Wv (Proc.devRef .tc main_arg7) = Wv (Proc.devRef .tc main_arg7)
    ∧ after (chunk 41 16) Wv (Proc.devRef .tc main_arg8) = Wv (Proc.devRef .tc main_arg8)
    ∧ after (chunk 41 16) Wv (Proc.devRef .tc main_arg9) = Wv (Proc.devRef .tc main_arg9)
    ∧ after (chunk 41 16) Wv (Proc.devRef .tc main_arg10) = Wv (Proc.devRef .tc main_arg10)
    ∧ after (chunk 41 16) Wv (Proc.devRef .tc main_arg11) = Wv (Proc.devRef .tc main_arg11)
    ∧ after (chunk 41 16) Wv (Proc.devRef .tc main_arg12) = Wv (Proc.devRef .tc main_arg12)
    ∧ after (chunk 41 16) Wv (Proc.devRef .tc main_v1) = Wv (Proc.devRef .tc main_v1)
    ∧ after (chunk 41 16) Wv (Proc.devRef .tc main_v3) = Wv (Proc.devRef .tc main_v3) := by
  simp only [chunk, opsI, ops, List.drop_succ_cons, List.drop_zero, List.take_succ_cons, List.take_zero]
  refine ⟨?_, ?_, ?_, ?_, ?_, ?_, ?_, ?_, ?_, ?_, ?_, ?_, ?_, ?_, ?_⟩ <;> after_results_simp

theorem keep_C : after (chunk 57 7) Wv (Proc.devRef .tc main_arg0) = Wv (Proc.devRef .tc main_arg0)
    ∧ after (chunk 57 7) Wv (Proc.devRef .tc main_arg1) = Wv (Proc.devRef .tc main_arg1)
    ∧ after (chunk 57 7) Wv (Proc.devRef .tc main_arg2) = Wv (Proc.devRef .tc main_arg2)
    ∧ after (chunk 57 7) Wv (Proc.devRef .tc main_arg3) = Wv (Proc.devRef .tc main_arg3)
    ∧ after (chunk 57 7) Wv (Proc.devRef .tc main_arg4) = Wv (Proc.devRef .tc main_arg4)
    ∧ after (chunk 57 7) Wv (Proc.devRef .tc main_arg5) = Wv (Proc.devRef .tc main_arg5)
    ∧ after (chunk 57 7) Wv (Proc.devRef .tc main_arg6) = Wv (Proc.devRef .tc main_arg6)
    ∧ after (chunk 57 7) Wv (Proc.devRef .tc main_arg7) = Wv (Proc.devRef .tc main_arg7)
    ∧ after (chunk 57 7) Wv (Proc.devRef .tc main_arg8) = Wv (Proc.devRef .tc main_arg8)
    ∧ after (chunk 57 7) Wv (Proc.devRef .tc main_arg9) = Wv (Proc.devRef .tc main_arg9)
    ∧ after (chunk 57 7) Wv (Proc.devRef .tc main_arg10) = Wv (Proc.devRef .tc main_arg10)
    ∧ after (chunk 57 7) Wv (Proc.devRef .tc main_arg11) = Wv (Proc.devRef .tc main_arg11)
    ∧ after (chunk 57 7) Wv (Proc.devRef .tc main_arg12) = Wv (Proc.devRef .tc main_arg12)
    ∧ after (chunk 57 7) Wv (Proc.devRef .tc main_v1) = Wv (Proc.devRef .tc main_v1)
    ∧ after (chunk 57 7) Wv (Proc.devRef .tc main_v3) = Wv (Proc.devRef .tc main_v3) := by
  simp only [chunk, opsI, ops, List.drop_succ_cons, List.drop_zero, List.take_succ_cons, List.take_zero]
  refine ⟨?_, ?_, ?_, ?_, ?_, ?_, ?_, ?_, ?_, ?_, ?_, ?_, ?_, ?_, ?_⟩ <;> after_results_simp

theorem keep_D1 : after (chunk 64 3) Wv (Proc.devRef .tc main_arg0) = Wv (Proc.devRef .tc main_arg0)
    ∧ after (chunk 64 3) Wv (Proc.devRef .tc main_arg1) = Wv (Proc.devRef .tc main_arg1)
    ∧ after (chunk 64 3) Wv (Proc.devRef .tc main_arg2) = Wv (Proc.devRef .tc main_arg2)
    ∧ after (chunk 64 3) Wv (Proc.devRef .tc main_arg3) = Wv (Proc.devRef .tc main_arg3)
    ∧ after (chunk 64 3) Wv (Proc.devRef .tc main_arg4) = Wv (Proc.devRef .tc main_arg4)
    ∧ after (chunk 64 3) Wv (Proc.devRef .tc main_arg5) = Wv (Proc.devRef .tc main_arg5)
    ∧ after (chunk 64 3) Wv (Proc.devRef .tc main_arg6) = Wv (Proc.devRef .tc main_arg6)
    ∧ after (chunk 64 3) Wv (Proc.devRef .tc main_arg7) = Wv (Proc.devRef .tc main_arg7)
    ∧ after (chunk 64 3) Wv (Proc.devRef .tc main_arg8) = Wv (Proc.devRef .tc main_arg8)
    ∧ after (chunk 64 3) Wv (Proc.devRef .tc main_arg9) = Wv (Proc.devRef .tc main_arg9)
    ∧ after (chunk 64 3) Wv (Proc.devRef .tc main_arg10) = Wv (Proc.devRef .tc main_arg10)
    ∧ after (chunk 64 3) Wv (Proc.devRef .tc main_arg11) = Wv (Proc.devRef .tc main_arg11)
    ∧ after (chunk 64 3) Wv (Proc.devRef .tc main_arg12) = Wv (Proc.devRef .tc main_arg12)
    ∧ after (chunk 64 3) Wv (Proc.devRef .tc main_v1) = Wv (Proc.devRef .tc main_v1)
    ∧ after (chunk 64 3) Wv (Proc.devRef .tc main_v3) = Wv (Proc.devRef .tc main_v3)
    ∧ after (chunk 64 3) Wv (Proc.devRef .tc main_v48) = Wv (Proc.devRef .tc main_v48) := by
  simp only [chunk, opsI, ops, List.drop_succ_cons, List.drop_zero, List.take_succ_cons, List.take_zero]
  refine ⟨?_, ?_, ?_, ?_, ?_, ?_, ?_, ?_, ?_, ?_, ?_, ?_, ?_, ?_, ?_, ?_⟩ <;> after_results_simp

theorem keep_D2a : after (chunk 67 11) Wv (Proc.devRef .tc main_arg0) = Wv (Proc.devRef .tc main_arg0)
    ∧ after (chunk 67 11) Wv (Proc.devRef .tc main_arg1) = Wv (Proc.devRef .tc main_arg1)
    ∧ after (chunk 67 11) Wv (Proc.devRef .tc main_arg2) = Wv (Proc.devRef .tc main_arg2)
    ∧ after (chunk 67 11) Wv (Proc.devRef .tc main_arg3) = Wv (Proc.devRef .tc main_arg3)
    ∧ after (chunk 67 11) Wv (Proc.devRef .tc main_arg4) = Wv (Proc.devRef .tc main_arg4)
    ∧ after (chunk 67 11) Wv (Proc.devRef .tc main_arg5) = Wv (Proc.devRef .tc main_arg5)
    ∧ after (chunk 67 11) Wv (Proc.devRef .tc main_arg6) = Wv (Proc.devRef .tc main_arg6)
    ∧ after (chunk 67 11) Wv (Proc.devRef .tc main_arg7) = Wv (Proc.devRef .tc main_arg7)
    ∧ after (chunk 67 11) Wv (Proc.devRef .tc main_arg8) = Wv (Proc.devRef .tc main_arg8)
    ∧ after (chunk 67 11) Wv (Proc.devRef .tc main_arg9) = Wv (Proc.devRef .tc main_arg9)
    ∧ after (chunk 67 11) Wv (Proc.devRef .tc main_arg10) = Wv (Proc.devRef .tc main_arg10)
    ∧ after (chunk 67 11) Wv (Proc.devRef .tc main_arg11) = Wv (Proc.devRef .tc main_arg11)
    ∧ after (chunk 67 11) Wv (Proc.devRef .tc main_arg12) = Wv (Proc.devRef .tc main_arg12)
    ∧ after (chunk 67 11) Wv (Proc.devRef .tc main_v1) = Wv (Proc.devRef .tc main_v1)
    ∧ after (chunk 67 11) Wv (Proc.devRef .tc main_v3) = Wv (Proc.devRef .tc main_v3)
    ∧ after (chunk 67 11) Wv (Proc.devRef .tc main_v48) = Wv (Proc.devRef .tc main_v48)
    ∧ after (chunk 67 11) Wv (Proc.devRef .tc main_v50) = Wv (Proc.devRef .tc main_v50)
    ∧ after (chunk 67 11) Wv (Proc.devRef .tc main_v51) = Wv (Proc.devRef .tc main_v51) := by
  simp only [chunk, opsI, ops, List.drop_succ_cons, List.drop_zero, List.take_succ_cons, List.take_zero]
  refine ⟨?_, ?_, ?_, ?_, ?_, ?_, ?_, ?_, ?_, ?_, ?_, ?_, ?_, ?_, ?_, ?_, ?_, ?_⟩ <;> after_results_simp

theorem keep_D2b : after (chunk 78 3) Wv (Proc.devRef .tc main_arg0) = Wv (Proc.devRef .tc main_arg0)
    ∧ after (chunk 78 3) Wv (Proc.devRef .tc main_arg1) = Wv (Proc.devRef .tc main_arg1)
    ∧ after (chunk 78 3) Wv (Proc.devRef .tc main_arg2) = Wv (Proc.devRef .tc main_arg2)
    ∧ after (chunk 78 3) Wv (Proc.devRef .tc main_arg3) = Wv (Proc.devRef .tc main_arg3)
    ∧ after (chunk 78 3) Wv (Proc.devRef .tc main_arg4) = Wv (Proc.devRef .tc main_arg4)
    ∧ after (chunk 78 3) Wv (Proc.devRef .tc main_arg5) = Wv (Proc.devRef .tc main_arg5)
    ∧ after (chunk 78 3) Wv (Proc.devRef .tc main_arg6) = Wv (Proc.devRef .tc main_arg6)
    ∧ after (chunk 78 3) Wv (Proc.devRef .tc main_arg7) = Wv (Proc.devRef .tc main_arg7)
    ∧ after (chunk 78 3) Wv (Proc.devRef .tc main_arg8) = Wv (Proc.devRef .tc main_arg8)
    ∧ after (chunk 78 3) Wv (Proc.devRef .tc main_arg9) = Wv (Proc.devRef .tc main_arg9)
    ∧ after (chunk 78 3) Wv (Proc.devRef .tc main_arg10) = Wv (Proc.devRef .tc main_arg10)
    ∧ after (chunk 78 3) Wv (Proc.devRef .tc main_arg11) = Wv (Proc.devRef .tc main_arg11)
    ∧ after (chunk 78 3) Wv (Proc.devRef .tc main_arg12) = Wv (Proc.devRef .tc main_arg12)
    ∧ after (chunk 78 3) Wv (Proc.devRef .tc main_v1) = Wv (Proc.devRef .tc main_v1)
    ∧ after (chunk 78 3) Wv (Proc.devRef .tc main_v3) = Wv (Proc.devRef .tc main_v3)
    ∧ after (chunk 78 3) Wv (Proc.devRef .tc main_v48) = Wv (Proc.devRef .tc main_v48)
    ∧ after (chunk 78 3) Wv (Proc.devRef .tc main_v50) = Wv (Proc.devRef .tc main_v50)
    ∧ after (chunk 78 3) Wv (Proc.devRef .tc main_v51) = Wv (Proc.devRef .tc main_v51) := by
  simp only [chunk, opsI, ops, List.drop_succ_cons, List.drop_zero, List.take_succ_cons, List.take_zero]
  refine ⟨?_, ?_, ?_, ?_, ?_, ?_, ?_, ?_, ?_, ?_, ?_, ?_, ?_, ?_, ?_, ?_, ?_, ?_⟩ <;> after_results_simp

theorem keep_D2c : after (chunk 81 19) Wv (Proc.devRef .tc main_arg0) = Wv (Proc.devRef .tc main_arg0)
    ∧ after (chunk 81 19) Wv (Proc.devRef .tc main_arg1) = Wv (Proc.devRef .tc main_arg1)
    ∧ after (chunk 81 19) Wv (Proc.devRef .tc main_arg2) = Wv (Proc.devRef .tc main_arg2)
    ∧ after (chunk 81 19) Wv (Proc.devRef .tc main_arg3) = Wv (Proc.devRef .tc main_arg3)
    ∧ after (chunk 81 19) Wv (Proc.devRef .tc main_arg4) = Wv (Proc.devRef .tc main_arg4)
    ∧ after (chunk 81 19) Wv (Proc.devRef .tc main_arg5) = Wv (Proc.devRef .tc main_arg5)
    ∧ after (chunk 81 19) Wv (Proc.devRef .tc main_arg6) = Wv (Proc.devRef .tc main_arg6)
    ∧ after (chunk 81 19) Wv (Proc.devRef .tc main_arg7) = Wv (Proc.devRef .tc main_arg7)
    ∧ after (chunk 81 19) Wv (Proc.devRef .tc main_arg8) = Wv (Proc.devRef .tc main_arg8)
    ∧ after (chunk 81 19) Wv (Proc.devRef .tc main_arg9) = Wv (Proc.devRef .tc main_arg9)
    ∧ after (chunk 81 19) Wv (Proc.devRef .tc main_arg10) = Wv (Proc.devRef .tc main_arg10)
    ∧ after (chunk 81 19) Wv (Proc.devRef .tc main_arg11) = Wv (Proc.devRef .tc main_arg11)
    ∧ after (chunk 81 19) Wv (Proc.devRef .tc main_arg12) = Wv (Proc.devRef .tc main_arg12)
    ∧ after (chunk 81 19) Wv (Proc.devRef .tc main_v1) = Wv (Proc.devRef .tc main_v1)
    ∧ after (chunk 81 19) Wv (Proc.devRef .tc main_v3) = Wv (Proc.devRef .tc main_v3)
    ∧ after (chunk 81 19) Wv (Proc.devRef .tc main_v48) = Wv (Proc.devRef .tc main_v48)
    ∧ after (chunk 81 19) Wv (Proc.devRef .tc main_v50) = Wv (Proc.devRef .tc main_v50)
    ∧ after (chunk 81 19) Wv (Proc.devRef .tc main_v51) = Wv (Proc.devRef .tc main_v51) := by
  simp only [chunk, opsI, ops, List.drop_succ_cons, List.drop_zero, List.take_succ_cons, List.take_zero]
  refine ⟨?_, ?_, ?_, ?_, ?_, ?_, ?_, ?_, ?_, ?_, ?_, ?_, ?_, ?_, ?_, ?_, ?_, ?_⟩ <;> after_results_simp

theorem keep_E : after (chunk 100 16) Wv (Proc.devRef .tc main_arg0) = Wv (Proc.devRef .tc main_arg0)
    ∧ after (chunk 100 16) Wv (Proc.devRef .tc main_arg1) = Wv (Proc.devRef .tc main_arg1)
    ∧ after (chunk 100 16) Wv (Proc.devRef .tc main_arg2) = Wv (Proc.devRef .tc main_arg2)
    ∧ after (chunk 100 16) Wv (Proc.devRef .tc main_arg3) = Wv (Proc.devRef .tc main_arg3)
    ∧ after (chunk 100 16) Wv (Proc.devRef .tc main_arg4) = Wv (Proc.devRef .tc main_arg4)
    ∧ after (chunk 100 16) Wv (Proc.devRef .tc main_arg5) = Wv (Proc.devRef .tc main_arg5)
    ∧ after (chunk 100 16) Wv (Proc.devRef .tc main_arg6) = Wv (Proc.devRef .tc main_arg6)
    ∧ after (chunk 100 16) Wv (Proc.devRef .tc main_arg7) = Wv (Proc.devRef .tc main_arg7)
    ∧ after (chunk 100 16) Wv (Proc.devRef .tc main_arg8) = Wv (Proc.devRef .tc main_arg8)
    ∧ after (chunk 100 16) Wv (Proc.devRef .tc main_arg9) = Wv (Proc.devRef .tc main_arg9)
    ∧ after (chunk 100 16) Wv (Proc.devRef .tc main_arg10) = Wv (Proc.devRef .tc main_arg10)
    ∧ after (chunk 100 16) Wv (Proc.devRef .tc main_arg11) = Wv (Proc.devRef .tc main_arg11)
    ∧ after (chunk 100 16) Wv (Proc.devRef .tc main_arg12) = Wv (Proc.devRef .tc main_arg12)
    ∧ after (chunk 100 16) Wv (Proc.devRef .tc main_v1) = Wv (Proc.devRef .tc main_v1)
    ∧ after (chunk 100 16) Wv (Proc.devRef .tc main_v3) = Wv (Proc.devRef .tc main_v3) := by
  simp only [chunk, opsI, ops, List.drop_succ_cons, List.drop_zero, List.take_succ_cons, List.take_zero]
  refine ⟨?_, ?_, ?_, ?_, ?_, ?_, ?_, ?_, ?_, ?_, ?_, ?_, ?_, ?_, ?_⟩ <;> after_results_simp

theorem keep_F : after (chunk 116 7) Wv (Proc.devRef .tc main_arg0) = Wv (Proc.devRef .tc main_arg0)
    ∧ after (chunk 116 7) Wv (Proc.devRef .tc main_arg1) = Wv (Proc.devRef .tc main_arg1)
    ∧ after (chunk 116 7) Wv (Proc.devRef .tc main_arg2) = Wv (Proc.devRef .tc main_arg2)
    ∧ after (chunk 116 7) Wv (Proc.devRef .tc main_arg3) = Wv (Proc.devRef .tc main_arg3)
    ∧ after (chunk 116 7) Wv (Proc.devRef .tc main_arg4) = Wv (Proc.devRef .tc main_arg4)
    ∧ after (chunk 116 7) Wv (Proc.devRef .tc main_arg5) = Wv (Proc.devRef .tc main_arg5)
    ∧ after (chunk 116 7) Wv (Proc.devRef .tc main_arg6) = Wv (Proc.devRef .tc main_arg6)
    ∧ after (chunk 116 7) Wv (Proc.devRef .tc main_arg7) = Wv (Proc.devRef .tc main_arg7)
    ∧ after (chunk 116 7) Wv (Proc.devRef .tc main_arg8) = Wv (Proc.devRef .tc main_arg8)
    ∧ after (chunk 116 7) Wv (Proc.devRef .tc main_arg9) = Wv (Proc.devRef .tc main_arg9)
    ∧ after (chunk 116 7) Wv (Proc.devRef .tc main_arg10) = Wv (Proc.devRef .tc main_arg10)
    ∧ after (chunk 116 7) Wv (Proc.devRef .tc main_arg11) = Wv (Proc.devRef .tc main_arg11)
    ∧ after (chunk 116 7) Wv (Proc.devRef .tc main_arg12) = Wv (Proc.devRef .tc main_arg12)
    ∧ after (chunk 116 7) Wv (Proc.devRef .tc main_v1) = Wv (Proc.devRef .tc main_v1)
    ∧ after (chunk 116 7) Wv (Proc.devRef .tc main_v3) = Wv (Proc.devRef .tc main_v3) := by
  simp only [chunk, opsI, ops, List.drop_succ_cons, List.drop_zero, List.take_succ_cons, List.take_zero]
  refine ⟨?_, ?_, ?_, ?_, ?_, ?_, ?_, ?_, ?_, ?_, ?_, ?_, ?_, ?_, ?_⟩ <;> after_results_simp

end Cert.ReferenceIdeal.Keep

end
-- ==== Proof.RefKeep2.lean ====
/-
  What each piece of the reference's operation list leaves alone: a piece writes only its own results' buffers, so the
  argument arrays, and the earlier results a later piece still reads, hold after it what they held before it.
-/
import proofs.«107386_j38878043964109_1_alg».proof.Proof.RefChunks

set_option maxRecDepth 65536
set_option maxHeartbeats 2000000

noncomputable section

namespace Cert.ReferenceIdeal.Keep

open Cert.ReferenceIdeal Cert.ReferenceIdeal.Gen Cert.ReferenceIdeal.ValueP Cert.ReferenceIdeal.Chunks
open Idealize.ShloMosaic Idealize.ShloMosaic.TcCoe Idealize.SL.Sem Idealize.ShloMosaic.StableHlo

variable (Wv : Valuation τ sig (Elt Ideal))

theorem keep_G1 : after (chunk 123 3) Wv (Proc.devRef .tc main_arg0) = Wv (Proc.devRef .tc main_arg0)
    ∧ after (chunk 123 3) Wv (Proc.devRef .tc main_arg1) = Wv (Proc.devRef .tc main_arg1)
    ∧ after (chunk 123 3) Wv (Proc.devRef .tc main_arg2) = Wv (Proc.devRef .tc main_arg2)
    ∧ after (chunk 123 3) Wv (Proc.devRef .tc main_arg3) = Wv (Proc.devRef .tc main_arg3)
    ∧ after (chunk 123 3) Wv (Proc.devRef .tc main_arg4) = Wv (Proc.devRef .tc main_arg4)
    ∧ after (chunk 123 3) Wv (Proc.devRef .tc main_arg5) = Wv (Proc.devRef .tc main_arg5)
    ∧ after (chunk 123 3) Wv (Proc.devRef .tc main_arg6) = Wv (Proc.devRef .tc main_arg6)
    ∧ after (chunk 123 3) Wv (Proc.devRef .tc main_arg7) = Wv (Proc.devRef .tc main_arg7)
    ∧ after (chunk 123 3) Wv (Proc.devRef .tc main_arg8) = Wv (Proc.devRef .tc main_arg8)
    ∧ after (chunk 123 3) Wv (Proc.devRef .tc main_arg9) = Wv (Proc.devRef .tc main_arg9)
    ∧ after (chunk 123 3) Wv (Proc.devRef .tc main_arg10) = Wv (Proc.devRef .tc main_arg10)
    ∧ after (chunk 123 3) Wv (Proc.devRef .tc main_arg11) = Wv (Proc.devRef .tc main_arg11)
    ∧ after (chunk 123 3) Wv (Proc.devRef .tc main_arg12) = Wv (Proc.devRef .tc main_arg12)
    ∧ after (chunk 123 3) Wv (Proc.devRef .tc main_v92) = Wv (Proc.devRef .tc main_v92) := by
  simp only [chunk, opsI, ops, List.drop_succ_cons, List.drop_zero, List.take_succ_cons, List.take_zero]
  refine ⟨?_, ?_, ?_, ?_, ?_, ?_, ?_, ?_, ?_, ?_, ?_, ?_, ?_, ?_⟩ <;> after_results_simp

theorem keep_G2a : after (chunk 126 11) Wv (Proc.devRef .tc main_arg0) = Wv (Proc.devRef .tc main_arg0)
    ∧ after (chunk 126 11) Wv (Proc.devRef .tc main_arg1) = Wv (Proc.devRef .tc main_arg1)
    ∧ after (chunk 126 11) Wv (Proc.devRef .tc main_arg2) = Wv (Proc.devRef .tc main_arg2)
    ∧ after (chunk 126 11) Wv (Proc.devRef .tc main_arg3) = Wv (Proc.devRef .tc main_arg3)
    ∧ after (chunk 126 11) Wv (Proc.devRef .tc main_arg4) = Wv (Proc.devRef .tc main_arg4)
    ∧ after (chunk 126 11) Wv (Proc.devRef .tc main_arg5) = Wv (Proc.devRef .tc main_arg5)
    ∧ after (chunk 126 11) Wv (Proc.devRef .tc main_arg6) = Wv (Proc.devRef .tc main_arg6)
    ∧ after (chunk 126 11) Wv (Proc.devRef .tc main_arg7) = Wv (Proc.devRef .tc main_arg7)
    ∧ after (chunk 126 11) Wv (Proc.devRef .tc main_arg8) = Wv (Proc.devRef .tc main_arg8)
    ∧ after (chunk 126 11) Wv (Proc.devRef .tc main_arg9) = Wv (Proc.devRef .tc main_arg9)
    ∧ after (chunk 126 11) Wv (Proc.devRef .tc main_arg10) = Wv (Proc.devRef .tc main_arg10)
    ∧ after (chunk 126 11) Wv (Proc.devRef .tc main_arg11) = Wv (Proc.devRef .tc main_arg11)
    ∧ after (chunk 126 11) Wv (Proc.devRef .tc main_arg12) = Wv (Proc.devRef .tc main_arg12)
    ∧ after (chunk 126 11) Wv (Proc.devRef .tc main_v92) = Wv (Proc.devRef .tc main_v92)
    ∧ after (chunk 126 11) Wv (Proc.devRef .tc main_v94) = Wv (Proc.devRef .tc main_v94)
    ∧ after (chunk 126 11) Wv (Proc.devRef .tc main_v95) = Wv (Proc.devRef .tc main_v95) := by
  simp only [chunk, opsI, ops, List.drop_succ_cons, List.drop_zero, List.take_succ_cons, List.take_zero]
  refine ⟨?_, ?_, ?_, ?_, ?_, ?_, ?_, ?_, ?_, ?_, ?_, ?_, ?_, ?_, ?_, ?_⟩ <;> after_results_simp

theorem keep_G2b : after (chunk 137 3) Wv (Proc.devRef .tc main_arg0) = Wv (Proc.devRef .tc main_arg0)
    ∧ after (chunk 137 3) Wv (Proc.devRef .tc main_arg1) = Wv (Proc.devRef .tc main_arg1)
    ∧ after (chunk 137 3) Wv (Proc.devRef .tc main_arg2) = Wv (Proc.devRef .tc main_arg2)
    ∧ after (chunk 137 3) Wv (Proc.devRef .tc main_arg3) = Wv (Proc.devRef .tc main_arg3)
    ∧ after (chunk 137 3) Wv (Proc.devRef .tc main_arg4) = Wv (Proc.devRef .tc main_arg4)
    ∧ after (chunk 137 3) Wv (Proc.devRef .tc main_arg5) = Wv (Proc.devRef .tc main_arg5)
    ∧ after (chunk 137 3) Wv (Proc.devRef .tc main_arg6) = Wv (Proc.devRef .tc main_arg6)
    ∧ after (chunk 137 3) Wv (Proc.devRef .tc main_arg7) = Wv (Proc.devRef .tc main_arg7)
    ∧ after (chunk 137 3) Wv (Proc.devRef .tc main_arg8) = Wv (Proc.devRef .tc main_arg8)
    ∧ after (chunk 137 3) Wv (Proc.devRef .tc main_arg9) = Wv (Proc.devRef .tc main_arg9)
    ∧ after (chunk 137 3) Wv (Proc.devRef .tc main_arg10) = Wv (Proc.devRef .tc main_arg10)
    ∧ after (chunk 137 3) Wv (Proc.devRef .tc main_arg11) = Wv (Proc.devRef .tc main_arg11)
    ∧ after (chunk 137 3) Wv (Proc.devRef .tc main_arg12) = Wv (Proc.devRef .tc main_arg12)
    ∧ after (chunk 137 3) Wv (Proc.devRef .tc main_v92) = Wv (Proc.devRef .tc main_v92)
    ∧ after (chunk 137 3) Wv (Proc.devRef .tc main_v94) = Wv (Proc.devRef .tc main_v94)
    ∧ after (chunk 137 3) Wv (Proc.devRef .tc main_v95) = Wv (Proc.devRef .tc main_v95) := by
  simp only [chunk, opsI, ops, List.drop_succ_cons, List.drop_zero, List.take_succ_cons, List.take_zero]
  refine ⟨?_, ?_, ?_, ?_, ?_, ?_, ?_, ?_, ?_, ?_, ?_, ?_, ?_, ?_, ?_, ?_⟩ <;> after_results_simp

theorem keep_G2c : after (chunk 140 19) Wv (Proc.devRef .tc main_arg0) = Wv (Proc.devRef .tc main_arg0)
    ∧ after (chunk 140 19) Wv (Proc.devRef .tc main_arg1) = Wv (Proc.devRef .tc main_arg1)
    ∧ after (chunk 140 19) Wv (Proc.devRef .tc main_arg2) = Wv (Proc.devRef .tc main_arg2)
    ∧ after (chunk 140 19) Wv (Proc.devRef .tc main_arg3) = Wv (Proc.devRef .tc main_arg3)
    ∧ after (chunk 140 19) Wv (Proc.devRef .tc main_arg4) = Wv (Proc.devRef .tc main_arg4)
    ∧ after (chunk 140 19) Wv (Proc.devRef .tc main_arg5) = Wv (Proc.devRef .tc main_arg5)
    ∧ after (chunk 140 19) Wv (Proc.devRef .tc main_arg6) = Wv (Proc.devRef .tc main_arg6)
    ∧ after (chunk 140 19) Wv (Proc.devRef .tc main_arg7) = Wv (Proc.devRef .tc main_arg7)
    ∧ after (chunk 140 19) Wv (Proc.devRef .tc main_arg8) = Wv (Proc.devRef .tc main_arg8)
    ∧ after (chunk 140 19) Wv (Proc.devRef .tc main_arg9) = Wv (Proc.devRef .tc main_arg9)
    ∧ after (chunk 140 19) Wv (Proc.devRef .tc main_arg10) = Wv (Proc.devRef .tc main_arg10)
    ∧ after (chunk 140 19) Wv (Proc.devRef .tc main_arg11) = Wv (Proc.devRef .tc main_arg11)
    ∧ after (chunk 140 19) Wv (Proc.devRef .tc main_arg12) = Wv (Proc.devRef .tc main_arg12)
    ∧ after (chunk 140 19) Wv (Proc.devRef .tc main_v92) = Wv (Proc.devRef .tc main_v92)
    ∧ after (chunk 140 19) Wv (Proc.devRef .tc main_v94) = Wv (Proc.devRef .tc main_v94)
    ∧ after (chunk 140 19) Wv (Proc.devRef .tc main_v95) = Wv (Proc.devRef .tc main_v95) := by
  simp only [chunk, opsI, ops, List.drop_succ_cons, List.drop_zero, List.take_succ_cons, List.take_zero]
  refine ⟨?_, ?_, ?_, ?_, ?_, ?_, ?_, ?_, ?_, ?_, ?_, ?_, ?_, ?_, ?_, ?_⟩ <;> after_results_simp

theorem keep_H : after (chunk 159 16) Wv (Proc.devRef .tc main_arg0) = Wv (Proc.devRef .tc main_arg0)
    ∧ after (chunk 159 16) Wv (Proc.devRef .tc main_arg1) = Wv (Proc.devRef .tc main_arg1)
    ∧ after (chunk 159 16) Wv (Proc.devRef .tc main_arg2) = Wv (Proc.devRef .tc main_arg2)
    ∧ after (chunk 159 16) Wv (Proc.devRef .tc main_arg3) = Wv (Proc.devRef .tc main_arg3)
    ∧ after (chunk 159 16) Wv (Proc.devRef .tc main_arg4) = Wv (Proc.devRef .tc main_arg4)
    ∧ after (chunk 159 16) Wv (Proc.devRef .tc main_arg5) = Wv (Proc.devRef .tc main_arg5)
    ∧ after (chunk 159 16) Wv (Proc.devRef .tc main_arg6) = Wv (Proc.devRef .tc main_arg6)
    ∧ after (chunk 159 16) Wv (Proc.devRef .tc main_arg7) = Wv (Proc.devRef .tc main_arg7)
    ∧ after (chunk 159 16) Wv (Proc.devRef .tc main_arg8) = Wv (Proc.devRef .tc main_arg8)
    ∧ after (chunk 159 16) Wv (Proc.devRef .tc main_arg9) = Wv (Proc.devRef .tc main_arg9)
    ∧ after (chunk 159 16) Wv (Proc.devRef .tc main_arg10) = Wv (Proc.devRef .tc main_arg10)
    ∧ after (chunk 159 16) Wv (Proc.devRef .tc main_arg11) = Wv (Proc.devRef .tc main_arg11)
    ∧ after (chunk 159 16) Wv (Proc.devRef .tc main_arg12) = Wv (Proc.devRef .tc main_arg12) := by
  simp only [chunk, opsI, ops, List.drop_succ_cons, List.drop_zero, List.take_succ_cons, List.take_zero]
  refine ⟨?_, ?_, ?_, ?_, ?_, ?_, ?_, ?_, ?_, ?_, ?_, ?_, ?_⟩ <;> after_results_simp

theorem keep_I1 : after (chunk 175 6) Wv (Proc.devRef .tc main_arg0) = Wv (Proc.devRef .tc main_arg0)
    ∧ after (chunk 175 6) Wv (Proc.devRef .tc main_arg1) = Wv (Proc.devRef .tc main_arg1)
    ∧ after (chunk 175 6) Wv (Proc.devRef .tc main_arg2) = Wv (Proc.devRef .tc main_arg2)
    ∧ after (chunk 175 6) Wv (Proc.devRef .tc main_arg3) = Wv (Proc.devRef .tc main_arg3)
    ∧ after (chunk 175 6) Wv (Proc.devRef .tc main_arg4) = Wv (Proc.devRef .tc main_arg4)
    ∧ after (chunk 175 6) Wv (Proc.devRef .tc main_arg5) = Wv (Proc.devRef .tc main_arg5)
    ∧ after (chunk 175 6) Wv (Proc.devRef .tc main_arg6) = Wv (Proc.devRef .tc main_arg6)
    ∧ after (chunk 175 6) Wv (Proc.devRef .tc main_arg7) = Wv (Proc.devRef .tc main_arg7)
    ∧ after (chunk 175 6) Wv (Proc.devRef .tc main_arg8) = Wv (Proc.devRef .tc main_arg8)
    ∧ after (chunk 175 6) Wv (Proc.devRef .tc main_arg9) = Wv (Proc.devRef .tc main_arg9)
    ∧ after (chunk 175 6) Wv (Proc.devRef .tc main_arg10) = Wv (Proc.devRef .tc main_arg10)
    ∧ after (chunk 175 6) Wv (Proc.devRef .tc main_arg11) = Wv (Proc.devRef .tc main_arg11)
    ∧ after (chunk 175 6) Wv (Proc.devRef .tc main_arg12) = Wv (Proc.devRef .tc main_arg12) := by
  simp only [chunk, opsI, ops, List.drop_succ_cons, List.drop_zero, List.take_succ_cons, List.take_zero]
  refine ⟨?_, ?_, ?_, ?_, ?_, ?_, ?_, ?_, ?_, ?_, ?_, ?_, ?_⟩ <;> after_results_simp

theorem keep_I2 : after (chunk 181 7) Wv (Proc.devRef .tc main_arg0) = Wv (Proc.devRef .tc main_arg0)
    ∧ after (chunk 181 7) Wv (Proc.devRef .tc main_arg1) = Wv (Proc.devRef .tc main_arg1)
    ∧ after (chunk 181 7) Wv (Proc.devRef .tc main_arg2) = Wv (Proc.devRef .tc main_arg2)
    ∧ after (chunk 181 7) Wv (Proc.devRef .tc main_arg3) = Wv (Proc.devRef .tc main_arg3)
    ∧ after (chunk 181 7) Wv (Proc.devRef .tc main_arg4) = Wv (Proc.devRef .tc main_arg4)
    ∧ after (chunk 181 7) Wv (Proc.devRef .tc main_arg5) = Wv (Proc.devRef .tc main_arg5)
    ∧ after (chunk 181 7) Wv (Proc.devRef .tc main_arg6) = Wv (Proc.devRef .tc main_arg6)
    ∧ after (chunk 181 7) Wv (Proc.devRef .tc main_arg7) = Wv (Proc.devRef .tc main_arg7)
    ∧ after (chunk 181 7) Wv (Proc.devRef .tc main_arg8) = Wv (Proc.devRef .tc main_arg8)
    ∧ after (chunk 181 7) Wv (Proc.devRef .tc main_arg9) = Wv (Proc.devRef .tc main_arg9)
    ∧ after (chunk 181 7) Wv (Proc.devRef .tc main_arg10) = Wv (Proc.devRef .tc main_arg10)
    ∧ after (chunk 181 7) Wv (Proc.devRef .tc main_arg11) = Wv (Proc.devRef .tc main_arg11)
    ∧ after (chunk 181 7) Wv (Proc.devRef .tc main_arg12) = Wv (Proc.devRef .tc main_arg12) := by
  simp only [chunk, opsI, ops, List.drop_succ_cons, List.drop_zero, List.take_succ_cons, List.take_zero]
  refine ⟨?_, ?_, ?_, ?_, ?_, ?_, ?_, ?_, ?_, ?_, ?_, ?_, ?_⟩ <;> after_results_simp

theorem keep_I3 : after (chunk 188 4) Wv (Proc.devRef .tc main_arg0) = Wv (Proc.devRef .tc main_arg0)
    ∧ after (chunk 188 4) Wv (Proc.devRef .tc main_arg1) = Wv (Proc.devRef .tc main_arg1)
    ∧ after (chunk 188 4) Wv (Proc.devRef .tc main_arg2) = Wv (Proc.devRef .tc main_arg2)
    ∧ after (chunk 188 4) Wv (Proc.devRef .tc main_arg3) = Wv (Proc.devRef .tc main_arg3)
    ∧ after (chunk 188 4) Wv (Proc.devRef .tc main_arg4) = Wv (Proc.devRef .tc main_arg4)
    ∧ after (chunk 188 4) Wv (Proc.devRef .tc main_arg5) = Wv (Proc.devRef .tc main_arg5)
    ∧ after (chunk 188 4) Wv (Proc.devRef .tc main_arg6) = Wv (Proc.devRef .tc main_arg6)
    ∧ after (chunk 188 4) Wv (Proc.devRef .tc main_arg7) = Wv (Proc.devRef .tc main_arg7)
    ∧ after (chunk 188 4) Wv (Proc.devRef .tc main_arg8) = Wv (Proc.devRef .tc main_arg8)
    ∧ after (chunk 188 4) Wv (Proc.devRef .tc main_arg9) = Wv (Proc.devRef .tc main_arg9)
    ∧ after (chunk 188 4) Wv (Proc.devRef .tc main_arg10) = Wv (Proc.devRef .tc main_arg10)
    ∧ after (chunk 188 4) Wv (Proc.devRef .tc main_arg11) = Wv (Proc.devRef .tc main_arg11)
    ∧ after (chunk 188 4) Wv (Proc.devRef .tc main_arg12) = Wv (Proc.devRef .tc main_arg12) := by
  simp only [chunk, opsI, ops, List.drop_succ_cons, List.drop_zero, List.take_succ_cons, List.take_zero]
  refine ⟨?_, ?_, ?_, ?_, ?_, ?_, ?_, ?_, ?_, ?_, ?_, ?_, ?_⟩ <;> after_results_simp

theorem keep_I4a : after (chunk 192 5) Wv (Proc.devRef .tc main_arg0) = Wv (Proc.devRef .tc main_arg0)
    ∧ after (chunk 192 5) Wv (Proc.devRef .tc main_arg1) = Wv (Proc.devRef .tc main_arg1)
    ∧ after (chunk 192 5) Wv (Proc.devRef .tc main_arg2) = Wv (Proc.devRef .tc main_arg2)
    ∧ after (chunk 192 5) Wv (Proc.devRef .tc main_arg3) = Wv (Proc.devRef .tc main_arg3)
    ∧ after (chunk 192 5) Wv (Proc.devRef .tc main_arg4) = Wv (Proc.devRef .tc main_arg4)
    ∧ after (chunk 192 5) Wv (Proc.devRef .tc main_arg5) = Wv (Proc.devRef .tc main_arg5)
    ∧ after (chunk 192 5) Wv (Proc.devRef .tc main_arg6) = Wv (Proc.devRef .tc main_arg6)
    ∧ after (chunk 192 5) Wv (Proc.devRef .tc main_arg7) = Wv (Proc.devRef .tc main_arg7)
    ∧ after (chunk 192 5) Wv (Proc.devRef .tc main_arg8) = Wv (Proc.devRef .tc main_arg8)
    ∧ after (chunk 192 5) Wv (Proc.devRef .tc main_arg9) = Wv (Proc.devRef .tc main_arg9)
    ∧ after (chunk 192 5) Wv (Proc.devRef .tc main_arg10) = Wv (Proc.devRef .tc main_arg10)
    ∧ after (chunk 192 5) Wv (Proc.devRef .tc main_arg11) = Wv (Proc.devRef .tc main_arg11)
    ∧ after (chunk 192 5) Wv (Proc.devRef .tc main_arg12) = Wv (Proc.devRef .tc main_arg12)
    ∧ after (chunk 192 5) Wv (Proc.devRef .tc main_v144) = Wv (Proc.devRef .tc main_v144) := by
  simp only [chunk, opsI, ops, List.drop_succ_cons, List.drop_zero, List.take_succ_cons, List.take_zero]
  refine ⟨?_, ?_, ?_, ?_, ?_, ?_, ?_, ?_, ?_, ?_, ?_, ?_, ?_, ?_⟩ <;> after_results_simp

theorem keep_I4b : after (chunk 197 3) Wv (Proc.devRef .tc main_arg0) = Wv (Proc.devRef .tc main_arg0)
    ∧ after (chunk 197 3) Wv (Proc.devRef .tc main_arg1) = Wv (Proc.devRef .tc main_arg1)
    ∧ after (chunk 197 3) Wv (Proc.devRef .tc main_arg2) = Wv (Proc.devRef .tc main_arg2)
    ∧ after (chunk 197 3) Wv (Proc.devRef .tc main_arg3) = Wv (Proc.devRef .tc main_arg3)
    ∧ after (chunk 197 3) Wv (Proc.devRef .tc main_arg4) = Wv (Proc.devRef .tc main_arg4)
    ∧ after (chunk 197 3) Wv (Proc.devRef .tc main_arg5) = Wv (Proc.devRef .tc main_arg5)
    ∧ after (chunk 197 3) Wv (Proc.devRef .tc main_arg6) = Wv (Proc.devRef .tc main_arg6)
    ∧ after (chunk 197 3) Wv (Proc.devRef .tc main_arg7) = Wv (Proc.devRef .tc main_arg7)
    ∧ after (chunk 197 3) Wv (Proc.devRef .tc main_arg8) = Wv (Proc.devRef .tc main_arg8)
    ∧ after (chunk 197 3) Wv (Proc.devRef .tc main_arg9) = Wv (Proc.devRef .tc main_arg9)
    ∧ after (chunk 197 3) Wv (Proc.devRef .tc main_arg10) = Wv (Proc.devRef .tc main_arg10)
    ∧ after (chunk 197 3) Wv (Proc.devRef .tc main_arg11) = Wv (Proc.devRef .tc main_arg11)
    ∧ after (chunk 197 3) Wv (Proc.devRef .tc main_arg12) = Wv (Proc.devRef .tc main_arg12) := by
  simp only [chunk, opsI, ops, List.drop_succ_cons, List.drop_zero, List.take_succ_cons, List.take_zero]
  refine ⟨?_, ?_, ?_, ?_, ?_, ?_, ?_, ?_, ?_, ?_, ?_, ?_, ?_⟩ <;> after_results_simp

theorem keep_I4c : after (chunk 200 7) Wv (Proc.devRef .tc main_arg0) = Wv (Proc.devRef .tc main_arg0)
    ∧ after (chunk 200 7) Wv (Proc.devRef .tc main_arg1) = Wv (Proc.devRef .tc main_arg1)
    ∧ after (chunk 200 7) Wv (Proc.devRef .tc main_arg2) = Wv (Proc.devRef .tc main_arg2)
    ∧ after (chunk 200 7) Wv (Proc.devRef .tc main_arg3) = Wv (Proc.devRef .tc main_arg3)
    ∧ after (chunk 200 7) Wv (Proc.devRef .tc main_arg4) = Wv (Proc.devRef .tc main_arg4)
    ∧ after (chunk 200 7) Wv (Proc.devRef .tc main_arg5) = Wv (Proc.devRef .tc main_arg5)
    ∧ after (chunk 200 7) Wv (Proc.devRef .tc main_arg6) = Wv (Proc.devRef .tc main_arg6)
    ∧ after (chunk 200 7) Wv (Proc.devRef .tc main_arg7) = Wv (Proc.devRef .tc main_arg7)
    ∧ after (chunk 200 7) Wv (Proc.devRef .tc main_arg8) = Wv (Proc.devRef .tc main_arg8)
    ∧ after (chunk 200 7) Wv (Proc.devRef .tc main_arg9) = Wv (Proc.devRef .tc main_arg9)
    ∧ after (chunk 200 7) Wv (Proc.devRef .tc main_arg10) = Wv (Proc.devRef .tc main_arg10)
    ∧ after (chunk 200 7) Wv (Proc.devRef .tc main_arg11) = Wv (Proc.devRef .tc main_arg11)
    ∧ after (chunk 200 7) Wv (Proc.devRef .tc main_arg12) = Wv (Proc.devRef .tc main_arg12) := by
  simp only [chunk, opsI, ops, List.drop_succ_cons, List.drop_zero, List.take_succ_cons, List.take_zero]
  refine ⟨?_, ?_, ?_, ?_, ?_, ?_, ?_, ?_, ?_, ?_, ?_, ?_, ?_⟩ <;> after_results_simp

end Cert.ReferenceIdeal.Keep

end
-- ==== Proof.RefAgg.lean ====
/-
  One aggregation step of the graph convolution, as a single function.

  From the edge list with self-loops appended, a row h[s] of the node-feature matrix is gathered for every edge (s → d), scaled
  by the edge's weight, and added into row d.  The reference does this three times, each time recomputing the edge lists
  and the weights from the same input by the same operations; the three copies are the same function of the same input, so
  all three aggregates are this one function `aggOf` of the matrix before them and of the first copy's edge lists and
  weights.  The function is never opened: it only matters that both programs apply it.
-/
import proofs.«107386_j38878043964109_1_alg».proof.Proof.RefReadP

set_option maxRecDepth 65536

noncomputable section

namespace Cert.ReferenceIdeal.Agg

open Cert.ReferenceIdeal Cert.ReferenceIdeal.Gen Cert.ReferenceIdeal.ReadP Idealize.ShloMosaic

/-- A node-feature matrix, an edge-indexed integer vector, an edge-indexed weight vector. -/
abbrev Mat := (⟨S100000x64, .f32⟩ : BufTy).Contents (Elt Ideal)
abbrev EdgeIdx := (⟨S1700000, .i32⟩ : BufTy).Contents (Elt Ideal)
abbrev EdgeW := (⟨S1700000, .f32⟩ : BufTy).Contents (Elt Ideal)

/-- Gather the rows of `h` at the source nodes `s` (a negative index counted from the end), scale row e by `w e`, and add
    the scaled rows into a zero matrix at the destination nodes `d`. -/
def aggOf (h : Mat) (s d : EdgeIdx) (w : EdgeW) : Mat :=
  Host.scatterAdd scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 d)
    (mulf (Host.gather gather_S100000x64_S1700000x1_S1700000x64_1_0_n_n_0_1_164 h
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s)))
      (broadcastInDim S1700000x64 ![0, 1] bcast_S1700000x1_S1700000x64_0_1
        (broadcastInDim S1700000x1 ![0] bcast_S1700000_S1700000x1_0 w)))

/-- The later copies of the source list, the destination list and the edge weights are the first copy. -/
theorem src2 (x1 : (⟨S2x1600000, .i32⟩ : BufTy).Contents (Elt Ideal)) : val_main_v50 (F := Ideal) x1 = val_main_v6 (F := Ideal) x1 := rfl
theorem dst2 (x1 : (⟨S2x1600000, .i32⟩ : BufTy).Contents (Elt Ideal)) : val_main_v51 (F := Ideal) x1 = val_main_v7 (F := Ideal) x1 := rfl
theorem wgt2 (x1 : (⟨S2x1600000, .i32⟩ : BufTy).Contents (Elt Ideal)) : val_main_v74 (F := Ideal) x1 = val_main_v30 (F := Ideal) x1 := rfl
theorem src3 (x1 : (⟨S2x1600000, .i32⟩ : BufTy).Contents (Elt Ideal)) : val_main_v94 (F := Ideal) x1 = val_main_v6 (F := Ideal) x1 := rfl
theorem dst3 (x1 : (⟨S2x1600000, .i32⟩ : BufTy).Contents (Elt Ideal)) : val_main_v95 (F := Ideal) x1 = val_main_v7 (F := Ideal) x1 := rfl
theorem wgt3 (x1 : (⟨S2x1600000, .i32⟩ : BufTy).Contents (Elt Ideal)) : val_main_v118 (F := Ideal) x1 = val_main_v30 (F := Ideal) x1 := rfl

/-- The three aggregates. -/
theorem v43_eq (x0 : (⟨S100000x64, .f32⟩ : BufTy).Contents (Elt Ideal)) (x1 : (⟨S2x1600000, .i32⟩ : BufTy).Contents (Elt Ideal)) (x3 : (⟨S64x64, .f32⟩ : BufTy).Contents (Elt Ideal)) :
    val_main_v43 (F := Ideal) x0 x1 x3 = aggOf (val_main_v4 (F := Ideal) x0 x3) (val_main_v6 (F := Ideal) x1) (val_main_v7 (F := Ideal) x1) (val_main_v30 (F := Ideal) x1) := rfl

theorem v87_eq (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) :
    val_main_v87 (F := Ideal) x0 x1 x3 x4 x5 = aggOf (val_main_v48 (F := Ideal) x0 x1 x3 x4 x5) (val_main_v6 (F := Ideal) x1) (val_main_v7 (F := Ideal) x1) (val_main_v30 (F := Ideal) x1) := by
  show aggOf (val_main_v48 (F := Ideal) x0 x1 x3 x4 x5) (val_main_v50 (F := Ideal) x1) (val_main_v51 (F := Ideal) x1) (val_main_v74 (F := Ideal) x1) = _
  rw [src2, dst2, wgt2]

theorem v131_eq (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v131 (F := Ideal) x0 x1 x3 x4 x5 x6 x7 = aggOf (val_main_v92 (F := Ideal) x0 x1 x3 x4 x5 x6 x7) (val_main_v6 (F := Ideal) x1) (val_main_v7 (F := Ideal) x1) (val_main_v30 (F := Ideal) x1) := by
  show aggOf (val_main_v92 (F := Ideal) x0 x1 x3 x4 x5 x6 x7) (val_main_v94 (F := Ideal) x1) (val_main_v95 (F := Ideal) x1) (val_main_v118 (F := Ideal) x1) = _
  rw [src3, dst3, wgt3]

end Cert.ReferenceIdeal.Agg

end
-- ==== Proof.RefValsA.lean ====
/-
  What the reference's first eight operations compute, over any contents `Wv` of the buffers before them: the edge input sliced into
  a source and a destination list, the node features times the first weight matrix, and the two lists with the self-loops appended.
-/
import proofs.«107386_j38878043964109_1_alg».proof.Proof.RefChunks
import proofs.«107386_j38878043964109_1_alg».proof.Proof.RefReadP
import proofs.«107386_j38878043964109_1_alg».proof.Proof.RefAgg

set_option maxRecDepth 65536

noncomputable section

namespace Cert.ReferenceIdeal.Vals

open Cert.ReferenceIdeal Cert.ReferenceIdeal.Gen Cert.ReferenceIdeal.ValueP Cert.ReferenceIdeal.Chunks Cert.ReferenceIdeal.ReadP
open Idealize.ShloMosaic Idealize.ShloMosaic.TcCoe Idealize.SL.Sem Idealize.ShloMosaic.StableHlo
open Cert.ReferenceIdeal.Agg (aggOf Mat EdgeIdx EdgeW)

variable (Wv : Valuation τ sig (Elt Ideal))

/-- An edge list before the self-loops are appended. -/
abbrev EdgeIdx0 := (⟨S1600000, .i32⟩ : BufTy).Contents (Elt Ideal)

/-! ## The first eight operations: the two edge lists and the first dense stage -/

theorem src0 : (after (chunk 0 8) Wv (Proc.devRef .tc main_v1) : EdgeIdx0) = val_main_v1 (F := Ideal) (Wv (Proc.devRef .tc main_arg1)) := by
  simp only [chunk, opsI, ops, List.drop_succ_cons, List.drop_zero, List.take_succ_cons, List.take_zero]
  after_results; rfl

theorem dst0 : (after (chunk 0 8) Wv (Proc.devRef .tc main_v3) : EdgeIdx0) = val_main_v3 (F := Ideal) (Wv (Proc.devRef .tc main_arg1)) := by
  simp only [chunk, opsI, ops, List.drop_succ_cons, List.drop_zero, List.take_succ_cons, List.take_zero]
  after_results; rfl

theorem dense0 : (after (chunk 0 8) Wv (Proc.devRef .tc main_v4) : Mat) = val_main_v4 (F := Ideal) (Wv (Proc.devRef .tc main_arg0)) (Wv (Proc.devRef .tc main_arg3)) := by
  simp only [chunk, opsI, ops, List.drop_succ_cons, List.drop_zero, List.take_succ_cons, List.take_zero]
  after_results; rfl

theorem src1 : (after (chunk 0 8) Wv (Proc.devRef .tc main_v6) : EdgeIdx) = val_main_v6 (F := Ideal) (Wv (Proc.devRef .tc main_arg1)) := by
  simp only [chunk, opsI, ops, List.drop_succ_cons, List.drop_zero, List.take_succ_cons, List.take_zero]
  after_results; rfl

theorem dst1 : (after (chunk 0 8) Wv (Proc.devRef .tc main_v7) : EdgeIdx) = val_main_v7 (F := Ideal) (Wv (Proc.devRef .tc main_arg1)) := by
  simp only [chunk, opsI, ops, List.drop_succ_cons, List.drop_zero, List.take_succ_cons, List.take_zero]
  after_results; rfl

end Cert.ReferenceIdeal.Vals

end
-- ==== Proof.RefCasts.lean ====
/-
  The operations of a function the reference calls (its `where`, its rectifiers, its log-softmax) read and write their buffers
  through a change of name between "contents of this buffer" and "contents of an array of this shape and element type".  For
  each such buffer the two are the same type, and the change of name is the identity.
-/
import proofs.«107386_j38878043964109_1_alg».proof.Proof.RefRunP
import Idealize.ShloMosaic.PureOps.Ideal

noncomputable section

namespace Cert.ReferenceIdeal.Casts

open Cert.ReferenceIdeal Cert.ReferenceIdeal.Gen Idealize.ShloMosaic Idealize.ShloMosaic.TcCoe Idealize.SL.Sem Idealize.ShloMosaic.StableHlo

theorem toBuf_main_cst_2 (p1 : main_cst_2.ty = ⟨S_, .f32⟩) (p2 : main_cst_2.space ≠ .host) (p3 : main_cst_2.isScoped = false)
    (v : (⟨S_, .f32⟩ : BufTy).Contents (Elt Ideal)) : (TRef.of main_cst_2 p1 p2 p3).toBuf v = v := rfl
theorem ofBuf_main_cst_2 (p1 : main_cst_2.ty = ⟨S_, .f32⟩) (p2 : main_cst_2.space ≠ .host) (p3 : main_cst_2.isScoped = false)
    (v : main_cst_2.ty.Contents (Elt Ideal)) : (TRef.of main_cst_2 p1 p2 p3).ofBuf v = v := rfl
theorem toBuf_main_call0_v0 (p1 : main_call0_v0.ty = ⟨S_, .f32⟩) (p2 : main_call0_v0.space ≠ .host) (p3 : main_call0_v0.isScoped = false)
    (v : (⟨S_, .f32⟩ : BufTy).Contents (Elt Ideal)) : (TRef.of main_call0_v0 p1 p2 p3).toBuf v = v := rfl
theorem ofBuf_main_call0_v0 (p1 : main_call0_v0.ty = ⟨S_, .f32⟩) (p2 : main_call0_v0.space ≠ .host) (p3 : main_call0_v0.isScoped = false)
    (v : main_call0_v0.ty.Contents (Elt Ideal)) : (TRef.of main_call0_v0 p1 p2 p3).ofBuf v = v := rfl
theorem toBuf_main_call0_v1 (p1 : main_call0_v1.ty = ⟨S100000, .f32⟩) (p2 : main_call0_v1.space ≠ .host) (p3 : main_call0_v1.isScoped = false)
    (v : (⟨S100000, .f32⟩ : BufTy).Contents (Elt Ideal)) : (TRef.of main_call0_v1 p1 p2 p3).toBuf v = v := rfl
theorem ofBuf_main_call0_v1 (p1 : main_call0_v1.ty = ⟨S100000, .f32⟩) (p2 : main_call0_v1.space ≠ .host) (p3 : main_call0_v1.isScoped = false)
    (v : main_call0_v1.ty.Contents (Elt Ideal)) : (TRef.of main_call0_v1 p1 p2 p3).ofBuf v = v := rfl
theorem toBuf_main_v13 (p1 : main_v13.ty = ⟨S100000, .i1⟩) (p2 : main_v13.space ≠ .host) (p3 : main_v13.isScoped = false)
    (v : (⟨S100000, .i1⟩ : BufTy).Contents (Elt Ideal)) : (TRef.of main_v13 p1 p2 p3).toBuf v = v := rfl
theorem ofBuf_main_v13 (p1 : main_v13.ty = ⟨S100000, .i1⟩) (p2 : main_v13.space ≠ .host) (p3 : main_v13.isScoped = false)
    (v : main_v13.ty.Contents (Elt Ideal)) : (TRef.of main_v13 p1 p2 p3).ofBuf v = v := rfl
theorem toBuf_main_v14 (p1 : main_v14.ty = ⟨S100000, .f32⟩) (p2 : main_v14.space ≠ .host) (p3 : main_v14.isScoped = false)
    (v : (⟨S100000, .f32⟩ : BufTy).Contents (Elt Ideal)) : (TRef.of main_v14 p1 p2 p3).toBuf v = v := rfl
theorem ofBuf_main_v14 (p1 : main_v14.ty = ⟨S100000, .f32⟩) (p2 : main_v14.space ≠ .host) (p3 : main_v14.isScoped = false)
    (v : main_v14.ty.Contents (Elt Ideal)) : (TRef.of main_v14 p1 p2 p3).ofBuf v = v := rfl
theorem toBuf_main_v15 (p1 : main_v15.ty = ⟨S100000, .f32⟩) (p2 : main_v15.space ≠ .host) (p3 : main_v15.isScoped = false)
    (v : (⟨S100000, .f32⟩ : BufTy).Contents (Elt Ideal)) : (TRef.of main_v15 p1 p2 p3).toBuf v = v := rfl
theorem ofBuf_main_v15 (p1 : main_v15.ty = ⟨S100000, .f32⟩) (p2 : main_v15.space ≠ .host) (p3 : main_v15.isScoped = false)
    (v : main_v15.ty.Contents (Elt Ideal)) : (TRef.of main_v15 p1 p2 p3).ofBuf v = v := rfl
theorem toBuf_main_call1_cst (p1 : main_call1_cst.ty = ⟨S_, .f32⟩) (p2 : main_call1_cst.space ≠ .host) (p3 : main_call1_cst.isScoped = false)
    (v : (⟨S_, .f32⟩ : BufTy).Contents (Elt Ideal)) : (TRef.of main_call1_cst p1 p2 p3).toBuf v = v := rfl
theorem ofBuf_main_call1_cst (p1 : main_call1_cst.ty = ⟨S_, .f32⟩) (p2 : main_call1_cst.space ≠ .host) (p3 : main_call1_cst.isScoped = false)
    (v : main_call1_cst.ty.Contents (Elt Ideal)) : (TRef.of main_call1_cst p1 p2 p3).ofBuf v = v := rfl
theorem toBuf_main_call1_v0 (p1 : main_call1_v0.ty = ⟨S100000x64, .f32⟩) (p2 : main_call1_v0.space ≠ .host) (p3 : main_call1_v0.isScoped = false)
    (v : (⟨S100000x64, .f32⟩ : BufTy).Contents (Elt Ideal)) : (TRef.of main_call1_v0 p1 p2 p3).toBuf v = v := rfl
theorem ofBuf_main_call1_v0 (p1 : main_call1_v0.ty = ⟨S100000x64, .f32⟩) (p2 : main_call1_v0.space ≠ .host) (p3 : main_call1_v0.isScoped = false)
    (v : main_call1_v0.ty.Contents (Elt Ideal)) : (TRef.of main_call1_v0 p1 p2 p3).ofBuf v = v := rfl
theorem toBuf_main_v46 (p1 : main_v46.ty = ⟨S100000x64, .f32⟩) (p2 : main_v46.space ≠ .host) (p3 : main_v46.isScoped = false)
    (v : (⟨S100000x64, .f32⟩ : BufTy).Contents (Elt Ideal)) : (TRef.of main_v46 p1 p2 p3).toBuf v = v := rfl
theorem ofBuf_main_v46 (p1 : main_v46.ty = ⟨S100000x64, .f32⟩) (p2 : main_v46.space ≠ .host) (p3 : main_v46.isScoped = false)
    (v : main_v46.ty.Contents (Elt Ideal)) : (TRef.of main_v46 p1 p2 p3).ofBuf v = v := rfl
theorem toBuf_main_v47 (p1 : main_v47.ty = ⟨S100000x64, .f32⟩) (p2 : main_v47.space ≠ .host) (p3 : main_v47.isScoped = false)
    (v : (⟨S100000x64, .f32⟩ : BufTy).Contents (Elt Ideal)) : (TRef.of main_v47 p1 p2 p3).toBuf v = v := rfl
theorem ofBuf_main_v47 (p1 : main_v47.ty = ⟨S100000x64, .f32⟩) (p2 : main_v47.space ≠ .host) (p3 : main_v47.isScoped = false)
    (v : main_v47.ty.Contents (Elt Ideal)) : (TRef.of main_v47 p1 p2 p3).ofBuf v = v := rfl
theorem toBuf_main_cst_12 (p1 : main_cst_12.ty = ⟨S_, .f32⟩) (p2 : main_cst_12.space ≠ .host) (p3 : main_cst_12.isScoped = false)
    (v : (⟨S_, .f32⟩ : BufTy).Contents (Elt Ideal)) : (TRef.of main_cst_12 p1 p2 p3).toBuf v = v := rfl
theorem ofBuf_main_cst_12 (p1 : main_cst_12.ty = ⟨S_, .f32⟩) (p2 : main_cst_12.space ≠ .host) (p3 : main_cst_12.isScoped = false)
    (v : main_cst_12.ty.Contents (Elt Ideal)) : (TRef.of main_cst_12 p1 p2 p3).ofBuf v = v := rfl
theorem toBuf_main_call2_v0 (p1 : main_call2_v0.ty = ⟨S_, .f32⟩) (p2 : main_call2_v0.space ≠ .host) (p3 : main_call2_v0.isScoped = false)
    (v : (⟨S_, .f32⟩ : BufTy).Contents (Elt Ideal)) : (TRef.of main_call2_v0 p1 p2 p3).toBuf v = v := rfl
theorem ofBuf_main_call2_v0 (p1 : main_call2_v0.ty = ⟨S_, .f32⟩) (p2 : main_call2_v0.space ≠ .host) (p3 : main_call2_v0.isScoped = false)
    (v : main_call2_v0.ty.Contents (Elt Ideal)) : (TRef.of main_call2_v0 p1 p2 p3).ofBuf v = v := rfl
theorem toBuf_main_call2_v1 (p1 : main_call2_v1.ty = ⟨S100000, .f32⟩) (p2 : main_call2_v1.space ≠ .host) (p3 : main_call2_v1.isScoped = false)
    (v : (⟨S100000, .f32⟩ : BufTy).Contents (Elt Ideal)) : (TRef.of main_call2_v1 p1 p2 p3).toBuf v = v := rfl
theorem ofBuf_main_call2_v1 (p1 : main_call2_v1.ty = ⟨S100000, .f32⟩) (p2 : main_call2_v1.space ≠ .host) (p3 : main_call2_v1.isScoped = false)
    (v : main_call2_v1.ty.Contents (Elt Ideal)) : (TRef.of main_call2_v1 p1 p2 p3).ofBuf v = v := rfl
theorem toBuf_main_v57 (p1 : main_v57.ty = ⟨S100000, .i1⟩) (p2 : main_v57.space ≠ .host) (p3 : main_v57.isScoped = false)
    (v : (⟨S100000, .i1⟩ : BufTy).Contents (Elt Ideal)) : (TRef.of main_v57 p1 p2 p3).toBuf v = v := rfl
theorem ofBuf_main_v57 (p1 : main_v57.ty = ⟨S100000, .i1⟩) (p2 : main_v57.space ≠ .host) (p3 : main_v57.isScoped = false)
    (v : main_v57.ty.Contents (Elt Ideal)) : (TRef.of main_v57 p1 p2 p3).ofBuf v = v := rfl
theorem toBuf_main_v58 (p1 : main_v58.ty = ⟨S100000, .f32⟩) (p2 : main_v58.space ≠ .host) (p3 : main_v58.isScoped = false)
    (v : (⟨S100000, .f32⟩ : BufTy).Contents (Elt Ideal)) : (TRef.of main_v58 p1 p2 p3).toBuf v = v := rfl
theorem ofBuf_main_v58 (p1 : main_v58.ty = ⟨S100000, .f32⟩) (p2 : main_v58.space ≠ .host) (p3 : main_v58.isScoped = false)
    (v : main_v58.ty.Contents (Elt Ideal)) : (TRef.of main_v58 p1 p2 p3).ofBuf v = v := rfl
theorem toBuf_main_v59 (p1 : main_v59.ty = ⟨S100000, .f32⟩) (p2 : main_v59.space ≠ .host) (p3 : main_v59.isScoped = false)
    (v : (⟨S100000, .f32⟩ : BufTy).Contents (Elt Ideal)) : (TRef.of main_v59 p1 p2 p3).toBuf v = v := rfl
theorem ofBuf_main_v59 (p1 : main_v59.ty = ⟨S100000, .f32⟩) (p2 : main_v59.space ≠ .host) (p3 : main_v59.isScoped = false)
    (v : main_v59.ty.Contents (Elt Ideal)) : (TRef.of main_v59 p1 p2 p3).ofBuf v = v := rfl
theorem toBuf_main_call3_cst (p1 : main_call3_cst.ty = ⟨S_, .f32⟩) (p2 : main_call3_cst.space ≠ .host) (p3 : main_call3_cst.isScoped = false)
    (v : (⟨S_, .f32⟩ : BufTy).Contents (Elt Ideal)) : (TRef.of main_call3_cst p1 p2 p3).toBuf v = v := rfl
theorem ofBuf_main_call3_cst (p1 : main_call3_cst.ty = ⟨S_, .f32⟩) (p2 : main_call3_cst.space ≠ .host) (p3 : main_call3_cst.isScoped = false)
    (v : main_call3_cst.ty.Contents (Elt Ideal)) : (TRef.of main_call3_cst p1 p2 p3).ofBuf v = v := rfl
theorem toBuf_main_call3_v0 (p1 : main_call3_v0.ty = ⟨S100000x64, .f32⟩) (p2 : main_call3_v0.space ≠ .host) (p3 : main_call3_v0.isScoped = false)
    (v : (⟨S100000x64, .f32⟩ : BufTy).Contents (Elt Ideal)) : (TRef.of main_call3_v0 p1 p2 p3).toBuf v = v := rfl
theorem ofBuf_main_call3_v0 (p1 : main_call3_v0.ty = ⟨S100000x64, .f32⟩) (p2 : main_call3_v0.space ≠ .host) (p3 : main_call3_v0.isScoped = false)
    (v : main_call3_v0.ty.Contents (Elt Ideal)) : (TRef.of main_call3_v0 p1 p2 p3).ofBuf v = v := rfl
theorem toBuf_main_v90 (p1 : main_v90.ty = ⟨S100000x64, .f32⟩) (p2 : main_v90.space ≠ .host) (p3 : main_v90.isScoped = false)
    (v : (⟨S100000x64, .f32⟩ : BufTy).Contents (Elt Ideal)) : (TRef.of main_v90 p1 p2 p3).toBuf v = v := rfl
theorem ofBuf_main_v90 (p1 : main_v90.ty = ⟨S100000x64, .f32⟩) (p2 : main_v90.space ≠ .host) (p3 : main_v90.isScoped = false)
    (v : main_v90.ty.Contents (Elt Ideal)) : (TRef.of main_v90 p1 p2 p3).ofBuf v = v := rfl
theorem toBuf_main_v91 (p1 : main_v91.ty = ⟨S100000x64, .f32⟩) (p2 : main_v91.space ≠ .host) (p3 : main_v91.isScoped = false)
    (v : (⟨S100000x64, .f32⟩ : BufTy).Contents (Elt Ideal)) : (TRef.of main_v91 p1 p2 p3).toBuf v = v := rfl
theorem ofBuf_main_v91 (p1 : main_v91.ty = ⟨S100000x64, .f32⟩) (p2 : main_v91.space ≠ .host) (p3 : main_v91.isScoped = false)
    (v : main_v91.ty.Contents (Elt Ideal)) : (TRef.of main_v91 p1 p2 p3).ofBuf v = v := rfl
theorem toBuf_main_cst_23 (p1 : main_cst_23.ty = ⟨S_, .f32⟩) (p2 : main_cst_23.space ≠ .host) (p3 : main_cst_23.isScoped = false)
    (v : (⟨S_, .f32⟩ : BufTy).Contents (Elt Ideal)) : (TRef.of main_cst_23 p1 p2 p3).toBuf v = v := rfl
theorem ofBuf_main_cst_23 (p1 : main_cst_23.ty = ⟨S_, .f32⟩) (p2 : main_cst_23.space ≠ .host) (p3 : main_cst_23.isScoped = false)
    (v : main_cst_23.ty.Contents (Elt Ideal)) : (TRef.of main_cst_23 p1 p2 p3).ofBuf v = v := rfl
theorem toBuf_main_call4_v0 (p1 : main_call4_v0.ty = ⟨S_, .f32⟩) (p2 : main_call4_v0.space ≠ .host) (p3 : main_call4_v0.isScoped = false)
    (v : (⟨S_, .f32⟩ : BufTy).Contents (Elt Ideal)) : (TRef.of main_call4_v0 p1 p2 p3).toBuf v = v := rfl
theorem ofBuf_main_call4_v0 (p1 : main_call4_v0.ty = ⟨S_, .f32⟩) (p2 : main_call4_v0.space ≠ .host) (p3 : main_call4_v0.isScoped = false)
    (v : main_call4_v0.ty.Contents (Elt Ideal)) : (TRef.of main_call4_v0 p1 p2 p3).ofBuf v = v := rfl
theorem toBuf_main_call4_v1 (p1 : main_call4_v1.ty = ⟨S100000, .f32⟩) (p2 : main_call4_v1.space ≠ .host) (p3 : main_call4_v1.isScoped = false)
    (v : (⟨S100000, .f32⟩ : BufTy).Contents (Elt Ideal)) : (TRef.of main_call4_v1 p1 p2 p3).toBuf v = v := rfl
theorem ofBuf_main_call4_v1 (p1 : main_call4_v1.ty = ⟨S100000, .f32⟩) (p2 : main_call4_v1.space ≠ .host) (p3 : main_call4_v1.isScoped = false)
    (v : main_call4_v1.ty.Contents (Elt Ideal)) : (TRef.of main_call4_v1 p1 p2 p3).ofBuf v = v := rfl
theorem toBuf_main_v101 (p1 : main_v101.ty = ⟨S100000, .i1⟩) (p2 : main_v101.space ≠ .host) (p3 : main_v101.isScoped = false)
    (v : (⟨S100000, .i1⟩ : BufTy).Contents (Elt Ideal)) : (TRef.of main_v101 p1 p2 p3).toBuf v = v := rfl
theorem ofBuf_main_v101 (p1 : main_v101.ty = ⟨S100000, .i1⟩) (p2 : main_v101.space ≠ .host) (p3 : main_v101.isScoped = false)
    (v : main_v101.ty.Contents (Elt Ideal)) : (TRef.of main_v101 p1 p2 p3).ofBuf v = v := rfl
theorem toBuf_main_v102 (p1 : main_v102.ty = ⟨S100000, .f32⟩) (p2 : main_v102.space ≠ .host) (p3 : main_v102.isScoped = false)
    (v : (⟨S100000, .f32⟩ : BufTy).Contents (Elt Ideal)) : (TRef.of main_v102 p1 p2 p3).toBuf v = v := rfl
theorem ofBuf_main_v102 (p1 : main_v102.ty = ⟨S100000, .f32⟩) (p2 : main_v102.space ≠ .host) (p3 : main_v102.isScoped = false)
    (v : main_v102.ty.Contents (Elt Ideal)) : (TRef.of main_v102 p1 p2 p3).ofBuf v = v := rfl
theorem toBuf_main_v103 (p1 : main_v103.ty = ⟨S100000, .f32⟩) (p2 : main_v103.space ≠ .host) (p3 : main_v103.isScoped = false)
    (v : (⟨S100000, .f32⟩ : BufTy).Contents (Elt Ideal)) : (TRef.of main_v103 p1 p2 p3).toBuf v = v := rfl
theorem ofBuf_main_v103 (p1 : main_v103.ty = ⟨S100000, .f32⟩) (p2 : main_v103.space ≠ .host) (p3 : main_v103.isScoped = false)
    (v : main_v103.ty.Contents (Elt Ideal)) : (TRef.of main_v103 p1 p2 p3).ofBuf v = v := rfl
theorem toBuf_main_call5_cst (p1 : main_call5_cst.ty = ⟨S_, .f32⟩) (p2 : main_call5_cst.space ≠ .host) (p3 : main_call5_cst.isScoped = false)
    (v : (⟨S_, .f32⟩ : BufTy).Contents (Elt Ideal)) : (TRef.of main_call5_cst p1 p2 p3).toBuf v = v := rfl
theorem ofBuf_main_call5_cst (p1 : main_call5_cst.ty = ⟨S_, .f32⟩) (p2 : main_call5_cst.space ≠ .host) (p3 : main_call5_cst.isScoped = false)
    (v : main_call5_cst.ty.Contents (Elt Ideal)) : (TRef.of main_call5_cst p1 p2 p3).ofBuf v = v := rfl
theorem toBuf_main_call5_v0 (p1 : main_call5_v0.ty = ⟨S100000x64, .f32⟩) (p2 : main_call5_v0.space ≠ .host) (p3 : main_call5_v0.isScoped = false)
    (v : (⟨S100000x64, .f32⟩ : BufTy).Contents (Elt Ideal)) : (TRef.of main_call5_v0 p1 p2 p3).toBuf v = v := rfl
theorem ofBuf_main_call5_v0 (p1 : main_call5_v0.ty = ⟨S100000x64, .f32⟩) (p2 : main_call5_v0.space ≠ .host) (p3 : main_call5_v0.isScoped = false)
    (v : main_call5_v0.ty.Contents (Elt Ideal)) : (TRef.of main_call5_v0 p1 p2 p3).ofBuf v = v := rfl
theorem toBuf_main_v134 (p1 : main_v134.ty = ⟨S100000x64, .f32⟩) (p2 : main_v134.space ≠ .host) (p3 : main_v134.isScoped = false)
    (v : (⟨S100000x64, .f32⟩ : BufTy).Contents (Elt Ideal)) : (TRef.of main_v134 p1 p2 p3).toBuf v = v := rfl
theorem ofBuf_main_v134 (p1 : main_v134.ty = ⟨S100000x64, .f32⟩) (p2 : main_v134.space ≠ .host) (p3 : main_v134.isScoped = false)
    (v : main_v134.ty.Contents (Elt Ideal)) : (TRef.of main_v134 p1 p2 p3).ofBuf v = v := rfl
theorem toBuf_main_v135 (p1 : main_v135.ty = ⟨S100000x64, .f32⟩) (p2 : main_v135.space ≠ .host) (p3 : main_v135.isScoped = false)
    (v : (⟨S100000x64, .f32⟩ : BufTy).Contents (Elt Ideal)) : (TRef.of main_v135 p1 p2 p3).toBuf v = v := rfl
theorem ofBuf_main_v135 (p1 : main_v135.ty = ⟨S100000x64, .f32⟩) (p2 : main_v135.space ≠ .host) (p3 : main_v135.isScoped = false)
    (v : main_v135.ty.Contents (Elt Ideal)) : (TRef.of main_v135 p1 p2 p3).ofBuf v = v := rfl
theorem toBuf_main_call6_cst (p1 : main_call6_cst.ty = ⟨S_, .f32⟩) (p2 : main_call6_cst.space ≠ .host) (p3 : main_call6_cst.isScoped = false)
    (v : (⟨S_, .f32⟩ : BufTy).Contents (Elt Ideal)) : (TRef.of main_call6_cst p1 p2 p3).toBuf v = v := rfl
theorem ofBuf_main_call6_cst (p1 : main_call6_cst.ty = ⟨S_, .f32⟩) (p2 : main_call6_cst.space ≠ .host) (p3 : main_call6_cst.isScoped = false)
    (v : main_call6_cst.ty.Contents (Elt Ideal)) : (TRef.of main_call6_cst p1 p2 p3).ofBuf v = v := rfl
theorem toBuf_main_call6_v0 (p1 : main_call6_v0.ty = ⟨S100000x32, .f32⟩) (p2 : main_call6_v0.space ≠ .host) (p3 : main_call6_v0.isScoped = false)
    (v : (⟨S100000x32, .f32⟩ : BufTy).Contents (Elt Ideal)) : (TRef.of main_call6_v0 p1 p2 p3).toBuf v = v := rfl
theorem ofBuf_main_call6_v0 (p1 : main_call6_v0.ty = ⟨S100000x32, .f32⟩) (p2 : main_call6_v0.space ≠ .host) (p3 : main_call6_v0.isScoped = false)
    (v : main_call6_v0.ty.Contents (Elt Ideal)) : (TRef.of main_call6_v0 p1 p2 p3).ofBuf v = v := rfl
theorem toBuf_main_v139 (p1 : main_v139.ty = ⟨S100000x32, .f32⟩) (p2 : main_v139.space ≠ .host) (p3 : main_v139.isScoped = false)
    (v : (⟨S100000x32, .f32⟩ : BufTy).Contents (Elt Ideal)) : (TRef.of main_v139 p1 p2 p3).toBuf v = v := rfl
theorem ofBuf_main_v139 (p1 : main_v139.ty = ⟨S100000x32, .f32⟩) (p2 : main_v139.space ≠ .host) (p3 : main_v139.isScoped = false)
    (v : main_v139.ty.Contents (Elt Ideal)) : (TRef.of main_v139 p1 p2 p3).ofBuf v = v := rfl
theorem toBuf_main_v140 (p1 : main_v140.ty = ⟨S100000x32, .f32⟩) (p2 : main_v140.space ≠ .host) (p3 : main_v140.isScoped = false)
    (v : (⟨S100000x32, .f32⟩ : BufTy).Contents (Elt Ideal)) : (TRef.of main_v140 p1 p2 p3).toBuf v = v := rfl
theorem ofBuf_main_v140 (p1 : main_v140.ty = ⟨S100000x32, .f32⟩) (p2 : main_v140.space ≠ .host) (p3 : main_v140.isScoped = false)
    (v : main_v140.ty.Contents (Elt Ideal)) : (TRef.of main_v140 p1 p2 p3).ofBuf v = v := rfl
theorem toBuf_main_call7_cst (p1 : main_call7_cst.ty = ⟨S_, .f32⟩) (p2 : main_call7_cst.space ≠ .host) (p3 : main_call7_cst.isScoped = false)
    (v : (⟨S_, .f32⟩ : BufTy).Contents (Elt Ideal)) : (TRef.of main_call7_cst p1 p2 p3).toBuf v = v := rfl
theorem ofBuf_main_call7_cst (p1 : main_call7_cst.ty = ⟨S_, .f32⟩) (p2 : main_call7_cst.space ≠ .host) (p3 : main_call7_cst.isScoped = false)
    (v : main_call7_cst.ty.Contents (Elt Ideal)) : (TRef.of main_call7_cst p1 p2 p3).ofBuf v = v := rfl
theorem toBuf_main_v144 (p1 : main_v144.ty = ⟨S100000x40, .f32⟩) (p2 : main_v144.space ≠ .host) (p3 : main_v144.isScoped = false)
    (v : (⟨S100000x40, .f32⟩ : BufTy).Contents (Elt Ideal)) : (TRef.of main_v144 p1 p2 p3).toBuf v = v := rfl
theorem ofBuf_main_v144 (p1 : main_v144.ty = ⟨S100000x40, .f32⟩) (p2 : main_v144.space ≠ .host) (p3 : main_v144.isScoped = false)
    (v : main_v144.ty.Contents (Elt Ideal)) : (TRef.of main_v144 p1 p2 p3).ofBuf v = v := rfl
theorem toBuf_main_call7_v0 (p1 : main_call7_v0.ty = ⟨S100000, .f32⟩) (p2 : main_call7_v0.space ≠ .host) (p3 : main_call7_v0.isScoped = false)
    (v : (⟨S100000, .f32⟩ : BufTy).Contents (Elt Ideal)) : (TRef.of main_call7_v0 p1 p2 p3).toBuf v = v := rfl
theorem ofBuf_main_call7_v0 (p1 : main_call7_v0.ty = ⟨S100000, .f32⟩) (p2 : main_call7_v0.space ≠ .host) (p3 : main_call7_v0.isScoped = false)
    (v : main_call7_v0.ty.Contents (Elt Ideal)) : (TRef.of main_call7_v0 p1 p2 p3).ofBuf v = v := rfl
theorem toBuf_main_call7_cst_0 (p1 : main_call7_cst_0.ty = ⟨S_, .f32⟩) (p2 : main_call7_cst_0.space ≠ .host) (p3 : main_call7_cst_0.isScoped = false)
    (v : (⟨S_, .f32⟩ : BufTy).Contents (Elt Ideal)) : (TRef.of main_call7_cst_0 p1 p2 p3).toBuf v = v := rfl
theorem ofBuf_main_call7_cst_0 (p1 : main_call7_cst_0.ty = ⟨S_, .f32⟩) (p2 : main_call7_cst_0.space ≠ .host) (p3 : main_call7_cst_0.isScoped = false)
    (v : main_call7_cst_0.ty.Contents (Elt Ideal)) : (TRef.of main_call7_cst_0 p1 p2 p3).ofBuf v = v := rfl
theorem toBuf_main_call7_v1 (p1 : main_call7_v1.ty = ⟨S100000, .f32⟩) (p2 : main_call7_v1.space ≠ .host) (p3 : main_call7_v1.isScoped = false)
    (v : (⟨S100000, .f32⟩ : BufTy).Contents (Elt Ideal)) : (TRef.of main_call7_v1 p1 p2 p3).toBuf v = v := rfl
theorem ofBuf_main_call7_v1 (p1 : main_call7_v1.ty = ⟨S100000, .f32⟩) (p2 : main_call7_v1.space ≠ .host) (p3 : main_call7_v1.isScoped = false)
    (v : main_call7_v1.ty.Contents (Elt Ideal)) : (TRef.of main_call7_v1 p1 p2 p3).ofBuf v = v := rfl
theorem toBuf_main_call7_v2 (p1 : main_call7_v2.ty = ⟨S100000, .f32⟩) (p2 : main_call7_v2.space ≠ .host) (p3 : main_call7_v2.isScoped = false)
    (v : (⟨S100000, .f32⟩ : BufTy).Contents (Elt Ideal)) : (TRef.of main_call7_v2 p1 p2 p3).toBuf v = v := rfl
theorem ofBuf_main_call7_v2 (p1 : main_call7_v2.ty = ⟨S100000, .f32⟩) (p2 : main_call7_v2.space ≠ .host) (p3 : main_call7_v2.isScoped = false)
    (v : main_call7_v2.ty.Contents (Elt Ideal)) : (TRef.of main_call7_v2 p1 p2 p3).ofBuf v = v := rfl
theorem toBuf_main_call7_v3 (p1 : main_call7_v3.ty = ⟨S100000x1, .f32⟩) (p2 : main_call7_v3.space ≠ .host) (p3 : main_call7_v3.isScoped = false)
    (v : (⟨S100000x1, .f32⟩ : BufTy).Contents (Elt Ideal)) : (TRef.of main_call7_v3 p1 p2 p3).toBuf v = v := rfl
theorem ofBuf_main_call7_v3 (p1 : main_call7_v3.ty = ⟨S100000x1, .f32⟩) (p2 : main_call7_v3.space ≠ .host) (p3 : main_call7_v3.isScoped = false)
    (v : main_call7_v3.ty.Contents (Elt Ideal)) : (TRef.of main_call7_v3 p1 p2 p3).ofBuf v = v := rfl
theorem toBuf_main_call7_v4 (p1 : main_call7_v4.ty = ⟨S100000x40, .f32⟩) (p2 : main_call7_v4.space ≠ .host) (p3 : main_call7_v4.isScoped = false)
    (v : (⟨S100000x40, .f32⟩ : BufTy).Contents (Elt Ideal)) : (TRef.of main_call7_v4 p1 p2 p3).toBuf v = v := rfl
theorem ofBuf_main_call7_v4 (p1 : main_call7_v4.ty = ⟨S100000x40, .f32⟩) (p2 : main_call7_v4.space ≠ .host) (p3 : main_call7_v4.isScoped = false)
    (v : main_call7_v4.ty.Contents (Elt Ideal)) : (TRef.of main_call7_v4 p1 p2 p3).ofBuf v = v := rfl
theorem toBuf_main_call7_v5 (p1 : main_call7_v5.ty = ⟨S100000x40, .f32⟩) (p2 : main_call7_v5.space ≠ .host) (p3 : main_call7_v5.isScoped = false)
    (v : (⟨S100000x40, .f32⟩ : BufTy).Contents (Elt Ideal)) : (TRef.of main_call7_v5 p1 p2 p3).toBuf v = v := rfl
theorem ofBuf_main_call7_v5 (p1 : main_call7_v5.ty = ⟨S100000x40, .f32⟩) (p2 : main_call7_v5.space ≠ .host) (p3 : main_call7_v5.isScoped = false)
    (v : main_call7_v5.ty.Contents (Elt Ideal)) : (TRef.of main_call7_v5 p1 p2 p3).ofBuf v = v := rfl
theorem toBuf_main_call7_v6 (p1 : main_call7_v6.ty = ⟨S100000x40, .f32⟩) (p2 : main_call7_v6.space ≠ .host) (p3 : main_call7_v6.isScoped = false)
    (v : (⟨S100000x40, .f32⟩ : BufTy).Contents (Elt Ideal)) : (TRef.of main_call7_v6 p1 p2 p3).toBuf v = v := rfl
theorem ofBuf_main_call7_v6 (p1 : main_call7_v6.ty = ⟨S100000x40, .f32⟩) (p2 : main_call7_v6.space ≠ .host) (p3 : main_call7_v6.isScoped = false)
    (v : main_call7_v6.ty.Contents (Elt Ideal)) : (TRef.of main_call7_v6 p1 p2 p3).ofBuf v = v := rfl
theorem toBuf_main_call7_cst_1 (p1 : main_call7_cst_1.ty = ⟨S_, .f32⟩) (p2 : main_call7_cst_1.space ≠ .host) (p3 : main_call7_cst_1.isScoped = false)
    (v : (⟨S_, .f32⟩ : BufTy).Contents (Elt Ideal)) : (TRef.of main_call7_cst_1 p1 p2 p3).toBuf v = v := rfl
theorem ofBuf_main_call7_cst_1 (p1 : main_call7_cst_1.ty = ⟨S_, .f32⟩) (p2 : main_call7_cst_1.space ≠ .host) (p3 : main_call7_cst_1.isScoped = false)
    (v : main_call7_cst_1.ty.Contents (Elt Ideal)) : (TRef.of main_call7_cst_1 p1 p2 p3).ofBuf v = v := rfl
theorem toBuf_main_call7_v7 (p1 : main_call7_v7.ty = ⟨S100000, .f32⟩) (p2 : main_call7_v7.space ≠ .host) (p3 : main_call7_v7.isScoped = false)
    (v : (⟨S100000, .f32⟩ : BufTy).Contents (Elt Ideal)) : (TRef.of main_call7_v7 p1 p2 p3).toBuf v = v := rfl
theorem ofBuf_main_call7_v7 (p1 : main_call7_v7.ty = ⟨S100000, .f32⟩) (p2 : main_call7_v7.space ≠ .host) (p3 : main_call7_v7.isScoped = false)
    (v : main_call7_v7.ty.Contents (Elt Ideal)) : (TRef.of main_call7_v7 p1 p2 p3).ofBuf v = v := rfl
theorem toBuf_main_call7_v8 (p1 : main_call7_v8.ty = ⟨S100000x1, .f32⟩) (p2 : main_call7_v8.space ≠ .host) (p3 : main_call7_v8.isScoped = false)
    (v : (⟨S100000x1, .f32⟩ : BufTy).Contents (Elt Ideal)) : (TRef.of main_call7_v8 p1 p2 p3).toBuf v = v := rfl
theorem ofBuf_main_call7_v8 (p1 : main_call7_v8.ty = ⟨S100000x1, .f32⟩) (p2 : main_call7_v8.space ≠ .host) (p3 : main_call7_v8.isScoped = false)
    (v : main_call7_v8.ty.Contents (Elt Ideal)) : (TRef.of main_call7_v8 p1 p2 p3).ofBuf v = v := rfl
theorem toBuf_main_call7_v9 (p1 : main_call7_v9.ty = ⟨S100000x1, .f32⟩) (p2 : main_call7_v9.space ≠ .host) (p3 : main_call7_v9.isScoped = false)
    (v : (⟨S100000x1, .f32⟩ : BufTy).Contents (Elt Ideal)) : (TRef.of main_call7_v9 p1 p2 p3).toBuf v = v := rfl
theorem ofBuf_main_call7_v9 (p1 : main_call7_v9.ty = ⟨S100000x1, .f32⟩) (p2 : main_call7_v9.space ≠ .host) (p3 : main_call7_v9.isScoped = false)
    (v : main_call7_v9.ty.Contents (Elt Ideal)) : (TRef.of main_call7_v9 p1 p2 p3).ofBuf v = v := rfl
theorem toBuf_main_call7_v10 (p1 : main_call7_v10.ty = ⟨S100000x40, .f32⟩) (p2 : main_call7_v10.space ≠ .host) (p3 : main_call7_v10.isScoped = false)
    (v : (⟨S100000x40, .f32⟩ : BufTy).Contents (Elt Ideal)) : (TRef.of main_call7_v10 p1 p2 p3).toBuf v = v := rfl
theorem ofBuf_main_call7_v10 (p1 : main_call7_v10.ty = ⟨S100000x40, .f32⟩) (p2 : main_call7_v10.space ≠ .host) (p3 : main_call7_v10.isScoped = false)
    (v : main_call7_v10.ty.Contents (Elt Ideal)) : (TRef.of main_call7_v10 p1 p2 p3).ofBuf v = v := rfl
theorem toBuf_main_v145 (p1 : main_v145.ty = ⟨S100000x40, .f32⟩) (p2 : main_v145.space ≠ .host) (p3 : main_v145.isScoped = false)
    (v : (⟨S100000x40, .f32⟩ : BufTy).Contents (Elt Ideal)) : (TRef.of main_v145 p1 p2 p3).toBuf v = v := rfl
theorem ofBuf_main_v145 (p1 : main_v145.ty = ⟨S100000x40, .f32⟩) (p2 : main_v145.space ≠ .host) (p3 : main_v145.isScoped = false)
    (v : main_v145.ty.Contents (Elt Ideal)) : (TRef.of main_v145 p1 p2 p3).ofBuf v = v := rfl

/-- Rewrite every such change of name away. -/
macro "strip_names" : tactic => `(tactic| simp only [Cert.ReferenceIdeal.Casts.toBuf_main_cst_2, Cert.ReferenceIdeal.Casts.ofBuf_main_cst_2, Cert.ReferenceIdeal.Casts.toBuf_main_call0_v0, Cert.ReferenceIdeal.Casts.ofBuf_main_call0_v0, Cert.ReferenceIdeal.Casts.toBuf_main_call0_v1, Cert.ReferenceIdeal.Casts.ofBuf_main_call0_v1, Cert.ReferenceIdeal.Casts.toBuf_main_v13, Cert.ReferenceIdeal.Casts.ofBuf_main_v13, Cert.ReferenceIdeal.Casts.toBuf_main_v14, Cert.ReferenceIdeal.Casts.ofBuf_main_v14, Cert.ReferenceIdeal.Casts.toBuf_main_v15, Cert.ReferenceIdeal.Casts.ofBuf_main_v15, Cert.ReferenceIdeal.Casts.toBuf_main_call1_cst, Cert.ReferenceIdeal.Casts.ofBuf_main_call1_cst, Cert.ReferenceIdeal.Casts.toBuf_main_call1_v0, Cert.ReferenceIdeal.Casts.ofBuf_main_call1_v0, Cert.ReferenceIdeal.Casts.toBuf_main_v46, Cert.ReferenceIdeal.Casts.ofBuf_main_v46, Cert.ReferenceIdeal.Casts.toBuf_main_v47, Cert.ReferenceIdeal.Casts.ofBuf_main_v47, Cert.ReferenceIdeal.Casts.toBuf_main_cst_12, Cert.ReferenceIdeal.Casts.ofBuf_main_cst_12, Cert.ReferenceIdeal.Casts.toBuf_main_call2_v0, Cert.ReferenceIdeal.Casts.ofBuf_main_call2_v0, Cert.ReferenceIdeal.Casts.toBuf_main_call2_v1, Cert.ReferenceIdeal.Casts.ofBuf_main_call2_v1, Cert.ReferenceIdeal.Casts.toBuf_main_v57, Cert.ReferenceIdeal.Casts.ofBuf_main_v57, Cert.ReferenceIdeal.Casts.toBuf_main_v58, Cert.ReferenceIdeal.Casts.ofBuf_main_v58, Cert.ReferenceIdeal.Casts.toBuf_main_v59, Cert.ReferenceIdeal.Casts.ofBuf_main_v59, Cert.ReferenceIdeal.Casts.toBuf_main_call3_cst, Cert.ReferenceIdeal.Casts.ofBuf_main_call3_cst, Cert.ReferenceIdeal.Casts.toBuf_main_call3_v0, Cert.ReferenceIdeal.Casts.ofBuf_main_call3_v0, Cert.ReferenceIdeal.Casts.toBuf_main_v90, Cert.ReferenceIdeal.Casts.ofBuf_main_v90, Cert.ReferenceIdeal.Casts.toBuf_main_v91, Cert.ReferenceIdeal.Casts.ofBuf_main_v91, Cert.ReferenceIdeal.Casts.toBuf_main_cst_23, Cert.ReferenceIdeal.Casts.ofBuf_main_cst_23, Cert.ReferenceIdeal.Casts.toBuf_main_call4_v0, Cert.ReferenceIdeal.Casts.ofBuf_main_call4_v0, Cert.ReferenceIdeal.Casts.toBuf_main_call4_v1, Cert.ReferenceIdeal.Casts.ofBuf_main_call4_v1, Cert.ReferenceIdeal.Casts.toBuf_main_v101, Cert.ReferenceIdeal.Casts.ofBuf_main_v101, Cert.ReferenceIdeal.Casts.toBuf_main_v102, Cert.ReferenceIdeal.Casts.ofBuf_main_v102, Cert.ReferenceIdeal.Casts.toBuf_main_v103, Cert.ReferenceIdeal.Casts.ofBuf_main_v103, Cert.ReferenceIdeal.Casts.toBuf_main_call5_cst, Cert.ReferenceIdeal.Casts.ofBuf_main_call5_cst, Cert.ReferenceIdeal.Casts.toBuf_main_call5_v0, Cert.ReferenceIdeal.Casts.ofBuf_main_call5_v0, Cert.ReferenceIdeal.Casts.toBuf_main_v134, Cert.ReferenceIdeal.Casts.ofBuf_main_v134, Cert.ReferenceIdeal.Casts.toBuf_main_v135, Cert.ReferenceIdeal.Casts.ofBuf_main_v135, Cert.ReferenceIdeal.Casts.toBuf_main_call6_cst, Cert.ReferenceIdeal.Casts.ofBuf_main_call6_cst, Cert.ReferenceIdeal.Casts.toBuf_main_call6_v0, Cert.ReferenceIdeal.Casts.ofBuf_main_call6_v0, Cert.ReferenceIdeal.Casts.toBuf_main_v139, Cert.ReferenceIdeal.Casts.ofBuf_main_v139, Cert.ReferenceIdeal.Casts.toBuf_main_v140, Cert.ReferenceIdeal.Casts.ofBuf_main_v140, Cert.ReferenceIdeal.Casts.toBuf_main_call7_cst, Cert.ReferenceIdeal.Casts.ofBuf_main_call7_cst, Cert.ReferenceIdeal.Casts.toBuf_main_v144, Cert.ReferenceIdeal.Casts.ofBuf_main_v144, Cert.ReferenceIdeal.Casts.toBuf_main_call7_v0, Cert.ReferenceIdeal.Casts.ofBuf_main_call7_v0, Cert.ReferenceIdeal.Casts.toBuf_main_call7_cst_0, Cert.ReferenceIdeal.Casts.ofBuf_main_call7_cst_0, Cert.ReferenceIdeal.Casts.toBuf_main_call7_v1, Cert.ReferenceIdeal.Casts.ofBuf_main_call7_v1, Cert.ReferenceIdeal.Casts.toBuf_main_call7_v2, Cert.ReferenceIdeal.Casts.ofBuf_main_call7_v2, Cert.ReferenceIdeal.Casts.toBuf_main_call7_v3, Cert.ReferenceIdeal.Casts.ofBuf_main_call7_v3, Cert.ReferenceIdeal.Casts.toBuf_main_call7_v4, Cert.ReferenceIdeal.Casts.ofBuf_main_call7_v4, Cert.ReferenceIdeal.Casts.toBuf_main_call7_v5, Cert.ReferenceIdeal.Casts.ofBuf_main_call7_v5, Cert.ReferenceIdeal.Casts.toBuf_main_call7_v6, Cert.ReferenceIdeal.Casts.ofBuf_main_call7_v6, Cert.ReferenceIdeal.Casts.toBuf_main_call7_cst_1, Cert.ReferenceIdeal.Casts.ofBuf_main_call7_cst_1, Cert.ReferenceIdeal.Casts.toBuf_main_call7_v7, Cert.ReferenceIdeal.Casts.ofBuf_main_call7_v7, Cert.ReferenceIdeal.Casts.toBuf_main_call7_v8, Cert.ReferenceIdeal.Casts.ofBuf_main_call7_v8, Cert.ReferenceIdeal.Casts.toBuf_main_call7_v9, Cert.ReferenceIdeal.Casts.ofBuf_main_call7_v9, Cert.ReferenceIdeal.Casts.toBuf_main_call7_v10, Cert.ReferenceIdeal.Casts.ofBuf_main_call7_v10, Cert.ReferenceIdeal.Casts.toBuf_main_v145, Cert.ReferenceIdeal.Casts.ofBuf_main_v145])

end Cert.ReferenceIdeal.Casts

end
-- ==== Proof.RefValsW1.lean ====
/-
  The edge weights, copy 1 of the reference's three: from its destination list the degrees (a scatter-add of ones), which are positive and
  their inverse square roots; the `where` that keeps the inverse square root where the degree is positive; and the product of the two
  end nodes' values gathered along the edge lists.  Each piece is stated against the reference's stage functions, earlier values as hypotheses.
-/
import proofs.«107386_j38878043964109_1_alg».proof.Proof.RefChunks
import proofs.«107386_j38878043964109_1_alg».proof.Proof.RefReadP
import proofs.«107386_j38878043964109_1_alg».proof.Proof.RefAgg
import proofs.«107386_j38878043964109_1_alg».proof.Proof.RefCasts

set_option maxRecDepth 65536

noncomputable section

namespace Cert.ReferenceIdeal.Vals

open Cert.ReferenceIdeal Cert.ReferenceIdeal.Gen Cert.ReferenceIdeal.ValueP Cert.ReferenceIdeal.Chunks Cert.ReferenceIdeal.ReadP
open Idealize.ShloMosaic Idealize.ShloMosaic.TcCoe Idealize.SL.Sem Idealize.ShloMosaic.StableHlo
open Cert.ReferenceIdeal.Agg (aggOf Mat EdgeIdx EdgeW)
open Cert.ReferenceIdeal.Casts

variable (Wv : Valuation τ sig (Elt Ideal))

/-- Which nodes have a positive degree (the degree is a scatter-add of ones at the destination list). -/
theorem pos1 (x1 : (⟨S2x1600000, .i32⟩ : BufTy).Contents (Elt Ideal)) (hd : (Wv (Proc.devRef .tc main_v7) : EdgeIdx) = val_main_v7 (F := Ideal) x1) :
    (after (chunk 8 11) Wv (Proc.devRef .tc main_v13) : (⟨S100000, .i1⟩ : BufTy).Contents (Elt Ideal)) = val_main_v13 (F := Ideal) x1 := by
  simp only [chunk, opsI, ops, List.drop_succ_cons, List.drop_zero, List.take_succ_cons, List.take_zero]
  after_results_simp
  rw [hd]
  rfl

/-- The inverse square root of every degree. -/
theorem rsqrt1 (x1 : (⟨S2x1600000, .i32⟩ : BufTy).Contents (Elt Ideal)) (hd : (Wv (Proc.devRef .tc main_v7) : EdgeIdx) = val_main_v7 (F := Ideal) x1) :
    (after (chunk 8 11) Wv (Proc.devRef .tc main_v14) : (⟨S100000, .f32⟩ : BufTy).Contents (Elt Ideal)) = val_main_v14 (F := Ideal) x1 := by
  simp only [chunk, opsI, ops, List.drop_succ_cons, List.drop_zero, List.take_succ_cons, List.take_zero]
  after_results_simp
  rw [hd]
  rfl

/-- The zero the `where` falls back to. -/
theorem zero1 : (after (chunk 8 11) Wv (Proc.devRef .tc main_cst_2) : (⟨S_, .f32⟩ : BufTy).Contents (Elt Ideal)) = val_main_cst_2 (F := Ideal) := by
  simp only [chunk, opsI, ops, List.drop_succ_cons, List.drop_zero, List.take_succ_cons, List.take_zero]
  after_results; rfl

/-- The inverse square root of the degree where the degree is positive, zero elsewhere. -/
theorem dinv1 (x1 : (⟨S2x1600000, .i32⟩ : BufTy).Contents (Elt Ideal)) (hp : (Wv (Proc.devRef .tc main_v13) : (⟨S100000, .i1⟩ : BufTy).Contents (Elt Ideal)) = val_main_v13 (F := Ideal) x1) (hr : (Wv (Proc.devRef .tc main_v14) : (⟨S100000, .f32⟩ : BufTy).Contents (Elt Ideal)) = val_main_v14 (F := Ideal) x1)
    (hc : (Wv (Proc.devRef .tc main_cst_2) : (⟨S_, .f32⟩ : BufTy).Contents (Elt Ideal)) = val_main_cst_2 (F := Ideal)) :
    (after (chunk 19 3) Wv (Proc.devRef .tc main_v15) : (⟨S100000, .f32⟩ : BufTy).Contents (Elt Ideal)) = val_main_v15 (F := Ideal) x1 := by
  simp only [chunk, opsI, ops, List.drop_succ_cons, List.drop_zero, List.take_succ_cons, List.take_zero]
  after_results_simp
  strip_names
  rw [hp, hr, hc]
  rfl

/-- The edge weights: the product of the inverse square roots of the two end nodes' degrees. -/
theorem wgt1 (x1 : (⟨S2x1600000, .i32⟩ : BufTy).Contents (Elt Ideal)) (hv : (Wv (Proc.devRef .tc main_v15) : (⟨S100000, .f32⟩ : BufTy).Contents (Elt Ideal)) = val_main_v15 (F := Ideal) x1) (hs : (Wv (Proc.devRef .tc main_v6) : EdgeIdx) = val_main_v6 (F := Ideal) x1)
    (hd : (Wv (Proc.devRef .tc main_v7) : EdgeIdx) = val_main_v7 (F := Ideal) x1) :
    (after (chunk 22 19) Wv (Proc.devRef .tc main_v30) : EdgeW) = val_main_v30 (F := Ideal) x1 := by
  simp only [chunk, opsI, ops, List.drop_succ_cons, List.drop_zero, List.take_succ_cons, List.take_zero]
  after_results_simp
  rw [hv, hs, hd]
  rfl

end Cert.ReferenceIdeal.Vals

end
-- ==== Proof.RefValsW2.lean ====
/-
  The edge weights, copy 2 of the reference's three: from its destination list the degrees (a scatter-add of ones), which are positive and
  their inverse square roots; the `where` that keeps the inverse square root where the degree is positive; and the product of the two
  end nodes' values gathered along the edge lists.  Each piece is stated against the reference's stage functions, earlier values as hypotheses.
-/
import proofs.«107386_j38878043964109_1_alg».proof.Proof.RefChunks
import proofs.«107386_j38878043964109_1_alg».proof.Proof.RefReadP
import proofs.«107386_j38878043964109_1_alg».proof.Proof.RefAgg
import proofs.«107386_j38878043964109_1_alg».proof.Proof.RefCasts

set_option maxRecDepth 65536

noncomputable section

namespace Cert.ReferenceIdeal.Vals

open Cert.ReferenceIdeal Cert.ReferenceIdeal.Gen Cert.ReferenceIdeal.ValueP Cert.ReferenceIdeal.Chunks Cert.ReferenceIdeal.ReadP
open Idealize.ShloMosaic Idealize.ShloMosaic.TcCoe Idealize.SL.Sem Idealize.ShloMosaic.StableHlo
open Cert.ReferenceIdeal.Agg (aggOf Mat EdgeIdx EdgeW)
open Cert.ReferenceIdeal.Casts

variable (Wv : Valuation τ sig (Elt Ideal))

/-- Which nodes have a positive degree (the degree is a scatter-add of ones at the destination list). -/
theorem pos2 (x1 : (⟨S2x1600000, .i32⟩ : BufTy).Contents (Elt Ideal)) (hd : (Wv (Proc.devRef .tc main_v51) : EdgeIdx) = val_main_v51 (F := Ideal) x1) :
    (after (chunk 67 11) Wv (Proc.devRef .tc main_v57) : (⟨S100000, .i1⟩ : BufTy).Contents (Elt Ideal)) = val_main_v57 (F := Ideal) x1 := by
  simp only [chunk, opsI, ops, List.drop_succ_cons, List.drop_zero, List.take_succ_cons, List.take_zero]
  after_results_simp
  rw [hd]
  rfl

/-- The inverse square root of every degree. -/
theorem rsqrt2 (x1 : (⟨S2x1600000, .i32⟩ : BufTy).Contents (Elt Ideal)) (hd : (Wv (Proc.devRef .tc main_v51) : EdgeIdx) = val_main_v51 (F := Ideal) x1) :
    (after (chunk 67 11) Wv (Proc.devRef .tc main_v58) : (⟨S100000, .f32⟩ : BufTy).Contents (Elt Ideal)) = val_main_v58 (F := Ideal) x1 := by
  simp only [chunk, opsI, ops, List.drop_succ_cons, List.drop_zero, List.take_succ_cons, List.take_zero]
  after_results_simp
  rw [hd]
  rfl

/-- The zero the `where` falls back to. -/
theorem zero2 : (after (chunk 67 11) Wv (Proc.devRef .tc main_cst_12) : (⟨S_, .f32⟩ : BufTy).Contents (Elt Ideal)) = val_main_cst_12 (F := Ideal) := by
  simp only [chunk, opsI, ops, List.drop_succ_cons, List.drop_zero, List.take_succ_cons, List.take_zero]
  after_results; rfl

/-- The inverse square root of the degree where the degree is positive, zero elsewhere. -/
theorem dinv2 (x1 : (⟨S2x1600000, .i32⟩ : BufTy).Contents (Elt Ideal)) (hp : (Wv (Proc.devRef .tc main_v57) : (⟨S100000, .i1⟩ : BufTy).Contents (Elt Ideal)) = val_main_v57 (F := Ideal) x1) (hr : (Wv (Proc.devRef .tc main_v58) : (⟨S100000, .f32⟩ : BufTy).Contents (Elt Ideal)) = val_main_v58 (F := Ideal) x1)
    (hc : (Wv (Proc.devRef .tc main_cst_12) : (⟨S_, .f32⟩ : BufTy).Contents (Elt Ideal)) = val_main_cst_12 (F := Ideal)) :
    (after (chunk 78 3) Wv (Proc.devRef .tc main_v59) : (⟨S100000, .f32⟩ : BufTy).Contents (Elt Ideal)) = val_main_v59 (F := Ideal) x1 := by
  simp only [chunk, opsI, ops, List.drop_succ_cons, List.drop_zero, List.take_succ_cons, List.take_zero]
  after_results_simp
  strip_names
  rw [hp, hr, hc]
  rfl

/-- The edge weights: the product of the inverse square roots of the two end nodes' degrees. -/
theorem wgt2 (x1 : (⟨S2x1600000, .i32⟩ : BufTy).Contents (Elt Ideal)) (hv : (Wv (Proc.devRef .tc main_v59) : (⟨S100000, .f32⟩ : BufTy).Contents (Elt Ideal)) = val_main_v59 (F := Ideal) x1) (hs : (Wv (Proc.devRef .tc main_v50) : EdgeIdx) = val_main_v50 (F := Ideal) x1)
    (hd : (Wv (Proc.devRef .tc main_v51) : EdgeIdx) = val_main_v51 (F := Ideal) x1) :
    (after (chunk 81 19) Wv (Proc.devRef .tc main_v74) : EdgeW) = val_main_v74 (F := Ideal) x1 := by
  simp only [chunk, opsI, ops, List.drop_succ_cons, List.drop_zero, List.take_succ_cons, List.take_zero]
  after_results_simp
  rw [hv, hs, hd]
  rfl

end Cert.ReferenceIdeal.Vals

end
-- ==== Proof.RefValsW3.lean ====
/-
  The edge weights, copy 3 of the reference's three: from its destination list the degrees (a scatter-add of ones), which are positive and
  their inverse square roots; the `where` that keeps the inverse square root where the degree is positive; and the product of the two
  end nodes' values gathered along the edge lists.  Each piece is stated against the reference's stage functions, earlier values as hypotheses.
-/
import proofs.«107386_j38878043964109_1_alg».proof.Proof.RefChunks
import proofs.«107386_j38878043964109_1_alg».proof.Proof.RefReadP
import proofs.«107386_j38878043964109_1_alg».proof.Proof.RefAgg
import proofs.«107386_j38878043964109_1_alg».proof.Proof.RefCasts

set_option maxRecDepth 65536

noncomputable section

namespace Cert.ReferenceIdeal.Vals

open Cert.ReferenceIdeal Cert.ReferenceIdeal.Gen Cert.ReferenceIdeal.ValueP Cert.ReferenceIdeal.Chunks Cert.ReferenceIdeal.ReadP
open Idealize.ShloMosaic Idealize.ShloMosaic.TcCoe Idealize.SL.Sem Idealize.ShloMosaic.StableHlo
open Cert.ReferenceIdeal.Agg (aggOf Mat EdgeIdx EdgeW)
open Cert.ReferenceIdeal.Casts

variable (Wv : Valuation τ sig (Elt Ideal))

/-- Which nodes have a positive degree (the degree is a scatter-add of ones at the destination list). -/
theorem pos3 (x1 : (⟨S2x1600000, .i32⟩ : BufTy).Contents (Elt Ideal)) (hd : (Wv (Proc.devRef .tc main_v95) : EdgeIdx) = val_main_v95 (F := Ideal) x1) :
    (after (chunk 126 11) Wv (Proc.devRef .tc main_v101) : (⟨S100000, .i1⟩ : BufTy).Contents (Elt Ideal)) = val_main_v101 (F := Ideal) x1 := by
  simp only [chunk, opsI, ops, List.drop_succ_cons, List.drop_zero, List.take_succ_cons, List.take_zero]
  after_results_simp
  rw [hd]
  rfl

/-- The inverse square root of every degree. -/
theorem rsqrt3 (x1 : (⟨S2x1600000, .i32⟩ : BufTy).Contents (Elt Ideal)) (hd : (Wv (Proc.devRef .tc main_v95) : EdgeIdx) = val_main_v95 (F := Ideal) x1) :
    (after (chunk 126 11) Wv (Proc.devRef .tc main_v102) : (⟨S100000, .f32⟩ : BufTy).Contents (Elt Ideal)) = val_main_v102 (F := Ideal) x1 := by
  simp only [chunk, opsI, ops, List.drop_succ_cons, List.drop_zero, List.take_succ_cons, List.take_zero]
  after_results_simp
  rw [hd]
  rfl

/-- The zero the `where` falls back to. -/
theorem zero3 : (after (chunk 126 11) Wv (Proc.devRef .tc main_cst_23) : (⟨S_, .f32⟩ : BufTy).Contents (Elt Ideal)) = val_main_cst_23 (F := Ideal) := by
  simp only [chunk, opsI, ops, List.drop_succ_cons, List.drop_zero, List.take_succ_cons, List.take_zero]
  after_results; rfl

/-- The inverse square root of the degree where the degree is positive, zero elsewhere. -/
theorem dinv3 (x1 : (⟨S2x1600000, .i32⟩ : BufTy).Contents (Elt Ideal)) (hp : (Wv (Proc.devRef .tc main_v101) : (⟨S100000, .i1⟩ : BufTy).Contents (Elt Ideal)) = val_main_v101 (F := Ideal) x1) (hr : (Wv (Proc.devRef .tc main_v102) : (⟨S100000, .f32⟩ : BufTy).Contents (Elt Ideal)) = val_main_v102 (F := Ideal) x1)
    (hc : (Wv (Proc.devRef .tc main_cst_23) : (⟨S_, .f32⟩ : BufTy).Contents (Elt Ideal)) = val_main_cst_23 (F := Ideal)) :
    (after (chunk 137 3) Wv (Proc.devRef .tc main_v103) : (⟨S100000, .f32⟩ : BufTy).Contents (Elt Ideal)) = val_main_v103 (F := Ideal) x1 := by
  simp only [chunk, opsI, ops, List.drop_succ_cons, List.drop_zero, List.take_succ_cons, List.take_zero]
  after_results_simp
  strip_names
  rw [hp, hr, hc]
  rfl

/-- The edge weights: the product of the inverse square roots of the two end nodes' degrees. -/
theorem wgt3 (x1 : (⟨S2x1600000, .i32⟩ : BufTy).Contents (Elt Ideal)) (hv : (Wv (Proc.devRef .tc main_v103) : (⟨S100000, .f32⟩ : BufTy).Contents (Elt Ideal)) = val_main_v103 (F := Ideal) x1) (hs : (Wv (Proc.devRef .tc main_v94) : EdgeIdx) = val_main_v94 (F := Ideal) x1)
    (hd : (Wv (Proc.devRef .tc main_v95) : EdgeIdx) = val_main_v95 (F := Ideal) x1) :
    (after (chunk 140 19) Wv (Proc.devRef .tc main_v118) : EdgeW) = val_main_v118 (F := Ideal) x1 := by
  simp only [chunk, opsI, ops, List.drop_succ_cons, List.drop_zero, List.take_succ_cons, List.take_zero]
  after_results_simp
  rw [hv, hs, hd]
  rfl

end Cert.ReferenceIdeal.Vals

end
-- ==== Proof.RefValsG.lean ====
/-
  Each aggregation piece of the reference is the one shared aggregation function of the matrix, the edge lists and the weights before it.
-/
import proofs.«107386_j38878043964109_1_alg».proof.Proof.RefChunks
import proofs.«107386_j38878043964109_1_alg».proof.Proof.RefReadP
import proofs.«107386_j38878043964109_1_alg».proof.Proof.RefAgg

set_option maxRecDepth 65536

noncomputable section

namespace Cert.ReferenceIdeal.Vals

open Cert.ReferenceIdeal Cert.ReferenceIdeal.Gen Cert.ReferenceIdeal.ValueP Cert.ReferenceIdeal.Chunks Cert.ReferenceIdeal.ReadP
open Idealize.ShloMosaic Idealize.ShloMosaic.TcCoe Idealize.SL.Sem Idealize.ShloMosaic.StableHlo
open Cert.ReferenceIdeal.Agg (aggOf Mat EdgeIdx EdgeW)

variable (Wv : Valuation τ sig (Elt Ideal))

/-! ## The three aggregations -/

theorem agg1 : (after (chunk 41 16) Wv (Proc.devRef .tc main_v43) : Mat)
    = aggOf (Wv (Proc.devRef .tc main_v4)) (Wv (Proc.devRef .tc main_v6)) (Wv (Proc.devRef .tc main_v7)) (Wv (Proc.devRef .tc main_v30)) := by
  simp only [chunk, opsI, ops, List.drop_succ_cons, List.drop_zero, List.take_succ_cons, List.take_zero]
  after_results_simp; rfl

theorem agg2 : (after (chunk 100 16) Wv (Proc.devRef .tc main_v87) : Mat)
    = aggOf (Wv (Proc.devRef .tc main_v48)) (Wv (Proc.devRef .tc main_v50)) (Wv (Proc.devRef .tc main_v51)) (Wv (Proc.devRef .tc main_v74)) := by
  simp only [chunk, opsI, ops, List.drop_succ_cons, List.drop_zero, List.take_succ_cons, List.take_zero]
  after_results_simp; rfl

theorem agg3 : (after (chunk 159 16) Wv (Proc.devRef .tc main_v131) : Mat)
    = aggOf (Wv (Proc.devRef .tc main_v92)) (Wv (Proc.devRef .tc main_v94)) (Wv (Proc.devRef .tc main_v95)) (Wv (Proc.devRef .tc main_v118)) := by
  simp only [chunk, opsI, ops, List.drop_succ_cons, List.drop_zero, List.take_succ_cons, List.take_zero]
  after_results_simp; rfl

end Cert.ReferenceIdeal.Vals

end
-- ==== Proof.RefValsD.lean ====
/-
  The reference's two later dense pieces (bias, rectifier, matrix product of the aggregate before them), and its second and third copies of
  the two edge lists with the self-loops appended.
-/
import proofs.«107386_j38878043964109_1_alg».proof.Proof.RefChunks
import proofs.«107386_j38878043964109_1_alg».proof.Proof.RefReadP
import proofs.«107386_j38878043964109_1_alg».proof.Proof.RefAgg
import proofs.«107386_j38878043964109_1_alg».proof.Proof.RefCasts
import proofs.«107386_j38878043964109_1_alg».proof.Proof.RefValsA

set_option maxRecDepth 65536

noncomputable section

namespace Cert.ReferenceIdeal.Vals

open Cert.ReferenceIdeal Cert.ReferenceIdeal.Gen Cert.ReferenceIdeal.ValueP Cert.ReferenceIdeal.Chunks Cert.ReferenceIdeal.ReadP
open Idealize.ShloMosaic Idealize.ShloMosaic.TcCoe Idealize.SL.Sem Idealize.ShloMosaic.StableHlo
open Cert.ReferenceIdeal.Agg (aggOf Mat EdgeIdx EdgeW)
open Cert.ReferenceIdeal.Casts

variable (Wv : Valuation τ sig (Elt Ideal))

/-! ## The two later dense stages -/

theorem dense1 (x0 : (⟨S100000x64, .f32⟩ : BufTy).Contents (Elt Ideal)) (x1 : (⟨S2x1600000, .i32⟩ : BufTy).Contents (Elt Ideal)) (x3 : (⟨S64x64, .f32⟩ : BufTy).Contents (Elt Ideal)) (h43 : (Wv (Proc.devRef .tc main_v43) : Mat) = val_main_v43 (F := Ideal) x0 x1 x3) :
    (after (chunk 57 7) Wv (Proc.devRef .tc main_v48) : Mat) = val_main_v48 (F := Ideal) x0 x1 x3 (Wv (Proc.devRef .tc main_arg4)) (Wv (Proc.devRef .tc main_arg5)) := by
  simp only [chunk, opsI, ops, List.drop_succ_cons, List.drop_zero, List.take_succ_cons, List.take_zero]
  after_results_simp
  strip_names
  rw [h43]
  rfl

theorem dense2 (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (h87 : (Wv (Proc.devRef .tc main_v87) : Mat) = val_main_v87 (F := Ideal) x0 x1 x3 x4 x5) :
    (after (chunk 116 7) Wv (Proc.devRef .tc main_v92) : Mat) = val_main_v92 (F := Ideal) x0 x1 x3 x4 x5 (Wv (Proc.devRef .tc main_arg6)) (Wv (Proc.devRef .tc main_arg7)) := by
  simp only [chunk, opsI, ops, List.drop_succ_cons, List.drop_zero, List.take_succ_cons, List.take_zero]
  after_results_simp
  strip_names
  rw [h87]
  rfl

/-! ## The edge lists and weights, second and third copies -/

theorem src2 (x1 : (⟨S2x1600000, .i32⟩ : BufTy).Contents (Elt Ideal)) (h1 : (Wv (Proc.devRef .tc main_v1) : EdgeIdx0) = val_main_v1 (F := Ideal) x1) :
    (after (chunk 64 3) Wv (Proc.devRef .tc main_v50) : EdgeIdx) = val_main_v50 (F := Ideal) x1 := by
  simp only [chunk, opsI, ops, List.drop_succ_cons, List.drop_zero, List.take_succ_cons, List.take_zero]
  after_results
  rw [h1]
  rfl

theorem dst2 (x1 : (⟨S2x1600000, .i32⟩ : BufTy).Contents (Elt Ideal)) (h3 : (Wv (Proc.devRef .tc main_v3) : EdgeIdx0) = val_main_v3 (F := Ideal) x1) :
    (after (chunk 64 3) Wv (Proc.devRef .tc main_v51) : EdgeIdx) = val_main_v51 (F := Ideal) x1 := by
  simp only [chunk, opsI, ops, List.drop_succ_cons, List.drop_zero, List.take_succ_cons, List.take_zero]
  after_results
  rw [h3]
  rfl

theorem src3 (x1 : (⟨S2x1600000, .i32⟩ : BufTy).Contents (Elt Ideal)) (h1 : (Wv (Proc.devRef .tc main_v1) : EdgeIdx0) = val_main_v1 (F := Ideal) x1) :
    (after (chunk 123 3) Wv (Proc.devRef .tc main_v94) : EdgeIdx) = val_main_v94 (F := Ideal) x1 := by
  simp only [chunk, opsI, ops, List.drop_succ_cons, List.drop_zero, List.take_succ_cons, List.take_zero]
  after_results
  rw [h1]
  rfl

theorem dst3 (x1 : (⟨S2x1600000, .i32⟩ : BufTy).Contents (Elt Ideal)) (h3 : (Wv (Proc.devRef .tc main_v3) : EdgeIdx0) = val_main_v3 (F := Ideal) x1) :
    (after (chunk 123 3) Wv (Proc.devRef .tc main_v95) : EdgeIdx) = val_main_v95 (F := Ideal) x1 := by
  simp only [chunk, opsI, ops, List.drop_succ_cons, List.drop_zero, List.take_succ_cons, List.take_zero]
  after_results
  rw [h3]
  rfl

end Cert.ReferenceIdeal.Vals

end
-- ==== Proof.RefValsH.lean ====
/-
  The reference's head, piece by piece: bias and rectifier of the third aggregate; the hidden layer; the logits; every row's largest
  logit; the shifted logits; the log-softmax.  Each piece is stated against the reference's stage functions, the earlier value as a hypothesis.
-/
import proofs.«107386_j38878043964109_1_alg».proof.Proof.RefChunks
import proofs.«107386_j38878043964109_1_alg».proof.Proof.RefReadP
import proofs.«107386_j38878043964109_1_alg».proof.Proof.RefAgg
import proofs.«107386_j38878043964109_1_alg».proof.Proof.RefCasts

set_option maxRecDepth 65536

noncomputable section

namespace Cert.ReferenceIdeal.Vals

open Cert.ReferenceIdeal Cert.ReferenceIdeal.Gen Cert.ReferenceIdeal.ValueP Cert.ReferenceIdeal.Chunks Cert.ReferenceIdeal.ReadP
open Idealize.ShloMosaic Idealize.ShloMosaic.TcCoe Idealize.SL.Sem Idealize.ShloMosaic.StableHlo
open Cert.ReferenceIdeal.Agg (aggOf Mat EdgeIdx EdgeW)
open Cert.ReferenceIdeal.Casts

variable (Wv : Valuation τ sig (Elt Ideal))

/-- The third aggregate with its bias and the rectifier. -/
theorem head1 (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (h131 : (Wv (Proc.devRef .tc main_v131) : Mat) = val_main_v131 (F := Ideal) x0 x1 x3 x4 x5 x6 x7) :
    (after (chunk 175 6) Wv (Proc.devRef .tc main_v135) : Mat) = val_main_v135 (F := Ideal) x0 x1 x3 x4 x5 x6 x7 (Wv (Proc.devRef .tc main_arg8)) := by
  simp only [chunk, opsI, ops, List.drop_succ_cons, List.drop_zero, List.take_succ_cons, List.take_zero]
  after_results_simp
  strip_names
  rw [h131]
  rfl

/-- The hidden layer with its bias and the rectifier. -/
theorem head2 (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (h135 : (Wv (Proc.devRef .tc main_v135) : Mat) = val_main_v135 (F := Ideal) x0 x1 x3 x4 x5 x6 x7 x8) :
    (after (chunk 181 7) Wv (Proc.devRef .tc main_v140) : (⟨S100000x32, .f32⟩ : BufTy).Contents (Elt Ideal)) = val_main_v140 (F := Ideal) x0 x1 x3 x4 x5 x6 x7 x8 (Wv (Proc.devRef .tc main_arg9)) (Wv (Proc.devRef .tc main_arg10)) := by
  simp only [chunk, opsI, ops, List.drop_succ_cons, List.drop_zero, List.take_succ_cons, List.take_zero]
  after_results_simp
  strip_names
  rw [h135]
  rfl

/-- The logits. -/
theorem head3 (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (h140 : (Wv (Proc.devRef .tc main_v140) : (⟨S100000x32, .f32⟩ : BufTy).Contents (Elt Ideal)) = val_main_v140 (F := Ideal) x0 x1 x3 x4 x5 x6 x7 x8 x9 x10) :
    (after (chunk 188 4) Wv (Proc.devRef .tc main_v144) : (⟨S100000x40, .f32⟩ : BufTy).Contents (Elt Ideal)) = val_main_v144 (F := Ideal) x0 x1 x3 x4 x5 x6 x7 x8 x9 x10 (Wv (Proc.devRef .tc main_arg11)) (Wv (Proc.devRef .tc main_arg12)) := by
  simp only [chunk, opsI, ops, List.drop_succ_cons, List.drop_zero, List.take_succ_cons, List.take_zero]
  after_results_simp
  rw [h140]
  rfl

/-- Every row's largest logit. -/
theorem lsm1 (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x40, .f32⟩ : BufTy).Contents (Elt Ideal)) (x12 : (⟨S40, .f32⟩ : BufTy).Contents (Elt Ideal)) (h144 : (Wv (Proc.devRef .tc main_v144) : (⟨S100000x40, .f32⟩ : BufTy).Contents (Elt Ideal)) = val_main_v144 (F := Ideal) x0 x1 x3 x4 x5 x6 x7 x8 x9 x10 x11 x12) :
    (after (chunk 192 5) Wv (Proc.devRef .tc main_call7_v2) : (⟨S100000, .f32⟩ : BufTy).Contents (Elt Ideal)) = val_main_call7_v2 (F := Ideal) x0 x1 x3 x4 x5 x6 x7 x8 x9 x10 x11 x12 := by
  simp only [chunk, opsI, ops, List.drop_succ_cons, List.drop_zero, List.take_succ_cons, List.take_zero]
  after_results_simp
  repeat (first | rw [toBuf_main_call7_v2 rfl (by decide) rfl] | rw [ofBuf_main_call7_v1 rfl (by decide) rfl] | rw [toBuf_main_call7_v1 rfl (by decide) rfl] | rw [ofBuf_main_call7_cst_0 rfl (by decide) rfl] | rw [toBuf_main_call7_cst_0 rfl (by decide) rfl] | rw [ofBuf_main_call7_v0 rfl (by decide) rfl] | rw [toBuf_main_call7_v0 rfl (by decide) rfl] | rw [ofBuf_main_v144 rfl (by decide) rfl] | rw [ofBuf_main_call7_cst rfl (by decide) rfl] | rw [toBuf_main_call7_cst rfl (by decide) rfl])
  rw [h144]
  unfold val_main_call7_v2 val_main_call7_v1 val_main_call7_v0 val_main_call7_cst_0 val_main_call7_cst
  with_reducible rfl

/-- The shifted logits. -/
theorem lsm2 (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x40, .f32⟩ : BufTy).Contents (Elt Ideal)) (x12 : (⟨S40, .f32⟩ : BufTy).Contents (Elt Ideal)) (h2 : (Wv (Proc.devRef .tc main_call7_v2) : (⟨S100000, .f32⟩ : BufTy).Contents (Elt Ideal)) = val_main_call7_v2 (F := Ideal) x0 x1 x3 x4 x5 x6 x7 x8 x9 x10 x11 x12) (h144 : (Wv (Proc.devRef .tc main_v144) : (⟨S100000x40, .f32⟩ : BufTy).Contents (Elt Ideal)) = val_main_v144 (F := Ideal) x0 x1 x3 x4 x5 x6 x7 x8 x9 x10 x11 x12) :
    (after (chunk 197 3) Wv (Proc.devRef .tc main_call7_v5) : (⟨S100000x40, .f32⟩ : BufTy).Contents (Elt Ideal)) = val_main_call7_v5 (F := Ideal) x0 x1 x3 x4 x5 x6 x7 x8 x9 x10 x11 x12 := by
  simp only [chunk, opsI, ops, List.drop_succ_cons, List.drop_zero, List.take_succ_cons, List.take_zero]
  after_results_simp
  strip_names
  rw [h2, h144]
  rfl

/-- The log-softmax. -/
theorem lsm3 (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x40, .f32⟩ : BufTy).Contents (Elt Ideal)) (x12 : (⟨S40, .f32⟩ : BufTy).Contents (Elt Ideal)) (h5 : (Wv (Proc.devRef .tc main_call7_v5) : (⟨S100000x40, .f32⟩ : BufTy).Contents (Elt Ideal)) = val_main_call7_v5 (F := Ideal) x0 x1 x3 x4 x5 x6 x7 x8 x9 x10 x11 x12) :
    (after (chunk 200 7) Wv (Proc.devRef .tc main_v145) : (⟨S100000x40, .f32⟩ : BufTy).Contents (Elt Ideal)) = val_main_v145 (F := Ideal) x0 x1 x3 x4 x5 x6 x7 x8 x9 x10 x11 x12 := by
  simp only [chunk, opsI, ops, List.drop_succ_cons, List.drop_zero, List.take_succ_cons, List.take_zero]
  after_results_simp
  strip_names
  rw [h5]
  rfl

end Cert.ReferenceIdeal.Vals

end
-- ==== Proof.RefRun.lean ====
/-
  The reference's run, with its result as a function of the arguments.

  Every weakly fair execution of the reference terminates with each buffer at the fold of the 207 operations' results over
  the launch contents.  Reading the fold piece by piece — each piece's value from the pieces before it, the values a later
  piece still needs carried along unchanged — the result buffer ends at the reference's last stage function of the launch
  arguments, and every argument array ends as launched.
-/
import proofs.«107386_j38878043964109_1_alg».proof.Proof.RefChunks
import proofs.«107386_j38878043964109_1_alg».proof.Proof.RefKeep
import proofs.«107386_j38878043964109_1_alg».proof.Proof.RefKeep2
import proofs.«107386_j38878043964109_1_alg».proof.Proof.RefValsA
import proofs.«107386_j38878043964109_1_alg».proof.Proof.RefValsW1
import proofs.«107386_j38878043964109_1_alg».proof.Proof.RefValsW2
import proofs.«107386_j38878043964109_1_alg».proof.Proof.RefValsW3
import proofs.«107386_j38878043964109_1_alg».proof.Proof.RefValsG
import proofs.«107386_j38878043964109_1_alg».proof.Proof.RefValsD
import proofs.«107386_j38878043964109_1_alg».proof.Proof.RefValsH
import proofs.«107386_j38878043964109_1_alg».proof.Proof.RefAgg

set_option maxRecDepth 65536

noncomputable section

namespace Cert.ReferenceIdeal.RunValue

open Cert.ReferenceIdeal Cert.ReferenceIdeal.Gen Cert.ReferenceIdeal.ValueP Cert.ReferenceIdeal.Chunks Cert.ReferenceIdeal.ReadP
open Idealize.ShloMosaic Idealize.ShloMosaic.TcCoe Idealize.SL.Sem Idealize.ShloMosaic.StableHlo
open Cert.ReferenceIdeal.Agg (aggOf Mat EdgeIdx EdgeW)
open Cert.ReferenceIdeal.Vals (EdgeIdx0)

variable (W : Valuation τ sig (Elt Ideal))

/-- The buffers' contents after the first `n` operations. -/
abbrev P (n : Nat) : Valuation τ sig (Elt Ideal) := after (opsI.take n) W

/-! ## The arguments stay as launched -/

theorem arg4_at57 : P W 57 (Proc.devRef .tc main_arg4) = W (Proc.devRef .tc main_arg4) :=
  ((congrFun (after_take_add 41 16 W) (Proc.devRef .tc main_arg4)).trans ((Keep.keep_B (P W 41)).2.2.2.2.1)).trans (((congrFun (after_take_add 22 19 W) (Proc.devRef .tc main_arg4)).trans ((Keep.keep_A2c (P W 22)).2.2.2.2.1)).trans (((congrFun (after_take_add 19 3 W) (Proc.devRef .tc main_arg4)).trans ((Keep.keep_A2b (P W 19)).2.2.2.2.1)).trans (((congrFun (after_take_add 8 11 W) (Proc.devRef .tc main_arg4)).trans ((Keep.keep_A2a (P W 8)).2.2.2.2.1)).trans (((congrFun (after_take_add 0 8 W) (Proc.devRef .tc main_arg4)).trans ((Keep.keep_A1 (P W 0)).2.2.2.2.1))))))
theorem arg5_at57 : P W 57 (Proc.devRef .tc main_arg5) = W (Proc.devRef .tc main_arg5) :=
  ((congrFun (after_take_add 41 16 W) (Proc.devRef .tc main_arg5)).trans ((Keep.keep_B (P W 41)).2.2.2.2.2.1)).trans (((congrFun (after_take_add 22 19 W) (Proc.devRef .tc main_arg5)).trans ((Keep.keep_A2c (P W 22)).2.2.2.2.2.1)).trans (((congrFun (after_take_add 19 3 W) (Proc.devRef .tc main_arg5)).trans ((Keep.keep_A2b (P W 19)).2.2.2.2.2.1)).trans (((congrFun (after_take_add 8 11 W) (Proc.devRef .tc main_arg5)).trans ((Keep.keep_A2a (P W 8)).2.2.2.2.2.1)).trans (((congrFun (after_take_add 0 8 W) (Proc.devRef .tc main_arg5)).trans ((Keep.keep_A1 (P W 0)).2.2.2.2.2.1))))))
theorem arg6_at116 : P W 116 (Proc.devRef .tc main_arg6) = W (Proc.devRef .tc main_arg6) :=
  ((congrFun (after_take_add 100 16 W) (Proc.devRef .tc main_arg6)).trans ((Keep.keep_E (P W 100)).2.2.2.2.2.2.1)).trans (((congrFun (after_take_add 81 19 W) (Proc.devRef .tc main_arg6)).trans ((Keep.keep_D2c (P W 81)).2.2.2.2.2.2.1)).trans (((congrFun (after_take_add 78 3 W) (Proc.devRef .tc main_arg6)).trans ((Keep.keep_D2b (P W 78)).2.2.2.2.2.2.1)).trans (((congrFun (after_take_add 67 11 W) (Proc.devRef .tc main_arg6)).trans ((Keep.keep_D2a (P W 67)).2.2.2.2.2.2.1)).trans (((congrFun (after_take_add 64 3 W) (Proc.devRef .tc main_arg6)).trans ((Keep.keep_D1 (P W 64)).2.2.2.2.2.2.1)).trans (((congrFun (after_take_add 57 7 W) (Proc.devRef .tc main_arg6)).trans ((Keep.keep_C (P W 57)).2.2.2.2.2.2.1)).trans (((congrFun (after_take_add 41 16 W) (Proc.devRef .tc main_arg6)).trans ((Keep.keep_B (P W 41)).2.2.2.2.2.2.1)).trans (((congrFun (after_take_add 22 19 W) (Proc.devRef .tc main_arg6)).trans ((Keep.keep_A2c (P W 22)).2.2.2.2.2.2.1)).trans (((congrFun (after_take_add 19 3 W) (Proc.devRef .tc main_arg6)).trans ((Keep.keep_A2b (P W 19)).2.2.2.2.2.2.1)).trans (((congrFun (after_take_add 8 11 W) (Proc.devRef .tc main_arg6)).trans ((Keep.keep_A2a (P W 8)).2.2.2.2.2.2.1)).trans (((congrFun (after_take_add 0 8 W) (Proc.devRef .tc main_arg6)).trans ((Keep.keep_A1 (P W 0)).2.2.2.2.2.2.1))))))))))))
theorem arg7_at116 : P W 116 (Proc.devRef .tc main_arg7) = W (Proc.devRef .tc main_arg7) :=
  ((congrFun (after_take_add 100 16 W) (Proc.devRef .tc main_arg7)).trans ((Keep.keep_E (P W 100)).2.2.2.2.2.2.2.1)).trans (((congrFun (after_take_add 81 19 W) (Proc.devRef .tc main_arg7)).trans ((Keep.keep_D2c (P W 81)).2.2.2.2.2.2.2.1)).trans (((congrFun (after_take_add 78 3 W) (Proc.devRef .tc main_arg7)).trans ((Keep.keep_D2b (P W 78)).2.2.2.2.2.2.2.1)).trans (((congrFun (after_take_add 67 11 W) (Proc.devRef .tc main_arg7)).trans ((Keep.keep_D2a (P W 67)).2.2.2.2.2.2.2.1)).trans (((congrFun (after_take_add 64 3 W) (Proc.devRef .tc main_arg7)).trans ((Keep.keep_D1 (P W 64)).2.2.2.2.2.2.2.1)).trans (((congrFun (after_take_add 57 7 W) (Proc.devRef .tc main_arg7)).trans ((Keep.keep_C (P W 57)).2.2.2.2.2.2.2.1)).trans (((congrFun (after_take_add 41 16 W) (Proc.devRef .tc main_arg7)).trans ((Keep.keep_B (P W 41)).2.2.2.2.2.2.2.1)).trans (((congrFun (after_take_add 22 19 W) (Proc.devRef .tc main_arg7)).trans ((Keep.keep_A2c (P W 22)).2.2.2.2.2.2.2.1)).trans (((congrFun (after_take_add 19 3 W) (Proc.devRef .tc main_arg7)).trans ((Keep.keep_A2b (P W 19)).2.2.2.2.2.2.2.1)).trans (((congrFun (after_take_add 8 11 W) (Proc.devRef .tc main_arg7)).trans ((Keep.keep_A2a (P W 8)).2.2.2.2.2.2.2.1)).trans (((congrFun (after_take_add 0 8 W) (Proc.devRef .tc main_arg7)).trans ((Keep.keep_A1 (P W 0)).2.2.2.2.2.2.2.1))))))))))))
theorem arg8_at175 : P W 175 (Proc.devRef .tc main_arg8) = W (Proc.devRef .tc main_arg8) :=
  ((congrFun (after_take_add 159 16 W) (Proc.devRef .tc main_arg8)).trans ((Keep.keep_H (P W 159)).2.2.2.2.2.2.2.2.1)).trans (((congrFun (after_take_add 140 19 W) (Proc.devRef .tc main_arg8)).trans ((Keep.keep_G2c (P W 140)).2.2.2.2.2.2.2.2.1)).trans (((congrFun (after_take_add 137 3 W) (Proc.devRef .tc main_arg8)).trans ((Keep.keep_G2b (P W 137)).2.2.2.2.2.2.2.2.1)).trans (((congrFun (after_take_add 126 11 W) (Proc.devRef .tc main_arg8)).trans ((Keep.keep_G2a (P W 126)).2.2.2.2.2.2.2.2.1)).trans (((congrFun (after_take_add 123 3 W) (Proc.devRef .tc main_arg8)).trans ((Keep.keep_G1 (P W 123)).2.2.2.2.2.2.2.2.1)).trans (((congrFun (after_take_add 116 7 W) (Proc.devRef .tc main_arg8)).trans ((Keep.keep_F (P W 116)).2.2.2.2.2.2.2.2.1)).trans (((congrFun (after_take_add 100 16 W) (Proc.devRef .tc main_arg8)).trans ((Keep.keep_E (P W 100)).2.2.2.2.2.2.2.2.1)).trans (((congrFun (after_take_add 81 19 W) (Proc.devRef .tc main_arg8)).trans ((Keep.keep_D2c (P W 81)).2.2.2.2.2.2.2.2.1)).trans (((congrFun (after_take_add 78 3 W) (Proc.devRef .tc main_arg8)).trans ((Keep.keep_D2b (P W 78)).2.2.2.2.2.2.2.2.1)).trans (((congrFun (after_take_add 67 11 W) (Proc.devRef .tc main_arg8)).trans ((Keep.keep_D2a (P W 67)).2.2.2.2.2.2.2.2.1)).trans (((congrFun (after_take_add 64 3 W) (Proc.devRef .tc main_arg8)).trans ((Keep.keep_D1 (P W 64)).2.2.2.2.2.2.2.2.1)).trans (((congrFun (after_take_add 57 7 W) (Proc.devRef .tc main_arg8)).trans ((Keep.keep_C (P W 57)).2.2.2.2.2.2.2.2.1)).trans (((congrFun (after_take_add 41 16 W) (Proc.devRef .tc main_arg8)).trans ((Keep.keep_B (P W 41)).2.2.2.2.2.2.2.2.1)).trans (((congrFun (after_take_add 22 19 W) (Proc.devRef .tc main_arg8)).trans ((Keep.keep_A2c (P W 22)).2.2.2.2.2.2.2.2.1)).trans (((congrFun (after_take_add 19 3 W) (Proc.devRef .tc main_arg8)).trans ((Keep.keep_A2b (P W 19)).2.2.2.2.2.2.2.2.1)).trans (((congrFun (after_take_add 8 11 W) (Proc.devRef .tc main_arg8)).trans ((Keep.keep_A2a (P W 8)).2.2.2.2.2.2.2.2.1)).trans (((congrFun (after_take_add 0 8 W) (Proc.devRef .tc main_arg8)).trans ((Keep.keep_A1 (P W 0)).2.2.2.2.2.2.2.2.1))))))))))))))))))
theorem arg9_at181 : P W 181 (Proc.devRef .tc main_arg9) = W (Proc.devRef .tc main_arg9) :=
  ((congrFun (after_take_add 175 6 W) (Proc.devRef .tc main_arg9)).trans ((Keep.keep_I1 (P W 175)).2.2.2.2.2.2.2.2.2.1)).trans (((congrFun (after_take_add 159 16 W) (Proc.devRef .tc main_arg9)).trans ((Keep.keep_H (P W 159)).2.2.2.2.2.2.2.2.2.1)).trans (((congrFun (after_take_add 140 19 W) (Proc.devRef .tc main_arg9)).trans ((Keep.keep_G2c (P W 140)).2.2.2.2.2.2.2.2.2.1)).trans (((congrFun (after_take_add 137 3 W) (Proc.devRef .tc main_arg9)).trans ((Keep.keep_G2b (P W 137)).2.2.2.2.2.2.2.2.2.1)).trans (((congrFun (after_take_add 126 11 W) (Proc.devRef .tc main_arg9)).trans ((Keep.keep_G2a (P W 126)).2.2.2.2.2.2.2.2.2.1)).trans (((congrFun (after_take_add 123 3 W) (Proc.devRef .tc main_arg9)).trans ((Keep.keep_G1 (P W 123)).2.2.2.2.2.2.2.2.2.1)).trans (((congrFun (after_take_add 116 7 W) (Proc.devRef .tc main_arg9)).trans ((Keep.keep_F (P W 116)).2.2.2.2.2.2.2.2.2.1)).trans (((congrFun (after_take_add 100 16 W) (Proc.devRef .tc main_arg9)).trans ((Keep.keep_E (P W 100)).2.2.2.2.2.2.2.2.2.1)).trans (((congrFun (after_take_add 81 19 W) (Proc.devRef .tc main_arg9)).trans ((Keep.keep_D2c (P W 81)).2.2.2.2.2.2.2.2.2.1)).trans (((congrFun (after_take_add 78 3 W) (Proc.devRef .tc main_arg9)).trans ((Keep.keep_D2b (P W 78)).2.2.2.2.2.2.2.2.2.1)).trans (((congrFun (after_take_add 67 11 W) (Proc.devRef .tc main_arg9)).trans ((Keep.keep_D2a (P W 67)).2.2.2.2.2.2.2.2.2.1)).trans (((congrFun (after_take_add 64 3 W) (Proc.devRef .tc main_arg9)).trans ((Keep.keep_D1 (P W 64)).2.2.2.2.2.2.2.2.2.1)).trans (((congrFun (after_take_add 57 7 W) (Proc.devRef .tc main_arg9)).trans ((Keep.keep_C (P W 57)).2.2.2.2.2.2.2.2.2.1)).trans (((congrFun (after_take_add 41 16 W) (Proc.devRef .tc main_arg9)).trans ((Keep.keep_B (P W 41)).2.2.2.2.2.2.2.2.2.1)).trans (((congrFun (after_take_add 22 19 W) (Proc.devRef .tc main_arg9)).trans ((Keep.keep_A2c (P W 22)).2.2.2.2.2.2.2.2.2.1)).trans (((congrFun (after_take_add 19 3 W) (Proc.devRef .tc main_arg9)).trans ((Keep.keep_A2b (P W 19)).2.2.2.2.2.2.2.2.2.1)).trans (((congrFun (after_take_add 8 11 W) (Proc.devRef .tc main_arg9)).trans ((Keep.keep_A2a (P W 8)).2.2.2.2.2.2.2.2.2.1)).trans (((congrFun (after_take_add 0 8 W) (Proc.devRef .tc main_arg9)).trans ((Keep.keep_A1 (P W 0)).2.2.2.2.2.2.2.2.2.1)))))))))))))))))))
theorem arg10_at181 : P W 181 (Proc.devRef .tc main_arg10) = W (Proc.devRef .tc main_arg10) :=
  ((congrFun (after_take_add 175 6 W) (Proc.devRef .tc main_arg10)).trans ((Keep.keep_I1 (P W 175)).2.2.2.2.2.2.2.2.2.2.1)).trans (((congrFun (after_take_add 159 16 W) (Proc.devRef .tc main_arg10)).trans ((Keep.keep_H (P W 159)).2.2.2.2.2.2.2.2.2.2.1)).trans (((congrFun (after_take_add 140 19 W) (Proc.devRef .tc main_arg10)).trans ((Keep.keep_G2c (P W 140)).2.2.2.2.2.2.2.2.2.2.1)).trans (((congrFun (after_take_add 137 3 W) (Proc.devRef .tc main_arg10)).trans ((Keep.keep_G2b (P W 137)).2.2.2.2.2.2.2.2.2.2.1)).trans (((congrFun (after_take_add 126 11 W) (Proc.devRef .tc main_arg10)).trans ((Keep.keep_G2a (P W 126)).2.2.2.2.2.2.2.2.2.2.1)).trans (((congrFun (after_take_add 123 3 W) (Proc.devRef .tc main_arg10)).trans ((Keep.keep_G1 (P W 123)).2.2.2.2.2.2.2.2.2.2.1)).trans (((congrFun (after_take_add 116 7 W) (Proc.devRef .tc main_arg10)).trans ((Keep.keep_F (P W 116)).2.2.2.2.2.2.2.2.2.2.1)).trans (((congrFun (after_take_add 100 16 W) (Proc.devRef .tc main_arg10)).trans ((Keep.keep_E (P W 100)).2.2.2.2.2.2.2.2.2.2.1)).trans (((congrFun (after_take_add 81 19 W) (Proc.devRef .tc main_arg10)).trans ((Keep.keep_D2c (P W 81)).2.2.2.2.2.2.2.2.2.2.1)).trans (((congrFun (after_take_add 78 3 W) (Proc.devRef .tc main_arg10)).trans ((Keep.keep_D2b (P W 78)).2.2.2.2.2.2.2.2.2.2.1)).trans (((congrFun (after_take_add 67 11 W) (Proc.devRef .tc main_arg10)).trans ((Keep.keep_D2a (P W 67)).2.2.2.2.2.2.2.2.2.2.1)).trans (((congrFun (after_take_add 64 3 W) (Proc.devRef .tc main_arg10)).trans ((Keep.keep_D1 (P W 64)).2.2.2.2.2.2.2.2.2.2.1)).trans (((congrFun (after_take_add 57 7 W) (Proc.devRef .tc main_arg10)).trans ((Keep.keep_C (P W 57)).2.2.2.2.2.2.2.2.2.2.1)).trans (((congrFun (after_take_add 41 16 W) (Proc.devRef .tc main_arg10)).trans ((Keep.keep_B (P W 41)).2.2.2.2.2.2.2.2.2.2.1)).trans (((congrFun (after_take_add 22 19 W) (Proc.devRef .tc main_arg10)).trans ((Keep.keep_A2c (P W 22)).2.2.2.2.2.2.2.2.2.2.1)).trans (((congrFun (after_take_add 19 3 W) (Proc.devRef .tc main_arg10)).trans ((Keep.keep_A2b (P W 19)).2.2.2.2.2.2.2.2.2.2.1)).trans (((congrFun (after_take_add 8 11 W) (Proc.devRef .tc main_arg10)).trans ((Keep.keep_A2a (P W 8)).2.2.2.2.2.2.2.2.2.2.1)).trans (((congrFun (after_take_add 0 8 W) (Proc.devRef .tc main_arg10)).trans ((Keep.keep_A1 (P W 0)).2.2.2.2.2.2.2.2.2.2.1)))))))))))))))))))
theorem arg11_at188 : P W 188 (Proc.devRef .tc main_arg11) = W (Proc.devRef .tc main_arg11) :=
  ((congrFun (after_take_add 181 7 W) (Proc.devRef .tc main_arg11)).trans ((Keep.keep_I2 (P W 181)).2.2.2.2.2.2.2.2.2.2.2.1)).trans (((congrFun (after_take_add 175 6 W) (Proc.devRef .tc main_arg11)).trans ((Keep.keep_I1 (P W 175)).2.2.2.2.2.2.2.2.2.2.2.1)).trans (((congrFun (after_take_add 159 16 W) (Proc.devRef .tc main_arg11)).trans ((Keep.keep_H (P W 159)).2.2.2.2.2.2.2.2.2.2.2.1)).trans (((congrFun (after_take_add 140 19 W) (Proc.devRef .tc main_arg11)).trans ((Keep.keep_G2c (P W 140)).2.2.2.2.2.2.2.2.2.2.2.1)).trans (((congrFun (after_take_add 137 3 W) (Proc.devRef .tc main_arg11)).trans ((Keep.keep_G2b (P W 137)).2.2.2.2.2.2.2.2.2.2.2.1)).trans (((congrFun (after_take_add 126 11 W) (Proc.devRef .tc main_arg11)).trans ((Keep.keep_G2a (P W 126)).2.2.2.2.2.2.2.2.2.2.2.1)).trans (((congrFun (after_take_add 123 3 W) (Proc.devRef .tc main_arg11)).trans ((Keep.keep_G1 (P W 123)).2.2.2.2.2.2.2.2.2.2.2.1)).trans (((congrFun (after_take_add 116 7 W) (Proc.devRef .tc main_arg11)).trans ((Keep.keep_F (P W 116)).2.2.2.2.2.2.2.2.2.2.2.1)).trans (((congrFun (after_take_add 100 16 W) (Proc.devRef .tc main_arg11)).trans ((Keep.keep_E (P W 100)).2.2.2.2.2.2.2.2.2.2.2.1)).trans (((congrFun (after_take_add 81 19 W) (Proc.devRef .tc main_arg11)).trans ((Keep.keep_D2c (P W 81)).2.2.2.2.2.2.2.2.2.2.2.1)).trans (((congrFun (after_take_add 78 3 W) (Proc.devRef .tc main_arg11)).trans ((Keep.keep_D2b (P W 78)).2.2.2.2.2.2.2.2.2.2.2.1)).trans (((congrFun (after_take_add 67 11 W) (Proc.devRef .tc main_arg11)).trans ((Keep.keep_D2a (P W 67)).2.2.2.2.2.2.2.2.2.2.2.1)).trans (((congrFun (after_take_add 64 3 W) (Proc.devRef .tc main_arg11)).trans ((Keep.keep_D1 (P W 64)).2.2.2.2.2.2.2.2.2.2.2.1)).trans (((congrFun (after_take_add 57 7 W) (Proc.devRef .tc main_arg11)).trans ((Keep.keep_C (P W 57)).2.2.2.2.2.2.2.2.2.2.2.1)).trans (((congrFun (after_take_add 41 16 W) (Proc.devRef .tc main_arg11)).trans ((Keep.keep_B (P W 41)).2.2.2.2.2.2.2.2.2.2.2.1)).trans (((congrFun (after_take_add 22 19 W) (Proc.devRef .tc main_arg11)).trans ((Keep.keep_A2c (P W 22)).2.2.2.2.2.2.2.2.2.2.2.1)).trans (((congrFun (after_take_add 19 3 W) (Proc.devRef .tc main_arg11)).trans ((Keep.keep_A2b (P W 19)).2.2.2.2.2.2.2.2.2.2.2.1)).trans (((congrFun (after_take_add 8 11 W) (Proc.devRef .tc main_arg11)).trans ((Keep.keep_A2a (P W 8)).2.2.2.2.2.2.2.2.2.2.2.1)).trans (((congrFun (after_take_add 0 8 W) (Proc.devRef .tc main_arg11)).trans ((Keep.keep_A1 (P W 0)).2.2.2.2.2.2.2.2.2.2.2.1))))))))))))))))))))
theorem arg12_at188 : P W 188 (Proc.devRef .tc main_arg12) = W (Proc.devRef .tc main_arg12) :=
  ((congrFun (after_take_add 181 7 W) (Proc.devRef .tc main_arg12)).trans ((Keep.keep_I2 (P W 181)).2.2.2.2.2.2.2.2.2.2.2.2)).trans (((congrFun (after_take_add 175 6 W) (Proc.devRef .tc main_arg12)).trans ((Keep.keep_I1 (P W 175)).2.2.2.2.2.2.2.2.2.2.2.2)).trans (((congrFun (after_take_add 159 16 W) (Proc.devRef .tc main_arg12)).trans ((Keep.keep_H (P W 159)).2.2.2.2.2.2.2.2.2.2.2.2)).trans (((congrFun (after_take_add 140 19 W) (Proc.devRef .tc main_arg12)).trans ((Keep.keep_G2c (P W 140)).2.2.2.2.2.2.2.2.2.2.2.2.1)).trans (((congrFun (after_take_add 137 3 W) (Proc.devRef .tc main_arg12)).trans ((Keep.keep_G2b (P W 137)).2.2.2.2.2.2.2.2.2.2.2.2.1)).trans (((congrFun (after_take_add 126 11 W) (Proc.devRef .tc main_arg12)).trans ((Keep.keep_G2a (P W 126)).2.2.2.2.2.2.2.2.2.2.2.2.1)).trans (((congrFun (after_take_add 123 3 W) (Proc.devRef .tc main_arg12)).trans ((Keep.keep_G1 (P W 123)).2.2.2.2.2.2.2.2.2.2.2.2.1)).trans (((congrFun (after_take_add 116 7 W) (Proc.devRef .tc main_arg12)).trans ((Keep.keep_F (P W 116)).2.2.2.2.2.2.2.2.2.2.2.2.1)).trans (((congrFun (after_take_add 100 16 W) (Proc.devRef .tc main_arg12)).trans ((Keep.keep_E (P W 100)).2.2.2.2.2.2.2.2.2.2.2.2.1)).trans (((congrFun (after_take_add 81 19 W) (Proc.devRef .tc main_arg12)).trans ((Keep.keep_D2c (P W 81)).2.2.2.2.2.2.2.2.2.2.2.2.1)).trans (((congrFun (after_take_add 78 3 W) (Proc.devRef .tc main_arg12)).trans ((Keep.keep_D2b (P W 78)).2.2.2.2.2.2.2.2.2.2.2.2.1)).trans (((congrFun (after_take_add 67 11 W) (Proc.devRef .tc main_arg12)).trans ((Keep.keep_D2a (P W 67)).2.2.2.2.2.2.2.2.2.2.2.2.1)).trans (((congrFun (after_take_add 64 3 W) (Proc.devRef .tc main_arg12)).trans ((Keep.keep_D1 (P W 64)).2.2.2.2.2.2.2.2.2.2.2.2.1)).trans (((congrFun (after_take_add 57 7 W) (Proc.devRef .tc main_arg12)).trans ((Keep.keep_C (P W 57)).2.2.2.2.2.2.2.2.2.2.2.2.1)).trans (((congrFun (after_take_add 41 16 W) (Proc.devRef .tc main_arg12)).trans ((Keep.keep_B (P W 41)).2.2.2.2.2.2.2.2.2.2.2.2.1)).trans (((congrFun (after_take_add 22 19 W) (Proc.devRef .tc main_arg12)).trans ((Keep.keep_A2c (P W 22)).2.2.2.2.2.2.2.2.2.2.2.2.1)).trans (((congrFun (after_take_add 19 3 W) (Proc.devRef .tc main_arg12)).trans ((Keep.keep_A2b (P W 19)).2.2.2.2.2.2.2.2.2.2.2.2.1)).trans (((congrFun (after_take_add 8 11 W) (Proc.devRef .tc main_arg12)).trans ((Keep.keep_A2a (P W 8)).2.2.2.2.2.2.2.2.2.2.2.2.1)).trans (((congrFun (after_take_add 0 8 W) (Proc.devRef .tc main_arg12)).trans ((Keep.keep_A1 (P W 0)).2.2.2.2.2.2.2.2.2.2.2.2))))))))))))))))))))
theorem arg0_at207 : P W 207 (Proc.devRef .tc main_arg0) = W (Proc.devRef .tc main_arg0) :=
  ((congrFun (after_take_add 200 7 W) (Proc.devRef .tc main_arg0)).trans ((Keep.keep_I4c (P W 200)).1)).trans (((congrFun (after_take_add 197 3 W) (Proc.devRef .tc main_arg0)).trans ((Keep.keep_I4b (P W 197)).1)).trans (((congrFun (after_take_add 192 5 W) (Proc.devRef .tc main_arg0)).trans ((Keep.keep_I4a (P W 192)).1)).trans (((congrFun (after_take_add 188 4 W) (Proc.devRef .tc main_arg0)).trans ((Keep.keep_I3 (P W 188)).1)).trans (((congrFun (after_take_add 181 7 W) (Proc.devRef .tc main_arg0)).trans ((Keep.keep_I2 (P W 181)).1)).trans (((congrFun (after_take_add 175 6 W) (Proc.devRef .tc main_arg0)).trans ((Keep.keep_I1 (P W 175)).1)).trans (((congrFun (after_take_add 159 16 W) (Proc.devRef .tc main_arg0)).trans ((Keep.keep_H (P W 159)).1)).trans (((congrFun (after_take_add 140 19 W) (Proc.devRef .tc main_arg0)).trans ((Keep.keep_G2c (P W 140)).1)).trans (((congrFun (after_take_add 137 3 W) (Proc.devRef .tc main_arg0)).trans ((Keep.keep_G2b (P W 137)).1)).trans (((congrFun (after_take_add 126 11 W) (Proc.devRef .tc main_arg0)).trans ((Keep.keep_G2a (P W 126)).1)).trans (((congrFun (after_take_add 123 3 W) (Proc.devRef .tc main_arg0)).trans ((Keep.keep_G1 (P W 123)).1)).trans (((congrFun (after_take_add 116 7 W) (Proc.devRef .tc main_arg0)).trans ((Keep.keep_F (P W 116)).1)).trans (((congrFun (after_take_add 100 16 W) (Proc.devRef .tc main_arg0)).trans ((Keep.keep_E (P W 100)).1)).trans (((congrFun (after_take_add 81 19 W) (Proc.devRef .tc main_arg0)).trans ((Keep.keep_D2c (P W 81)).1)).trans (((congrFun (after_take_add 78 3 W) (Proc.devRef .tc main_arg0)).trans ((Keep.keep_D2b (P W 78)).1)).trans (((congrFun (after_take_add 67 11 W) (Proc.devRef .tc main_arg0)).trans ((Keep.keep_D2a (P W 67)).1)).trans (((congrFun (after_take_add 64 3 W) (Proc.devRef .tc main_arg0)).trans ((Keep.keep_D1 (P W 64)).1)).trans (((congrFun (after_take_add 57 7 W) (Proc.devRef .tc main_arg0)).trans ((Keep.keep_C (P W 57)).1)).trans (((congrFun (after_take_add 41 16 W) (Proc.devRef .tc main_arg0)).trans ((Keep.keep_B (P W 41)).1)).trans (((congrFun (after_take_add 22 19 W) (Proc.devRef .tc main_arg0)).trans ((Keep.keep_A2c (P W 22)).1)).trans (((congrFun (after_take_add 19 3 W) (Proc.devRef .tc main_arg0)).trans ((Keep.keep_A2b (P W 19)).1)).trans (((congrFun (after_take_add 8 11 W) (Proc.devRef .tc main_arg0)).trans ((Keep.keep_A2a (P W 8)).1)).trans (((congrFun (after_take_add 0 8 W) (Proc.devRef .tc main_arg0)).trans ((Keep.keep_A1 (P W 0)).1))))))))))))))))))))))))
theorem arg1_at207 : P W 207 (Proc.devRef .tc main_arg1) = W (Proc.devRef .tc main_arg1) :=
  ((congrFun (after_take_add 200 7 W) (Proc.devRef .tc main_arg1)).trans ((Keep.keep_I4c (P W 200)).2.1)).trans (((congrFun (after_take_add 197 3 W) (Proc.devRef .tc main_arg1)).trans ((Keep.keep_I4b (P W 197)).2.1)).trans (((congrFun (after_take_add 192 5 W) (Proc.devRef .tc main_arg1)).trans ((Keep.keep_I4a (P W 192)).2.1)).trans (((congrFun (after_take_add 188 4 W) (Proc.devRef .tc main_arg1)).trans ((Keep.keep_I3 (P W 188)).2.1)).trans (((congrFun (after_take_add 181 7 W) (Proc.devRef .tc main_arg1)).trans ((Keep.keep_I2 (P W 181)).2.1)).trans (((congrFun (after_take_add 175 6 W) (Proc.devRef .tc main_arg1)).trans ((Keep.keep_I1 (P W 175)).2.1)).trans (((congrFun (after_take_add 159 16 W) (Proc.devRef .tc main_arg1)).trans ((Keep.keep_H (P W 159)).2.1)).trans (((congrFun (after_take_add 140 19 W) (Proc.devRef .tc main_arg1)).trans ((Keep.keep_G2c (P W 140)).2.1)).trans (((congrFun (after_take_add 137 3 W) (Proc.devRef .tc main_arg1)).trans ((Keep.keep_G2b (P W 137)).2.1)).trans (((congrFun (after_take_add 126 11 W) (Proc.devRef .tc main_arg1)).trans ((Keep.keep_G2a (P W 126)).2.1)).trans (((congrFun (after_take_add 123 3 W) (Proc.devRef .tc main_arg1)).trans ((Keep.keep_G1 (P W 123)).2.1)).trans (((congrFun (after_take_add 116 7 W) (Proc.devRef .tc main_arg1)).trans ((Keep.keep_F (P W 116)).2.1)).trans (((congrFun (after_take_add 100 16 W) (Proc.devRef .tc main_arg1)).trans ((Keep.keep_E (P W 100)).2.1)).trans (((congrFun (after_take_add 81 19 W) (Proc.devRef .tc main_arg1)).trans ((Keep.keep_D2c (P W 81)).2.1)).trans (((congrFun (after_take_add 78 3 W) (Proc.devRef .tc main_arg1)).trans ((Keep.keep_D2b (P W 78)).2.1)).trans (((congrFun (after_take_add 67 11 W) (Proc.devRef .tc main_arg1)).trans ((Keep.keep_D2a (P W 67)).2.1)).trans (((congrFun (after_take_add 64 3 W) (Proc.devRef .tc main_arg1)).trans ((Keep.keep_D1 (P W 64)).2.1)).trans (((congrFun (after_take_add 57 7 W) (Proc.devRef .tc main_arg1)).trans ((Keep.keep_C (P W 57)).2.1)).trans (((congrFun (after_take_add 41 16 W) (Proc.devRef .tc main_arg1)).trans ((Keep.keep_B (P W 41)).2.1)).trans (((congrFun (after_take_add 22 19 W) (Proc.devRef .tc main_arg1)).trans ((Keep.keep_A2c (P W 22)).2.1)).trans (((congrFun (after_take_add 19 3 W) (Proc.devRef .tc main_arg1)).trans ((Keep.keep_A2b (P W 19)).2.1)).trans (((congrFun (after_take_add 8 11 W) (Proc.devRef .tc main_arg1)).trans ((Keep.keep_A2a (P W 8)).2.1)).trans (((congrFun (after_take_add 0 8 W) (Proc.devRef .tc main_arg1)).trans ((Keep.keep_A1 (P W 0)).2.1))))))))))))))))))))))))
theorem arg2_at207 : P W 207 (Proc.devRef .tc main_arg2) = W (Proc.devRef .tc main_arg2) :=
  ((congrFun (after_take_add 200 7 W) (Proc.devRef .tc main_arg2)).trans ((Keep.keep_I4c (P W 200)).2.2.1)).trans (((congrFun (after_take_add 197 3 W) (Proc.devRef .tc main_arg2)).trans ((Keep.keep_I4b (P W 197)).2.2.1)).trans (((congrFun (after_take_add 192 5 W) (Proc.devRef .tc main_arg2)).trans ((Keep.keep_I4a (P W 192)).2.2.1)).trans (((congrFun (after_take_add 188 4 W) (Proc.devRef .tc main_arg2)).trans ((Keep.keep_I3 (P W 188)).2.2.1)).trans (((congrFun (after_take_add 181 7 W) (Proc.devRef .tc main_arg2)).trans ((Keep.keep_I2 (P W 181)).2.2.1)).trans (((congrFun (after_take_add 175 6 W) (Proc.devRef .tc main_arg2)).trans ((Keep.keep_I1 (P W 175)).2.2.1)).trans (((congrFun (after_take_add 159 16 W) (Proc.devRef .tc main_arg2)).trans ((Keep.keep_H (P W 159)).2.2.1)).trans (((congrFun (after_take_add 140 19 W) (Proc.devRef .tc main_arg2)).trans ((Keep.keep_G2c (P W 140)).2.2.1)).trans (((congrFun (after_take_add 137 3 W) (Proc.devRef .tc main_arg2)).trans ((Keep.keep_G2b (P W 137)).2.2.1)).trans (((congrFun (after_take_add 126 11 W) (Proc.devRef .tc main_arg2)).trans ((Keep.keep_G2a (P W 126)).2.2.1)).trans (((congrFun (after_take_add 123 3 W) (Proc.devRef .tc main_arg2)).trans ((Keep.keep_G1 (P W 123)).2.2.1)).trans (((congrFun (after_take_add 116 7 W) (Proc.devRef .tc main_arg2)).trans ((Keep.keep_F (P W 116)).2.2.1)).trans (((congrFun (after_take_add 100 16 W) (Proc.devRef .tc main_arg2)).trans ((Keep.keep_E (P W 100)).2.2.1)).trans (((congrFun (after_take_add 81 19 W) (Proc.devRef .tc main_arg2)).trans ((Keep.keep_D2c (P W 81)).2.2.1)).trans (((congrFun (after_take_add 78 3 W) (Proc.devRef .tc main_arg2)).trans ((Keep.keep_D2b (P W 78)).2.2.1)).trans (((congrFun (after_take_add 67 11 W) (Proc.devRef .tc main_arg2)).trans ((Keep.keep_D2a (P W 67)).2.2.1)).trans (((congrFun (after_take_add 64 3 W) (Proc.devRef .tc main_arg2)).trans ((Keep.keep_D1 (P W 64)).2.2.1)).trans (((congrFun (after_take_add 57 7 W) (Proc.devRef .tc main_arg2)).trans ((Keep.keep_C (P W 57)).2.2.1)).trans (((congrFun (after_take_add 41 16 W) (Proc.devRef .tc main_arg2)).trans ((Keep.keep_B (P W 41)).2.2.1)).trans (((congrFun (after_take_add 22 19 W) (Proc.devRef .tc main_arg2)).trans ((Keep.keep_A2c (P W 22)).2.2.1)).trans (((congrFun (after_take_add 19 3 W) (Proc.devRef .tc main_arg2)).trans ((Keep.keep_A2b (P W 19)).2.2.1)).trans (((congrFun (after_take_add 8 11 W) (Proc.devRef .tc main_arg2)).trans ((Keep.keep_A2a (P W 8)).2.2.1)).trans (((congrFun (after_take_add 0 8 W) (Proc.devRef .tc main_arg2)).trans ((Keep.keep_A1 (P W 0)).2.2.1))))))))))))))))))))))))
theorem arg3_at207 : P W 207 (Proc.devRef .tc main_arg3) = W (Proc.devRef .tc main_arg3) :=
  ((congrFun (after_take_add 200 7 W) (Proc.devRef .tc main_arg3)).trans ((Keep.keep_I4c (P W 200)).2.2.2.1)).trans (((congrFun (after_take_add 197 3 W) (Proc.devRef .tc main_arg3)).trans ((Keep.keep_I4b (P W 197)).2.2.2.1)).trans (((congrFun (after_take_add 192 5 W) (Proc.devRef .tc main_arg3)).trans ((Keep.keep_I4a (P W 192)).2.2.2.1)).trans (((congrFun (after_take_add 188 4 W) (Proc.devRef .tc main_arg3)).trans ((Keep.keep_I3 (P W 188)).2.2.2.1)).trans (((congrFun (after_take_add 181 7 W) (Proc.devRef .tc main_arg3)).trans ((Keep.keep_I2 (P W 181)).2.2.2.1)).trans (((congrFun (after_take_add 175 6 W) (Proc.devRef .tc main_arg3)).trans ((Keep.keep_I1 (P W 175)).2.2.2.1)).trans (((congrFun (after_take_add 159 16 W) (Proc.devRef .tc main_arg3)).trans ((Keep.keep_H (P W 159)).2.2.2.1)).trans (((congrFun (after_take_add 140 19 W) (Proc.devRef .tc main_arg3)).trans ((Keep.keep_G2c (P W 140)).2.2.2.1)).trans (((congrFun (after_take_add 137 3 W) (Proc.devRef .tc main_arg3)).trans ((Keep.keep_G2b (P W 137)).2.2.2.1)).trans (((congrFun (after_take_add 126 11 W) (Proc.devRef .tc main_arg3)).trans ((Keep.keep_G2a (P W 126)).2.2.2.1)).trans (((congrFun (after_take_add 123 3 W) (Proc.devRef .tc main_arg3)).trans ((Keep.keep_G1 (P W 123)).2.2.2.1)).trans (((congrFun (after_take_add 116 7 W) (Proc.devRef .tc main_arg3)).trans ((Keep.keep_F (P W 116)).2.2.2.1)).trans (((congrFun (after_take_add 100 16 W) (Proc.devRef .tc main_arg3)).trans ((Keep.keep_E (P W 100)).2.2.2.1)).trans (((congrFun (after_take_add 81 19 W) (Proc.devRef .tc main_arg3)).trans ((Keep.keep_D2c (P W 81)).2.2.2.1)).trans (((congrFun (after_take_add 78 3 W) (Proc.devRef .tc main_arg3)).trans ((Keep.keep_D2b (P W 78)).2.2.2.1)).trans (((congrFun (after_take_add 67 11 W) (Proc.devRef .tc main_arg3)).trans ((Keep.keep_D2a (P W 67)).2.2.2.1)).trans (((congrFun (after_take_add 64 3 W) (Proc.devRef .tc main_arg3)).trans ((Keep.keep_D1 (P W 64)).2.2.2.1)).trans (((congrFun (after_take_add 57 7 W) (Proc.devRef .tc main_arg3)).trans ((Keep.keep_C (P W 57)).2.2.2.1)).trans (((congrFun (after_take_add 41 16 W) (Proc.devRef .tc main_arg3)).trans ((Keep.keep_B (P W 41)).2.2.2.1)).trans (((congrFun (after_take_add 22 19 W) (Proc.devRef .tc main_arg3)).trans ((Keep.keep_A2c (P W 22)).2.2.2.1)).trans (((congrFun (after_take_add 19 3 W) (Proc.devRef .tc main_arg3)).trans ((Keep.keep_A2b (P W 19)).2.2.2.1)).trans (((congrFun (after_take_add 8 11 W) (Proc.devRef .tc main_arg3)).trans ((Keep.keep_A2a (P W 8)).2.2.2.1)).trans (((congrFun (after_take_add 0 8 W) (Proc.devRef .tc main_arg3)).trans ((Keep.keep_A1 (P W 0)).2.2.2.1))))))))))))))))))))))))
theorem arg4_at207 : P W 207 (Proc.devRef .tc main_arg4) = W (Proc.devRef .tc main_arg4) :=
  ((congrFun (after_take_add 200 7 W) (Proc.devRef .tc main_arg4)).trans ((Keep.keep_I4c (P W 200)).2.2.2.2.1)).trans (((congrFun (after_take_add 197 3 W) (Proc.devRef .tc main_arg4)).trans ((Keep.keep_I4b (P W 197)).2.2.2.2.1)).trans (((congrFun (after_take_add 192 5 W) (Proc.devRef .tc main_arg4)).trans ((Keep.keep_I4a (P W 192)).2.2.2.2.1)).trans (((congrFun (after_take_add 188 4 W) (Proc.devRef .tc main_arg4)).trans ((Keep.keep_I3 (P W 188)).2.2.2.2.1)).trans (((congrFun (after_take_add 181 7 W) (Proc.devRef .tc main_arg4)).trans ((Keep.keep_I2 (P W 181)).2.2.2.2.1)).trans (((congrFun (after_take_add 175 6 W) (Proc.devRef .tc main_arg4)).trans ((Keep.keep_I1 (P W 175)).2.2.2.2.1)).trans (((congrFun (after_take_add 159 16 W) (Proc.devRef .tc main_arg4)).trans ((Keep.keep_H (P W 159)).2.2.2.2.1)).trans (((congrFun (after_take_add 140 19 W) (Proc.devRef .tc main_arg4)).trans ((Keep.keep_G2c (P W 140)).2.2.2.2.1)).trans (((congrFun (after_take_add 137 3 W) (Proc.devRef .tc main_arg4)).trans ((Keep.keep_G2b (P W 137)).2.2.2.2.1)).trans (((congrFun (after_take_add 126 11 W) (Proc.devRef .tc main_arg4)).trans ((Keep.keep_G2a (P W 126)).2.2.2.2.1)).trans (((congrFun (after_take_add 123 3 W) (Proc.devRef .tc main_arg4)).trans ((Keep.keep_G1 (P W 123)).2.2.2.2.1)).trans (((congrFun (after_take_add 116 7 W) (Proc.devRef .tc main_arg4)).trans ((Keep.keep_F (P W 116)).2.2.2.2.1)).trans (((congrFun (after_take_add 100 16 W) (Proc.devRef .tc main_arg4)).trans ((Keep.keep_E (P W 100)).2.2.2.2.1)).trans (((congrFun (after_take_add 81 19 W) (Proc.devRef .tc main_arg4)).trans ((Keep.keep_D2c (P W 81)).2.2.2.2.1)).trans (((congrFun (after_take_add 78 3 W) (Proc.devRef .tc main_arg4)).trans ((Keep.keep_D2b (P W 78)).2.2.2.2.1)).trans (((congrFun (after_take_add 67 11 W) (Proc.devRef .tc main_arg4)).trans ((Keep.keep_D2a (P W 67)).2.2.2.2.1)).trans (((congrFun (after_take_add 64 3 W) (Proc.devRef .tc main_arg4)).trans ((Keep.keep_D1 (P W 64)).2.2.2.2.1)).trans (((congrFun (after_take_add 57 7 W) (Proc.devRef .tc main_arg4)).trans ((Keep.keep_C (P W 57)).2.2.2.2.1)).trans (((congrFun (after_take_add 41 16 W) (Proc.devRef .tc main_arg4)).trans ((Keep.keep_B (P W 41)).2.2.2.2.1)).trans (((congrFun (after_take_add 22 19 W) (Proc.devRef .tc main_arg4)).trans ((Keep.keep_A2c (P W 22)).2.2.2.2.1)).trans (((congrFun (after_take_add 19 3 W) (Proc.devRef .tc main_arg4)).trans ((Keep.keep_A2b (P W 19)).2.2.2.2.1)).trans (((congrFun (after_take_add 8 11 W) (Proc.devRef .tc main_arg4)).trans ((Keep.keep_A2a (P W 8)).2.2.2.2.1)).trans (((congrFun (after_take_add 0 8 W) (Proc.devRef .tc main_arg4)).trans ((Keep.keep_A1 (P W 0)).2.2.2.2.1))))))))))))))))))))))))
theorem arg5_at207 : P W 207 (Proc.devRef .tc main_arg5) = W (Proc.devRef .tc main_arg5) :=
  ((congrFun (after_take_add 200 7 W) (Proc.devRef .tc main_arg5)).trans ((Keep.keep_I4c (P W 200)).2.2.2.2.2.1)).trans (((congrFun (after_take_add 197 3 W) (Proc.devRef .tc main_arg5)).trans ((Keep.keep_I4b (P W 197)).2.2.2.2.2.1)).trans (((congrFun (after_take_add 192 5 W) (Proc.devRef .tc main_arg5)).trans ((Keep.keep_I4a (P W 192)).2.2.2.2.2.1)).trans (((congrFun (after_take_add 188 4 W) (Proc.devRef .tc main_arg5)).trans ((Keep.keep_I3 (P W 188)).2.2.2.2.2.1)).trans (((congrFun (after_take_add 181 7 W) (Proc.devRef .tc main_arg5)).trans ((Keep.keep_I2 (P W 181)).2.2.2.2.2.1)).trans (((congrFun (after_take_add 175 6 W) (Proc.devRef .tc main_arg5)).trans ((Keep.keep_I1 (P W 175)).2.2.2.2.2.1)).trans (((congrFun (after_take_add 159 16 W) (Proc.devRef .tc main_arg5)).trans ((Keep.keep_H (P W 159)).2.2.2.2.2.1)).trans (((congrFun (after_take_add 140 19 W) (Proc.devRef .tc main_arg5)).trans ((Keep.keep_G2c (P W 140)).2.2.2.2.2.1)).trans (((congrFun (after_take_add 137 3 W) (Proc.devRef .tc main_arg5)).trans ((Keep.keep_G2b (P W 137)).2.2.2.2.2.1)).trans (((congrFun (after_take_add 126 11 W) (Proc.devRef .tc main_arg5)).trans ((Keep.keep_G2a (P W 126)).2.2.2.2.2.1)).trans (((congrFun (after_take_add 123 3 W) (Proc.devRef .tc main_arg5)).trans ((Keep.keep_G1 (P W 123)).2.2.2.2.2.1)).trans (((congrFun (after_take_add 116 7 W) (Proc.devRef .tc main_arg5)).trans ((Keep.keep_F (P W 116)).2.2.2.2.2.1)).trans (((congrFun (after_take_add 100 16 W) (Proc.devRef .tc main_arg5)).trans ((Keep.keep_E (P W 100)).2.2.2.2.2.1)).trans (((congrFun (after_take_add 81 19 W) (Proc.devRef .tc main_arg5)).trans ((Keep.keep_D2c (P W 81)).2.2.2.2.2.1)).trans (((congrFun (after_take_add 78 3 W) (Proc.devRef .tc main_arg5)).trans ((Keep.keep_D2b (P W 78)).2.2.2.2.2.1)).trans (((congrFun (after_take_add 67 11 W) (Proc.devRef .tc main_arg5)).trans ((Keep.keep_D2a (P W 67)).2.2.2.2.2.1)).trans (((congrFun (after_take_add 64 3 W) (Proc.devRef .tc main_arg5)).trans ((Keep.keep_D1 (P W 64)).2.2.2.2.2.1)).trans (((congrFun (after_take_add 57 7 W) (Proc.devRef .tc main_arg5)).trans ((Keep.keep_C (P W 57)).2.2.2.2.2.1)).trans (((congrFun (after_take_add 41 16 W) (Proc.devRef .tc main_arg5)).trans ((Keep.keep_B (P W 41)).2.2.2.2.2.1)).trans (((congrFun (after_take_add 22 19 W) (Proc.devRef .tc main_arg5)).trans ((Keep.keep_A2c (P W 22)).2.2.2.2.2.1)).trans (((congrFun (after_take_add 19 3 W) (Proc.devRef .tc main_arg5)).trans ((Keep.keep_A2b (P W 19)).2.2.2.2.2.1)).trans (((congrFun (after_take_add 8 11 W) (Proc.devRef .tc main_arg5)).trans ((Keep.keep_A2a (P W 8)).2.2.2.2.2.1)).trans (((congrFun (after_take_add 0 8 W) (Proc.devRef .tc main_arg5)).trans ((Keep.keep_A1 (P W 0)).2.2.2.2.2.1))))))))))))))))))))))))
theorem arg6_at207 : P W 207 (Proc.devRef .tc main_arg6) = W (Proc.devRef .tc main_arg6) :=
  ((congrFun (after_take_add 200 7 W) (Proc.devRef .tc main_arg6)).trans ((Keep.keep_I4c (P W 200)).2.2.2.2.2.2.1)).trans (((congrFun (after_take_add 197 3 W) (Proc.devRef .tc main_arg6)).trans ((Keep.keep_I4b (P W 197)).2.2.2.2.2.2.1)).trans (((congrFun (after_take_add 192 5 W) (Proc.devRef .tc main_arg6)).trans ((Keep.keep_I4a (P W 192)).2.2.2.2.2.2.1)).trans (((congrFun (after_take_add 188 4 W) (Proc.devRef .tc main_arg6)).trans ((Keep.keep_I3 (P W 188)).2.2.2.2.2.2.1)).trans (((congrFun (after_take_add 181 7 W) (Proc.devRef .tc main_arg6)).trans ((Keep.keep_I2 (P W 181)).2.2.2.2.2.2.1)).trans (((congrFun (after_take_add 175 6 W) (Proc.devRef .tc main_arg6)).trans ((Keep.keep_I1 (P W 175)).2.2.2.2.2.2.1)).trans (((congrFun (after_take_add 159 16 W) (Proc.devRef .tc main_arg6)).trans ((Keep.keep_H (P W 159)).2.2.2.2.2.2.1)).trans (((congrFun (after_take_add 140 19 W) (Proc.devRef .tc main_arg6)).trans ((Keep.keep_G2c (P W 140)).2.2.2.2.2.2.1)).trans (((congrFun (after_take_add 137 3 W) (Proc.devRef .tc main_arg6)).trans ((Keep.keep_G2b (P W 137)).2.2.2.2.2.2.1)).trans (((congrFun (after_take_add 126 11 W) (Proc.devRef .tc main_arg6)).trans ((Keep.keep_G2a (P W 126)).2.2.2.2.2.2.1)).trans (((congrFun (after_take_add 123 3 W) (Proc.devRef .tc main_arg6)).trans ((Keep.keep_G1 (P W 123)).2.2.2.2.2.2.1)).trans (((congrFun (after_take_add 116 7 W) (Proc.devRef .tc main_arg6)).trans ((Keep.keep_F (P W 116)).2.2.2.2.2.2.1)).trans (((congrFun (after_take_add 100 16 W) (Proc.devRef .tc main_arg6)).trans ((Keep.keep_E (P W 100)).2.2.2.2.2.2.1)).trans (((congrFun (after_take_add 81 19 W) (Proc.devRef .tc main_arg6)).trans ((Keep.keep_D2c (P W 81)).2.2.2.2.2.2.1)).trans (((congrFun (after_take_add 78 3 W) (Proc.devRef .tc main_arg6)).trans ((Keep.keep_D2b (P W 78)).2.2.2.2.2.2.1)).trans (((congrFun (after_take_add 67 11 W) (Proc.devRef .tc main_arg6)).trans ((Keep.keep_D2a (P W 67)).2.2.2.2.2.2.1)).trans (((congrFun (after_take_add 64 3 W) (Proc.devRef .tc main_arg6)).trans ((Keep.keep_D1 (P W 64)).2.2.2.2.2.2.1)).trans (((congrFun (after_take_add 57 7 W) (Proc.devRef .tc main_arg6)).trans ((Keep.keep_C (P W 57)).2.2.2.2.2.2.1)).trans (((congrFun (after_take_add 41 16 W) (Proc.devRef .tc main_arg6)).trans ((Keep.keep_B (P W 41)).2.2.2.2.2.2.1)).trans (((congrFun (after_take_add 22 19 W) (Proc.devRef .tc main_arg6)).trans ((Keep.keep_A2c (P W 22)).2.2.2.2.2.2.1)).trans (((congrFun (after_take_add 19 3 W) (Proc.devRef .tc main_arg6)).trans ((Keep.keep_A2b (P W 19)).2.2.2.2.2.2.1)).trans (((congrFun (after_take_add 8 11 W) (Proc.devRef .tc main_arg6)).trans ((Keep.keep_A2a (P W 8)).2.2.2.2.2.2.1)).trans (((congrFun (after_take_add 0 8 W) (Proc.devRef .tc main_arg6)).trans ((Keep.keep_A1 (P W 0)).2.2.2.2.2.2.1))))))))))))))))))))))))
theorem arg7_at207 : P W 207 (Proc.devRef .tc main_arg7) = W (Proc.devRef .tc main_arg7) :=
  ((congrFun (after_take_add 200 7 W) (Proc.devRef .tc main_arg7)).trans ((Keep.keep_I4c (P W 200)).2.2.2.2.2.2.2.1)).trans (((congrFun (after_take_add 197 3 W) (Proc.devRef .tc main_arg7)).trans ((Keep.keep_I4b (P W 197)).2.2.2.2.2.2.2.1)).trans (((congrFun (after_take_add 192 5 W) (Proc.devRef .tc main_arg7)).trans ((Keep.keep_I4a (P W 192)).2.2.2.2.2.2.2.1)).trans (((congrFun (after_take_add 188 4 W) (Proc.devRef .tc main_arg7)).trans ((Keep.keep_I3 (P W 188)).2.2.2.2.2.2.2.1)).trans (((congrFun (after_take_add 181 7 W) (Proc.devRef .tc main_arg7)).trans ((Keep.keep_I2 (P W 181)).2.2.2.2.2.2.2.1)).trans (((congrFun (after_take_add 175 6 W) (Proc.devRef .tc main_arg7)).trans ((Keep.keep_I1 (P W 175)).2.2.2.2.2.2.2.1)).trans (((congrFun (after_take_add 159 16 W) (Proc.devRef .tc main_arg7)).trans ((Keep.keep_H (P W 159)).2.2.2.2.2.2.2.1)).trans (((congrFun (after_take_add 140 19 W) (Proc.devRef .tc main_arg7)).trans ((Keep.keep_G2c (P W 140)).2.2.2.2.2.2.2.1)).trans (((congrFun (after_take_add 137 3 W) (Proc.devRef .tc main_arg7)).trans ((Keep.keep_G2b (P W 137)).2.2.2.2.2.2.2.1)).trans (((congrFun (after_take_add 126 11 W) (Proc.devRef .tc main_arg7)).trans ((Keep.keep_G2a (P W 126)).2.2.2.2.2.2.2.1)).trans (((congrFun (after_take_add 123 3 W) (Proc.devRef .tc main_arg7)).trans ((Keep.keep_G1 (P W 123)).2.2.2.2.2.2.2.1)).trans (((congrFun (after_take_add 116 7 W) (Proc.devRef .tc main_arg7)).trans ((Keep.keep_F (P W 116)).2.2.2.2.2.2.2.1)).trans (((congrFun (after_take_add 100 16 W) (Proc.devRef .tc main_arg7)).trans ((Keep.keep_E (P W 100)).2.2.2.2.2.2.2.1)).trans (((congrFun (after_take_add 81 19 W) (Proc.devRef .tc main_arg7)).trans ((Keep.keep_D2c (P W 81)).2.2.2.2.2.2.2.1)).trans (((congrFun (after_take_add 78 3 W) (Proc.devRef .tc main_arg7)).trans ((Keep.keep_D2b (P W 78)).2.2.2.2.2.2.2.1)).trans (((congrFun (after_take_add 67 11 W) (Proc.devRef .tc main_arg7)).trans ((Keep.keep_D2a (P W 67)).2.2.2.2.2.2.2.1)).trans (((congrFun (after_take_add 64 3 W) (Proc.devRef .tc main_arg7)).trans ((Keep.keep_D1 (P W 64)).2.2.2.2.2.2.2.1)).trans (((congrFun (after_take_add 57 7 W) (Proc.devRef .tc main_arg7)).trans ((Keep.keep_C (P W 57)).2.2.2.2.2.2.2.1)).trans (((congrFun (after_take_add 41 16 W) (Proc.devRef .tc main_arg7)).trans ((Keep.keep_B (P W 41)).2.2.2.2.2.2.2.1)).trans (((congrFun (after_take_add 22 19 W) (Proc.devRef .tc main_arg7)).trans ((Keep.keep_A2c (P W 22)).2.2.2.2.2.2.2.1)).trans (((congrFun (after_take_add 19 3 W) (Proc.devRef .tc main_arg7)).trans ((Keep.keep_A2b (P W 19)).2.2.2.2.2.2.2.1)).trans (((congrFun (after_take_add 8 11 W) (Proc.devRef .tc main_arg7)).trans ((Keep.keep_A2a (P W 8)).2.2.2.2.2.2.2.1)).trans (((congrFun (after_take_add 0 8 W) (Proc.devRef .tc main_arg7)).trans ((Keep.keep_A1 (P W 0)).2.2.2.2.2.2.2.1))))))))))))))))))))))))
theorem arg8_at207 : P W 207 (Proc.devRef .tc main_arg8) = W (Proc.devRef .tc main_arg8) :=
  ((congrFun (after_take_add 200 7 W) (Proc.devRef .tc main_arg8)).trans ((Keep.keep_I4c (P W 200)).2.2.2.2.2.2.2.2.1)).trans (((congrFun (after_take_add 197 3 W) (Proc.devRef .tc main_arg8)).trans ((Keep.keep_I4b (P W 197)).2.2.2.2.2.2.2.2.1)).trans (((congrFun (after_take_add 192 5 W) (Proc.devRef .tc main_arg8)).trans ((Keep.keep_I4a (P W 192)).2.2.2.2.2.2.2.2.1)).trans (((congrFun (after_take_add 188 4 W) (Proc.devRef .tc main_arg8)).trans ((Keep.keep_I3 (P W 188)).2.2.2.2.2.2.2.2.1)).trans (((congrFun (after_take_add 181 7 W) (Proc.devRef .tc main_arg8)).trans ((Keep.keep_I2 (P W 181)).2.2.2.2.2.2.2.2.1)).trans (((congrFun (after_take_add 175 6 W) (Proc.devRef .tc main_arg8)).trans ((Keep.keep_I1 (P W 175)).2.2.2.2.2.2.2.2.1)).trans (((congrFun (after_take_add 159 16 W) (Proc.devRef .tc main_arg8)).trans ((Keep.keep_H (P W 159)).2.2.2.2.2.2.2.2.1)).trans (((congrFun (after_take_add 140 19 W) (Proc.devRef .tc main_arg8)).trans ((Keep.keep_G2c (P W 140)).2.2.2.2.2.2.2.2.1)).trans (((congrFun (after_take_add 137 3 W) (Proc.devRef .tc main_arg8)).trans ((Keep.keep_G2b (P W 137)).2.2.2.2.2.2.2.2.1)).trans (((congrFun (after_take_add 126 11 W) (Proc.devRef .tc main_arg8)).trans ((Keep.keep_G2a (P W 126)).2.2.2.2.2.2.2.2.1)).trans (((congrFun (after_take_add 123 3 W) (Proc.devRef .tc main_arg8)).trans ((Keep.keep_G1 (P W 123)).2.2.2.2.2.2.2.2.1)).trans (((congrFun (after_take_add 116 7 W) (Proc.devRef .tc main_arg8)).trans ((Keep.keep_F (P W 116)).2.2.2.2.2.2.2.2.1)).trans (((congrFun (after_take_add 100 16 W) (Proc.devRef .tc main_arg8)).trans ((Keep.keep_E (P W 100)).2.2.2.2.2.2.2.2.1)).trans (((congrFun (after_take_add 81 19 W) (Proc.devRef .tc main_arg8)).trans ((Keep.keep_D2c (P W 81)).2.2.2.2.2.2.2.2.1)).trans (((congrFun (after_take_add 78 3 W) (Proc.devRef .tc main_arg8)).trans ((Keep.keep_D2b (P W 78)).2.2.2.2.2.2.2.2.1)).trans (((congrFun (after_take_add 67 11 W) (Proc.devRef .tc main_arg8)).trans ((Keep.keep_D2a (P W 67)).2.2.2.2.2.2.2.2.1)).trans (((congrFun (after_take_add 64 3 W) (Proc.devRef .tc main_arg8)).trans ((Keep.keep_D1 (P W 64)).2.2.2.2.2.2.2.2.1)).trans (((congrFun (after_take_add 57 7 W) (Proc.devRef .tc main_arg8)).trans ((Keep.keep_C (P W 57)).2.2.2.2.2.2.2.2.1)).trans (((congrFun (after_take_add 41 16 W) (Proc.devRef .tc main_arg8)).trans ((Keep.keep_B (P W 41)).2.2.2.2.2.2.2.2.1)).trans (((congrFun (after_take_add 22 19 W) (Proc.devRef .tc main_arg8)).trans ((Keep.keep_A2c (P W 22)).2.2.2.2.2.2.2.2.1)).trans (((congrFun (after_take_add 19 3 W) (Proc.devRef .tc main_arg8)).trans ((Keep.keep_A2b (P W 19)).2.2.2.2.2.2.2.2.1)).trans (((congrFun (after_take_add 8 11 W) (Proc.devRef .tc main_arg8)).trans ((Keep.keep_A2a (P W 8)).2.2.2.2.2.2.2.2.1)).trans (((congrFun (after_take_add 0 8 W) (Proc.devRef .tc main_arg8)).trans ((Keep.keep_A1 (P W 0)).2.2.2.2.2.2.2.2.1))))))))))))))))))))))))
theorem arg9_at207 : P W 207 (Proc.devRef .tc main_arg9) = W (Proc.devRef .tc main_arg9) :=
  ((congrFun (after_take_add 200 7 W) (Proc.devRef .tc main_arg9)).trans ((Keep.keep_I4c (P W 200)).2.2.2.2.2.2.2.2.2.1)).trans (((congrFun (after_take_add 197 3 W) (Proc.devRef .tc main_arg9)).trans ((Keep.keep_I4b (P W 197)).2.2.2.2.2.2.2.2.2.1)).trans (((congrFun (after_take_add 192 5 W) (Proc.devRef .tc main_arg9)).trans ((Keep.keep_I4a (P W 192)).2.2.2.2.2.2.2.2.2.1)).trans (((congrFun (after_take_add 188 4 W) (Proc.devRef .tc main_arg9)).trans ((Keep.keep_I3 (P W 188)).2.2.2.2.2.2.2.2.2.1)).trans (((congrFun (after_take_add 181 7 W) (Proc.devRef .tc main_arg9)).trans ((Keep.keep_I2 (P W 181)).2.2.2.2.2.2.2.2.2.1)).trans (((congrFun (after_take_add 175 6 W) (Proc.devRef .tc main_arg9)).trans ((Keep.keep_I1 (P W 175)).2.2.2.2.2.2.2.2.2.1)).trans (((congrFun (after_take_add 159 16 W) (Proc.devRef .tc main_arg9)).trans ((Keep.keep_H (P W 159)).2.2.2.2.2.2.2.2.2.1)).trans (((congrFun (after_take_add 140 19 W) (Proc.devRef .tc main_arg9)).trans ((Keep.keep_G2c (P W 140)).2.2.2.2.2.2.2.2.2.1)).trans (((congrFun (after_take_add 137 3 W) (Proc.devRef .tc main_arg9)).trans ((Keep.keep_G2b (P W 137)).2.2.2.2.2.2.2.2.2.1)).trans (((congrFun (after_take_add 126 11 W) (Proc.devRef .tc main_arg9)).trans ((Keep.keep_G2a (P W 126)).2.2.2.2.2.2.2.2.2.1)).trans (((congrFun (after_take_add 123 3 W) (Proc.devRef .tc main_arg9)).trans ((Keep.keep_G1 (P W 123)).2.2.2.2.2.2.2.2.2.1)).trans (((congrFun (after_take_add 116 7 W) (Proc.devRef .tc main_arg9)).trans ((Keep.keep_F (P W 116)).2.2.2.2.2.2.2.2.2.1)).trans (((congrFun (after_take_add 100 16 W) (Proc.devRef .tc main_arg9)).trans ((Keep.keep_E (P W 100)).2.2.2.2.2.2.2.2.2.1)).trans (((congrFun (after_take_add 81 19 W) (Proc.devRef .tc main_arg9)).trans ((Keep.keep_D2c (P W 81)).2.2.2.2.2.2.2.2.2.1)).trans (((congrFun (after_take_add 78 3 W) (Proc.devRef .tc main_arg9)).trans ((Keep.keep_D2b (P W 78)).2.2.2.2.2.2.2.2.2.1)).trans (((congrFun (after_take_add 67 11 W) (Proc.devRef .tc main_arg9)).trans ((Keep.keep_D2a (P W 67)).2.2.2.2.2.2.2.2.2.1)).trans (((congrFun (after_take_add 64 3 W) (Proc.devRef .tc main_arg9)).trans ((Keep.keep_D1 (P W 64)).2.2.2.2.2.2.2.2.2.1)).trans (((congrFun (after_take_add 57 7 W) (Proc.devRef .tc main_arg9)).trans ((Keep.keep_C (P W 57)).2.2.2.2.2.2.2.2.2.1)).trans (((congrFun (after_take_add 41 16 W) (Proc.devRef .tc main_arg9)).trans ((Keep.keep_B (P W 41)).2.2.2.2.2.2.2.2.2.1)).trans (((congrFun (after_take_add 22 19 W) (Proc.devRef .tc main_arg9)).trans ((Keep.keep_A2c (P W 22)).2.2.2.2.2.2.2.2.2.1)).trans (((congrFun (after_take_add 19 3 W) (Proc.devRef .tc main_arg9)).trans ((Keep.keep_A2b (P W 19)).2.2.2.2.2.2.2.2.2.1)).trans (((congrFun (after_take_add 8 11 W) (Proc.devRef .tc main_arg9)).trans ((Keep.keep_A2a (P W 8)).2.2.2.2.2.2.2.2.2.1)).trans (((congrFun (after_take_add 0 8 W) (Proc.devRef .tc main_arg9)).trans ((Keep.keep_A1 (P W 0)).2.2.2.2.2.2.2.2.2.1))))))))))))))))))))))))
theorem arg10_at207 : P W 207 (Proc.devRef .tc main_arg10) = W (Proc.devRef .tc main_arg10) :=
  ((congrFun (after_take_add 200 7 W) (Proc.devRef .tc main_arg10)).trans ((Keep.keep_I4c (P W 200)).2.2.2.2.2.2.2.2.2.2.1)).trans (((congrFun (after_take_add 197 3 W) (Proc.devRef .tc main_arg10)).trans ((Keep.keep_I4b (P W 197)).2.2.2.2.2.2.2.2.2.2.1)).trans (((congrFun (after_take_add 192 5 W) (Proc.devRef .tc main_arg10)).trans ((Keep.keep_I4a (P W 192)).2.2.2.2.2.2.2.2.2.2.1)).trans (((congrFun (after_take_add 188 4 W) (Proc.devRef .tc main_arg10)).trans ((Keep.keep_I3 (P W 188)).2.2.2.2.2.2.2.2.2.2.1)).trans (((congrFun (after_take_add 181 7 W) (Proc.devRef .tc main_arg10)).trans ((Keep.keep_I2 (P W 181)).2.2.2.2.2.2.2.2.2.2.1)).trans (((congrFun (after_take_add 175 6 W) (Proc.devRef .tc main_arg10)).trans ((Keep.keep_I1 (P W 175)).2.2.2.2.2.2.2.2.2.2.1)).trans (((congrFun (after_take_add 159 16 W) (Proc.devRef .tc main_arg10)).trans ((Keep.keep_H (P W 159)).2.2.2.2.2.2.2.2.2.2.1)).trans (((congrFun (after_take_add 140 19 W) (Proc.devRef .tc main_arg10)).trans ((Keep.keep_G2c (P W 140)).2.2.2.2.2.2.2.2.2.2.1)).trans (((congrFun (after_take_add 137 3 W) (Proc.devRef .tc main_arg10)).trans ((Keep.keep_G2b (P W 137)).2.2.2.2.2.2.2.2.2.2.1)).trans (((congrFun (after_take_add 126 11 W) (Proc.devRef .tc main_arg10)).trans ((Keep.keep_G2a (P W 126)).2.2.2.2.2.2.2.2.2.2.1)).trans (((congrFun (after_take_add 123 3 W) (Proc.devRef .tc main_arg10)).trans ((Keep.keep_G1 (P W 123)).2.2.2.2.2.2.2.2.2.2.1)).trans (((congrFun (after_take_add 116 7 W) (Proc.devRef .tc main_arg10)).trans ((Keep.keep_F (P W 116)).2.2.2.2.2.2.2.2.2.2.1)).trans (((congrFun (after_take_add 100 16 W) (Proc.devRef .tc main_arg10)).trans ((Keep.keep_E (P W 100)).2.2.2.2.2.2.2.2.2.2.1)).trans (((congrFun (after_take_add 81 19 W) (Proc.devRef .tc main_arg10)).trans ((Keep.keep_D2c (P W 81)).2.2.2.2.2.2.2.2.2.2.1)).trans (((congrFun (after_take_add 78 3 W) (Proc.devRef .tc main_arg10)).trans ((Keep.keep_D2b (P W 78)).2.2.2.2.2.2.2.2.2.2.1)).trans (((congrFun (after_take_add 67 11 W) (Proc.devRef .tc main_arg10)).trans ((Keep.keep_D2a (P W 67)).2.2.2.2.2.2.2.2.2.2.1)).trans (((congrFun (after_take_add 64 3 W) (Proc.devRef .tc main_arg10)).trans ((Keep.keep_D1 (P W 64)).2.2.2.2.2.2.2.2.2.2.1)).trans (((congrFun (after_take_add 57 7 W) (Proc.devRef .tc main_arg10)).trans ((Keep.keep_C (P W 57)).2.2.2.2.2.2.2.2.2.2.1)).trans (((congrFun (after_take_add 41 16 W) (Proc.devRef .tc main_arg10)).trans ((Keep.keep_B (P W 41)).2.2.2.2.2.2.2.2.2.2.1)).trans (((congrFun (after_take_add 22 19 W) (Proc.devRef .tc main_arg10)).trans ((Keep.keep_A2c (P W 22)).2.2.2.2.2.2.2.2.2.2.1)).trans (((congrFun (after_take_add 19 3 W) (Proc.devRef .tc main_arg10)).trans ((Keep.keep_A2b (P W 19)).2.2.2.2.2.2.2.2.2.2.1)).trans (((congrFun (after_take_add 8 11 W) (Proc.devRef .tc main_arg10)).trans ((Keep.keep_A2a (P W 8)).2.2.2.2.2.2.2.2.2.2.1)).trans (((congrFun (after_take_add 0 8 W) (Proc.devRef .tc main_arg10)).trans ((Keep.keep_A1 (P W 0)).2.2.2.2.2.2.2.2.2.2.1))))))))))))))))))))))))
theorem arg11_at207 : P W 207 (Proc.devRef .tc main_arg11) = W (Proc.devRef .tc main_arg11) :=
  ((congrFun (after_take_add 200 7 W) (Proc.devRef .tc main_arg11)).trans ((Keep.keep_I4c (P W 200)).2.2.2.2.2.2.2.2.2.2.2.1)).trans (((congrFun (after_take_add 197 3 W) (Proc.devRef .tc main_arg11)).trans ((Keep.keep_I4b (P W 197)).2.2.2.2.2.2.2.2.2.2.2.1)).trans (((congrFun (after_take_add 192 5 W) (Proc.devRef .tc main_arg11)).trans ((Keep.keep_I4a (P W 192)).2.2.2.2.2.2.2.2.2.2.2.1)).trans (((congrFun (after_take_add 188 4 W) (Proc.devRef .tc main_arg11)).trans ((Keep.keep_I3 (P W 188)).2.2.2.2.2.2.2.2.2.2.2.1)).trans (((congrFun (after_take_add 181 7 W) (Proc.devRef .tc main_arg11)).trans ((Keep.keep_I2 (P W 181)).2.2.2.2.2.2.2.2.2.2.2.1)).trans (((congrFun (after_take_add 175 6 W) (Proc.devRef .tc main_arg11)).trans ((Keep.keep_I1 (P W 175)).2.2.2.2.2.2.2.2.2.2.2.1)).trans (((congrFun (after_take_add 159 16 W) (Proc.devRef .tc main_arg11)).trans ((Keep.keep_H (P W 159)).2.2.2.2.2.2.2.2.2.2.2.1)).trans (((congrFun (after_take_add 140 19 W) (Proc.devRef .tc main_arg11)).trans ((Keep.keep_G2c (P W 140)).2.2.2.2.2.2.2.2.2.2.2.1)).trans (((congrFun (after_take_add 137 3 W) (Proc.devRef .tc main_arg11)).trans ((Keep.keep_G2b (P W 137)).2.2.2.2.2.2.2.2.2.2.2.1)).trans (((congrFun (after_take_add 126 11 W) (Proc.devRef .tc main_arg11)).trans ((Keep.keep_G2a (P W 126)).2.2.2.2.2.2.2.2.2.2.2.1)).trans (((congrFun (after_take_add 123 3 W) (Proc.devRef .tc main_arg11)).trans ((Keep.keep_G1 (P W 123)).2.2.2.2.2.2.2.2.2.2.2.1)).trans (((congrFun (after_take_add 116 7 W) (Proc.devRef .tc main_arg11)).trans ((Keep.keep_F (P W 116)).2.2.2.2.2.2.2.2.2.2.2.1)).trans (((congrFun (after_take_add 100 16 W) (Proc.devRef .tc main_arg11)).trans ((Keep.keep_E (P W 100)).2.2.2.2.2.2.2.2.2.2.2.1)).trans (((congrFun (after_take_add 81 19 W) (Proc.devRef .tc main_arg11)).trans ((Keep.keep_D2c (P W 81)).2.2.2.2.2.2.2.2.2.2.2.1)).trans (((congrFun (after_take_add 78 3 W) (Proc.devRef .tc main_arg11)).trans ((Keep.keep_D2b (P W 78)).2.2.2.2.2.2.2.2.2.2.2.1)).trans (((congrFun (after_take_add 67 11 W) (Proc.devRef .tc main_arg11)).trans ((Keep.keep_D2a (P W 67)).2.2.2.2.2.2.2.2.2.2.2.1)).trans (((congrFun (after_take_add 64 3 W) (Proc.devRef .tc main_arg11)).trans ((Keep.keep_D1 (P W 64)).2.2.2.2.2.2.2.2.2.2.2.1)).trans (((congrFun (after_take_add 57 7 W) (Proc.devRef .tc main_arg11)).trans ((Keep.keep_C (P W 57)).2.2.2.2.2.2.2.2.2.2.2.1)).trans (((congrFun (after_take_add 41 16 W) (Proc.devRef .tc main_arg11)).trans ((Keep.keep_B (P W 41)).2.2.2.2.2.2.2.2.2.2.2.1)).trans (((congrFun (after_take_add 22 19 W) (Proc.devRef .tc main_arg11)).trans ((Keep.keep_A2c (P W 22)).2.2.2.2.2.2.2.2.2.2.2.1)).trans (((congrFun (after_take_add 19 3 W) (Proc.devRef .tc main_arg11)).trans ((Keep.keep_A2b (P W 19)).2.2.2.2.2.2.2.2.2.2.2.1)).trans (((congrFun (after_take_add 8 11 W) (Proc.devRef .tc main_arg11)).trans ((Keep.keep_A2a (P W 8)).2.2.2.2.2.2.2.2.2.2.2.1)).trans (((congrFun (after_take_add 0 8 W) (Proc.devRef .tc main_arg11)).trans ((Keep.keep_A1 (P W 0)).2.2.2.2.2.2.2.2.2.2.2.1))))))))))))))))))))))))
theorem arg12_at207 : P W 207 (Proc.devRef .tc main_arg12) = W (Proc.devRef .tc main_arg12) :=
  ((congrFun (after_take_add 200 7 W) (Proc.devRef .tc main_arg12)).trans ((Keep.keep_I4c (P W 200)).2.2.2.2.2.2.2.2.2.2.2.2)).trans (((congrFun (after_take_add 197 3 W) (Proc.devRef .tc main_arg12)).trans ((Keep.keep_I4b (P W 197)).2.2.2.2.2.2.2.2.2.2.2.2)).trans (((congrFun (after_take_add 192 5 W) (Proc.devRef .tc main_arg12)).trans ((Keep.keep_I4a (P W 192)).2.2.2.2.2.2.2.2.2.2.2.2.1)).trans (((congrFun (after_take_add 188 4 W) (Proc.devRef .tc main_arg12)).trans ((Keep.keep_I3 (P W 188)).2.2.2.2.2.2.2.2.2.2.2.2)).trans (((congrFun (after_take_add 181 7 W) (Proc.devRef .tc main_arg12)).trans ((Keep.keep_I2 (P W 181)).2.2.2.2.2.2.2.2.2.2.2.2)).trans (((congrFun (after_take_add 175 6 W) (Proc.devRef .tc main_arg12)).trans ((Keep.keep_I1 (P W 175)).2.2.2.2.2.2.2.2.2.2.2.2)).trans (((congrFun (after_take_add 159 16 W) (Proc.devRef .tc main_arg12)).trans ((Keep.keep_H (P W 159)).2.2.2.2.2.2.2.2.2.2.2.2)).trans (((congrFun (after_take_add 140 19 W) (Proc.devRef .tc main_arg12)).trans ((Keep.keep_G2c (P W 140)).2.2.2.2.2.2.2.2.2.2.2.2.1)).trans (((congrFun (after_take_add 137 3 W) (Proc.devRef .tc main_arg12)).trans ((Keep.keep_G2b (P W 137)).2.2.2.2.2.2.2.2.2.2.2.2.1)).trans (((congrFun (after_take_add 126 11 W) (Proc.devRef .tc main_arg12)).trans ((Keep.keep_G2a (P W 126)).2.2.2.2.2.2.2.2.2.2.2.2.1)).trans (((congrFun (after_take_add 123 3 W) (Proc.devRef .tc main_arg12)).trans ((Keep.keep_G1 (P W 123)).2.2.2.2.2.2.2.2.2.2.2.2.1)).trans (((congrFun (after_take_add 116 7 W) (Proc.devRef .tc main_arg12)).trans ((Keep.keep_F (P W 116)).2.2.2.2.2.2.2.2.2.2.2.2.1)).trans (((congrFun (after_take_add 100 16 W) (Proc.devRef .tc main_arg12)).trans ((Keep.keep_E (P W 100)).2.2.2.2.2.2.2.2.2.2.2.2.1)).trans (((congrFun (after_take_add 81 19 W) (Proc.devRef .tc main_arg12)).trans ((Keep.keep_D2c (P W 81)).2.2.2.2.2.2.2.2.2.2.2.2.1)).trans (((congrFun (after_take_add 78 3 W) (Proc.devRef .tc main_arg12)).trans ((Keep.keep_D2b (P W 78)).2.2.2.2.2.2.2.2.2.2.2.2.1)).trans (((congrFun (after_take_add 67 11 W) (Proc.devRef .tc main_arg12)).trans ((Keep.keep_D2a (P W 67)).2.2.2.2.2.2.2.2.2.2.2.2.1)).trans (((congrFun (after_take_add 64 3 W) (Proc.devRef .tc main_arg12)).trans ((Keep.keep_D1 (P W 64)).2.2.2.2.2.2.2.2.2.2.2.2.1)).trans (((congrFun (after_take_add 57 7 W) (Proc.devRef .tc main_arg12)).trans ((Keep.keep_C (P W 57)).2.2.2.2.2.2.2.2.2.2.2.2.1)).trans (((congrFun (after_take_add 41 16 W) (Proc.devRef .tc main_arg12)).trans ((Keep.keep_B (P W 41)).2.2.2.2.2.2.2.2.2.2.2.2.1)).trans (((congrFun (after_take_add 22 19 W) (Proc.devRef .tc main_arg12)).trans ((Keep.keep_A2c (P W 22)).2.2.2.2.2.2.2.2.2.2.2.2.1)).trans (((congrFun (after_take_add 19 3 W) (Proc.devRef .tc main_arg12)).trans ((Keep.keep_A2b (P W 19)).2.2.2.2.2.2.2.2.2.2.2.2.1)).trans (((congrFun (after_take_add 8 11 W) (Proc.devRef .tc main_arg12)).trans ((Keep.keep_A2a (P W 8)).2.2.2.2.2.2.2.2.2.2.2.2.1)).trans (((congrFun (after_take_add 0 8 W) (Proc.devRef .tc main_arg12)).trans ((Keep.keep_A1 (P W 0)).2.2.2.2.2.2.2.2.2.2.2.2))))))))))))))))))))))))

theorem kept_arg0 : after opsI W (Proc.devRef .tc main_arg0) = W (Proc.devRef .tc main_arg0) :=
  (congrFun (after_take_all W) _).symm.trans (arg0_at207 W)
theorem kept_arg1 : after opsI W (Proc.devRef .tc main_arg1) = W (Proc.devRef .tc main_arg1) :=
  (congrFun (after_take_all W) _).symm.trans (arg1_at207 W)
theorem kept_arg2 : after opsI W (Proc.devRef .tc main_arg2) = W (Proc.devRef .tc main_arg2) :=
  (congrFun (after_take_all W) _).symm.trans (arg2_at207 W)
theorem kept_arg3 : after opsI W (Proc.devRef .tc main_arg3) = W (Proc.devRef .tc main_arg3) :=
  (congrFun (after_take_all W) _).symm.trans (arg3_at207 W)
theorem kept_arg4 : after opsI W (Proc.devRef .tc main_arg4) = W (Proc.devRef .tc main_arg4) :=
  (congrFun (after_take_all W) _).symm.trans (arg4_at207 W)
theorem kept_arg5 : after opsI W (Proc.devRef .tc main_arg5) = W (Proc.devRef .tc main_arg5) :=
  (congrFun (after_take_all W) _).symm.trans (arg5_at207 W)
theorem kept_arg6 : after opsI W (Proc.devRef .tc main_arg6) = W (Proc.devRef .tc main_arg6) :=
  (congrFun (after_take_all W) _).symm.trans (arg6_at207 W)
theorem kept_arg7 : after opsI W (Proc.devRef .tc main_arg7) = W (Proc.devRef .tc main_arg7) :=
  (congrFun (after_take_all W) _).symm.trans (arg7_at207 W)
theorem kept_arg8 : after opsI W (Proc.devRef .tc main_arg8) = W (Proc.devRef .tc main_arg8) :=
  (congrFun (after_take_all W) _).symm.trans (arg8_at207 W)
theorem kept_arg9 : after opsI W (Proc.devRef .tc main_arg9) = W (Proc.devRef .tc main_arg9) :=
  (congrFun (after_take_all W) _).symm.trans (arg9_at207 W)
theorem kept_arg10 : after opsI W (Proc.devRef .tc main_arg10) = W (Proc.devRef .tc main_arg10) :=
  (congrFun (after_take_all W) _).symm.trans (arg10_at207 W)
theorem kept_arg11 : after opsI W (Proc.devRef .tc main_arg11) = W (Proc.devRef .tc main_arg11) :=
  (congrFun (after_take_all W) _).symm.trans (arg11_at207 W)
theorem kept_arg12 : after opsI W (Proc.devRef .tc main_arg12) = W (Proc.devRef .tc main_arg12) :=
  (congrFun (after_take_all W) _).symm.trans (arg12_at207 W)

/-! ## The values, piece by piece -/

theorem src0_at8 : (P W 8 (Proc.devRef .tc main_v1) : EdgeIdx0) = val_main_v1 (F := Ideal) (W (Proc.devRef .tc main_arg1)) :=
  (congrFun (after_take_add 0 8 W) (Proc.devRef .tc main_v1)).trans (Vals.src0 (P W 0))
theorem dst0_at8 : (P W 8 (Proc.devRef .tc main_v3) : EdgeIdx0) = val_main_v3 (F := Ideal) (W (Proc.devRef .tc main_arg1)) :=
  (congrFun (after_take_add 0 8 W) (Proc.devRef .tc main_v3)).trans (Vals.dst0 (P W 0))
theorem dense0_at8 : (P W 8 (Proc.devRef .tc main_v4) : Mat) = val_main_v4 (F := Ideal) (W (Proc.devRef .tc main_arg0)) (W (Proc.devRef .tc main_arg3)) :=
  (congrFun (after_take_add 0 8 W) (Proc.devRef .tc main_v4)).trans (Vals.dense0 (P W 0))
theorem src1_at8 : (P W 8 (Proc.devRef .tc main_v6) : EdgeIdx) = val_main_v6 (F := Ideal) (W (Proc.devRef .tc main_arg1)) :=
  (congrFun (after_take_add 0 8 W) (Proc.devRef .tc main_v6)).trans (Vals.src1 (P W 0))
theorem dst1_at8 : (P W 8 (Proc.devRef .tc main_v7) : EdgeIdx) = val_main_v7 (F := Ideal) (W (Proc.devRef .tc main_arg1)) :=
  (congrFun (after_take_add 0 8 W) (Proc.devRef .tc main_v7)).trans (Vals.dst1 (P W 0))

theorem pos1_at19 : (P W 19 (Proc.devRef .tc main_v13) : (⟨S100000, .i1⟩ : BufTy).Contents (Elt Ideal)) = val_main_v13 (F := Ideal) (W (Proc.devRef .tc main_arg1)) :=
  (congrFun (after_take_add 8 11 W) (Proc.devRef .tc main_v13)).trans (Vals.pos1 (P W 8) _ (dst1_at8 W))
theorem rsqrt1_at19 : (P W 19 (Proc.devRef .tc main_v14) : (⟨S100000, .f32⟩ : BufTy).Contents (Elt Ideal)) = val_main_v14 (F := Ideal) (W (Proc.devRef .tc main_arg1)) :=
  (congrFun (after_take_add 8 11 W) (Proc.devRef .tc main_v14)).trans (Vals.rsqrt1 (P W 8) _ (dst1_at8 W))
theorem zero1_at19 : (P W 19 (Proc.devRef .tc main_cst_2) : (⟨S_, .f32⟩ : BufTy).Contents (Elt Ideal)) = val_main_cst_2 (F := Ideal) :=
  (congrFun (after_take_add 8 11 W) (Proc.devRef .tc main_cst_2)).trans (Vals.zero1 (P W 8))
theorem dinv1_at22 : (P W 22 (Proc.devRef .tc main_v15) : (⟨S100000, .f32⟩ : BufTy).Contents (Elt Ideal)) = val_main_v15 (F := Ideal) (W (Proc.devRef .tc main_arg1)) :=
  (congrFun (after_take_add 19 3 W) (Proc.devRef .tc main_v15)).trans (Vals.dinv1 (P W 19) _ (pos1_at19 W) (rsqrt1_at19 W) (zero1_at19 W))
theorem wgt1_at41 : (P W 41 (Proc.devRef .tc main_v30) : EdgeW) = val_main_v30 (F := Ideal) (W (Proc.devRef .tc main_arg1)) :=
  (congrFun (after_take_add 22 19 W) (Proc.devRef .tc main_v30)).trans (Vals.wgt1 (P W 22) _ (dinv1_at22 W)
    ((((congrFun (after_take_add 19 3 W) (Proc.devRef .tc main_v6)).trans ((Keep.keep_A2b (P W 19)).2.2.2.2.2.2.2.2.2.2.2.2.2.2.2.2.1)).trans (((congrFun (after_take_add 8 11 W) (Proc.devRef .tc main_v6)).trans ((Keep.keep_A2a (P W 8)).2.2.2.2.2.2.2.2.2.2.2.2.2.2.2.2.1)))).trans (src1_at8 W))
    ((((congrFun (after_take_add 19 3 W) (Proc.devRef .tc main_v7)).trans ((Keep.keep_A2b (P W 19)).2.2.2.2.2.2.2.2.2.2.2.2.2.2.2.2.2)).trans (((congrFun (after_take_add 8 11 W) (Proc.devRef .tc main_v7)).trans ((Keep.keep_A2a (P W 8)).2.2.2.2.2.2.2.2.2.2.2.2.2.2.2.2.2)))).trans (dst1_at8 W)))

theorem dense0_at41 : (P W 41 (Proc.devRef .tc main_v4) : Mat) = val_main_v4 (F := Ideal) (W (Proc.devRef .tc main_arg0)) (W (Proc.devRef .tc main_arg3)) :=
  (((congrFun (after_take_add 22 19 W) (Proc.devRef .tc main_v4)).trans ((Keep.keep_A2c (P W 22)).2.2.2.2.2.2.2.2.2.2.2.2.2.2.2.1)).trans (((congrFun (after_take_add 19 3 W) (Proc.devRef .tc main_v4)).trans ((Keep.keep_A2b (P W 19)).2.2.2.2.2.2.2.2.2.2.2.2.2.2.2.1)).trans (((congrFun (after_take_add 8 11 W) (Proc.devRef .tc main_v4)).trans ((Keep.keep_A2a (P W 8)).2.2.2.2.2.2.2.2.2.2.2.2.2.2.2.1))))).trans (dense0_at8 W)
theorem src1_at41 : (P W 41 (Proc.devRef .tc main_v6) : EdgeIdx) = val_main_v6 (F := Ideal) (W (Proc.devRef .tc main_arg1)) :=
  (((congrFun (after_take_add 22 19 W) (Proc.devRef .tc main_v6)).trans ((Keep.keep_A2c (P W 22)).2.2.2.2.2.2.2.2.2.2.2.2.2.2.2.2.1)).trans (((congrFun (after_take_add 19 3 W) (Proc.devRef .tc main_v6)).trans ((Keep.keep_A2b (P W 19)).2.2.2.2.2.2.2.2.2.2.2.2.2.2.2.2.1)).trans (((congrFun (after_take_add 8 11 W) (Proc.devRef .tc main_v6)).trans ((Keep.keep_A2a (P W 8)).2.2.2.2.2.2.2.2.2.2.2.2.2.2.2.2.1))))).trans (src1_at8 W)
theorem dst1_at41 : (P W 41 (Proc.devRef .tc main_v7) : EdgeIdx) = val_main_v7 (F := Ideal) (W (Proc.devRef .tc main_arg1)) :=
  (((congrFun (after_take_add 22 19 W) (Proc.devRef .tc main_v7)).trans ((Keep.keep_A2c (P W 22)).2.2.2.2.2.2.2.2.2.2.2.2.2.2.2.2.2)).trans (((congrFun (after_take_add 19 3 W) (Proc.devRef .tc main_v7)).trans ((Keep.keep_A2b (P W 19)).2.2.2.2.2.2.2.2.2.2.2.2.2.2.2.2.2)).trans (((congrFun (after_take_add 8 11 W) (Proc.devRef .tc main_v7)).trans ((Keep.keep_A2a (P W 8)).2.2.2.2.2.2.2.2.2.2.2.2.2.2.2.2.2))))).trans (dst1_at8 W)

theorem agg1_at57 : (P W 57 (Proc.devRef .tc main_v43) : Mat) = val_main_v43 (F := Ideal) (W (Proc.devRef .tc main_arg0)) (W (Proc.devRef .tc main_arg1)) (W (Proc.devRef .tc main_arg3)) := by
  refine ((congrFun (after_take_add 41 16 W) (Proc.devRef .tc main_v43)).trans (Vals.agg1 (P W 41))).trans ?_
  rw [dense0_at41 W, src1_at41 W, dst1_at41 W, wgt1_at41 W]
  exact (Cert.ReferenceIdeal.Agg.v43_eq _ _ _).symm

theorem dense1_at64 : (P W 64 (Proc.devRef .tc main_v48) : Mat) = val_main_v48 (F := Ideal) (W (Proc.devRef .tc main_arg0)) (W (Proc.devRef .tc main_arg1)) (W (Proc.devRef .tc main_arg3)) (W (Proc.devRef .tc main_arg4)) (W (Proc.devRef .tc main_arg5)) := by
  refine ((congrFun (after_take_add 57 7 W) (Proc.devRef .tc main_v48)).trans (Vals.dense1 (P W 57) _ _ _ (agg1_at57 W))).trans ?_
  rw [arg4_at57 W, arg5_at57 W]

theorem src0_at64 : (P W 64 (Proc.devRef .tc main_v1) : EdgeIdx0) = val_main_v1 (F := Ideal) (W (Proc.devRef .tc main_arg1)) :=
  (((congrFun (after_take_add 57 7 W) (Proc.devRef .tc main_v1)).trans ((Keep.keep_C (P W 57)).2.2.2.2.2.2.2.2.2.2.2.2.2.1)).trans (((congrFun (after_take_add 41 16 W) (Proc.devRef .tc main_v1)).trans ((Keep.keep_B (P W 41)).2.2.2.2.2.2.2.2.2.2.2.2.2.1)).trans (((congrFun (after_take_add 22 19 W) (Proc.devRef .tc main_v1)).trans ((Keep.keep_A2c (P W 22)).2.2.2.2.2.2.2.2.2.2.2.2.2.1)).trans (((congrFun (after_take_add 19 3 W) (Proc.devRef .tc main_v1)).trans ((Keep.keep_A2b (P W 19)).2.2.2.2.2.2.2.2.2.2.2.2.2.1)).trans (((congrFun (after_take_add 8 11 W) (Proc.devRef .tc main_v1)).trans ((Keep.keep_A2a (P W 8)).2.2.2.2.2.2.2.2.2.2.2.2.2.1))))))).trans (src0_at8 W)
theorem dst0_at64 : (P W 64 (Proc.devRef .tc main_v3) : EdgeIdx0) = val_main_v3 (F := Ideal) (W (Proc.devRef .tc main_arg1)) :=
  (((congrFun (after_take_add 57 7 W) (Proc.devRef .tc main_v3)).trans ((Keep.keep_C (P W 57)).2.2.2.2.2.2.2.2.2.2.2.2.2.2)).trans (((congrFun (after_take_add 41 16 W) (Proc.devRef .tc main_v3)).trans ((Keep.keep_B (P W 41)).2.2.2.2.2.2.2.2.2.2.2.2.2.2)).trans (((congrFun (after_take_add 22 19 W) (Proc.devRef .tc main_v3)).trans ((Keep.keep_A2c (P W 22)).2.2.2.2.2.2.2.2.2.2.2.2.2.2.1)).trans (((congrFun (after_take_add 19 3 W) (Proc.devRef .tc main_v3)).trans ((Keep.keep_A2b (P W 19)).2.2.2.2.2.2.2.2.2.2.2.2.2.2.1)).trans (((congrFun (after_take_add 8 11 W) (Proc.devRef .tc main_v3)).trans ((Keep.keep_A2a (P W 8)).2.2.2.2.2.2.2.2.2.2.2.2.2.2.1))))))).trans (dst0_at8 W)

theorem src2_at67 : (P W 67 (Proc.devRef .tc main_v50) : EdgeIdx) = val_main_v50 (F := Ideal) (W (Proc.devRef .tc main_arg1)) :=
  (congrFun (after_take_add 64 3 W) (Proc.devRef .tc main_v50)).trans (Vals.src2 (P W 64) _ (src0_at64 W))
theorem dst2_at67 : (P W 67 (Proc.devRef .tc main_v51) : EdgeIdx) = val_main_v51 (F := Ideal) (W (Proc.devRef .tc main_arg1)) :=
  (congrFun (after_take_add 64 3 W) (Proc.devRef .tc main_v51)).trans (Vals.dst2 (P W 64) _ (dst0_at64 W))

theorem pos2_at78 : (P W 78 (Proc.devRef .tc main_v57) : (⟨S100000, .i1⟩ : BufTy).Contents (Elt Ideal)) = val_main_v57 (F := Ideal) (W (Proc.devRef .tc main_arg1)) :=
  (congrFun (after_take_add 67 11 W) (Proc.devRef .tc main_v57)).trans (Vals.pos2 (P W 67) _ (dst2_at67 W))
theorem rsqrt2_at78 : (P W 78 (Proc.devRef .tc main_v58) : (⟨S100000, .f32⟩ : BufTy).Contents (Elt Ideal)) = val_main_v58 (F := Ideal) (W (Proc.devRef .tc main_arg1)) :=
  (congrFun (after_take_add 67 11 W) (Proc.devRef .tc main_v58)).trans (Vals.rsqrt2 (P W 67) _ (dst2_at67 W))
theorem zero2_at78 : (P W 78 (Proc.devRef .tc main_cst_12) : (⟨S_, .f32⟩ : BufTy).Contents (Elt Ideal)) = val_main_cst_12 (F := Ideal) :=
  (congrFun (after_take_add 67 11 W) (Proc.devRef .tc main_cst_12)).trans (Vals.zero2 (P W 67))
theorem dinv2_at81 : (P W 81 (Proc.devRef .tc main_v59) : (⟨S100000, .f32⟩ : BufTy).Contents (Elt Ideal)) = val_main_v59 (F := Ideal) (W (Proc.devRef .tc main_arg1)) :=
  (congrFun (after_take_add 78 3 W) (Proc.devRef .tc main_v59)).trans (Vals.dinv2 (P W 78) _ (pos2_at78 W) (rsqrt2_at78 W) (zero2_at78 W))
theorem wgt2_at100 : (P W 100 (Proc.devRef .tc main_v74) : EdgeW) = val_main_v74 (F := Ideal) (W (Proc.devRef .tc main_arg1)) :=
  (congrFun (after_take_add 81 19 W) (Proc.devRef .tc main_v74)).trans (Vals.wgt2 (P W 81) _ (dinv2_at81 W)
    ((((congrFun (after_take_add 78 3 W) (Proc.devRef .tc main_v50)).trans ((Keep.keep_D2b (P W 78)).2.2.2.2.2.2.2.2.2.2.2.2.2.2.2.2.1)).trans (((congrFun (after_take_add 67 11 W) (Proc.devRef .tc main_v50)).trans ((Keep.keep_D2a (P W 67)).2.2.2.2.2.2.2.2.2.2.2.2.2.2.2.2.1)))).trans (src2_at67 W))
    ((((congrFun (after_take_add 78 3 W) (Proc.devRef .tc main_v51)).trans ((Keep.keep_D2b (P W 78)).2.2.2.2.2.2.2.2.2.2.2.2.2.2.2.2.2)).trans (((congrFun (after_take_add 67 11 W) (Proc.devRef .tc main_v51)).trans ((Keep.keep_D2a (P W 67)).2.2.2.2.2.2.2.2.2.2.2.2.2.2.2.2.2)))).trans (dst2_at67 W)))

theorem dense1_at100 : (P W 100 (Proc.devRef .tc main_v48) : Mat) = val_main_v48 (F := Ideal) (W (Proc.devRef .tc main_arg0)) (W (Proc.devRef .tc main_arg1)) (W (Proc.devRef .tc main_arg3)) (W (Proc.devRef .tc main_arg4)) (W (Proc.devRef .tc main_arg5)) :=
  (((congrFun (after_take_add 81 19 W) (Proc.devRef .tc main_v48)).trans ((Keep.keep_D2c (P W 81)).2.2.2.2.2.2.2.2.2.2.2.2.2.2.2.1)).trans (((congrFun (after_take_add 78 3 W) (Proc.devRef .tc main_v48)).trans ((Keep.keep_D2b (P W 78)).2.2.2.2.2.2.2.2.2.2.2.2.2.2.2.1)).trans (((congrFun (after_take_add 67 11 W) (Proc.devRef .tc main_v48)).trans ((Keep.keep_D2a (P W 67)).2.2.2.2.2.2.2.2.2.2.2.2.2.2.2.1)).trans (((congrFun (after_take_add 64 3 W) (Proc.devRef .tc main_v48)).trans ((Keep.keep_D1 (P W 64)).2.2.2.2.2.2.2.2.2.2.2.2.2.2.2)))))).trans (dense1_at64 W)
theorem src2_at100 : (P W 100 (Proc.devRef .tc main_v50) : EdgeIdx) = val_main_v50 (F := Ideal) (W (Proc.devRef .tc main_arg1)) :=
  (((congrFun (after_take_add 81 19 W) (Proc.devRef .tc main_v50)).trans ((Keep.keep_D2c (P W 81)).2.2.2.2.2.2.2.2.2.2.2.2.2.2.2.2.1)).trans (((congrFun (after_take_add 78 3 W) (Proc.devRef .tc main_v50)).trans ((Keep.keep_D2b (P W 78)).2.2.2.2.2.2.2.2.2.2.2.2.2.2.2.2.1)).trans (((congrFun (after_take_add 67 11 W) (Proc.devRef .tc main_v50)).trans ((Keep.keep_D2a (P W 67)).2.2.2.2.2.2.2.2.2.2.2.2.2.2.2.2.1))))).trans (src2_at67 W)
theorem dst2_at100 : (P W 100 (Proc.devRef .tc main_v51) : EdgeIdx) = val_main_v51 (F := Ideal) (W (Proc.devRef .tc main_arg1)) :=
  (((congrFun (after_take_add 81 19 W) (Proc.devRef .tc main_v51)).trans ((Keep.keep_D2c (P W 81)).2.2.2.2.2.2.2.2.2.2.2.2.2.2.2.2.2)).trans (((congrFun (after_take_add 78 3 W) (Proc.devRef .tc main_v51)).trans ((Keep.keep_D2b (P W 78)).2.2.2.2.2.2.2.2.2.2.2.2.2.2.2.2.2)).trans (((congrFun (after_take_add 67 11 W) (Proc.devRef .tc main_v51)).trans ((Keep.keep_D2a (P W 67)).2.2.2.2.2.2.2.2.2.2.2.2.2.2.2.2.2))))).trans (dst2_at67 W)

theorem agg2_at116 : (P W 116 (Proc.devRef .tc main_v87) : Mat) = val_main_v87 (F := Ideal) (W (Proc.devRef .tc main_arg0)) (W (Proc.devRef .tc main_arg1)) (W (Proc.devRef .tc main_arg3)) (W (Proc.devRef .tc main_arg4)) (W (Proc.devRef .tc main_arg5)) := by
  refine ((congrFun (after_take_add 100 16 W) (Proc.devRef .tc main_v87)).trans (Vals.agg2 (P W 100))).trans ?_
  rw [dense1_at100 W, src2_at100 W, dst2_at100 W, wgt2_at100 W]
  rfl

theorem dense2_at123 : (P W 123 (Proc.devRef .tc main_v92) : Mat) = val_main_v92 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) := by
  refine ((congrFun (after_take_add 116 7 W) (Proc.devRef .tc main_v92)).trans (Vals.dense2 (P W 116) _ _ _ _ _ (agg2_at116 W))).trans ?_
  rw [arg6_at116 W, arg7_at116 W]

theorem src0_at123 : (P W 123 (Proc.devRef .tc main_v1) : EdgeIdx0) = val_main_v1 (F := Ideal) (W (Proc.devRef .tc main_arg1)) :=
  (((congrFun (after_take_add 116 7 W) (Proc.devRef .tc main_v1)).trans ((Keep.keep_F (P W 116)).2.2.2.2.2.2.2.2.2.2.2.2.2.1)).trans (((congrFun (after_take_add 100 16 W) (Proc.devRef .tc main_v1)).trans ((Keep.keep_E (P W 100)).2.2.2.2.2.2.2.2.2.2.2.2.2.1)).trans (((congrFun (after_take_add 81 19 W) (Proc.devRef .tc main_v1)).trans ((Keep.keep_D2c (P W 81)).2.2.2.2.2.2.2.2.2.2.2.2.2.1)).trans (((congrFun (after_take_add 78 3 W) (Proc.devRef .tc main_v1)).trans ((Keep.keep_D2b (P W 78)).2.2.2.2.2.2.2.2.2.2.2.2.2.1)).trans (((congrFun (after_take_add 67 11 W) (Proc.devRef .tc main_v1)).trans ((Keep.keep_D2a (P W 67)).2.2.2.2.2.2.2.2.2.2.2.2.2.1)).trans (((congrFun (after_take_add 64 3 W) (Proc.devRef .tc main_v1)).trans ((Keep.keep_D1 (P W 64)).2.2.2.2.2.2.2.2.2.2.2.2.2.1)))))))).trans (src0_at64 W)
theorem dst0_at123 : (P W 123 (Proc.devRef .tc main_v3) : EdgeIdx0) = val_main_v3 (F := Ideal) (W (Proc.devRef .tc main_arg1)) :=
  (((congrFun (after_take_add 116 7 W) (Proc.devRef .tc main_v3)).trans ((Keep.keep_F (P W 116)).2.2.2.2.2.2.2.2.2.2.2.2.2.2)).trans (((congrFun (after_take_add 100 16 W) (Proc.devRef .tc main_v3)).trans ((Keep.keep_E (P W 100)).2.2.2.2.2.2.2.2.2.2.2.2.2.2)).trans (((congrFun (after_take_add 81 19 W) (Proc.devRef .tc main_v3)).trans ((Keep.keep_D2c (P W 81)).2.2.2.2.2.2.2.2.2.2.2.2.2.2.1)).trans (((congrFun (after_take_add 78 3 W) (Proc.devRef .tc main_v3)).trans ((Keep.keep_D2b (P W 78)).2.2.2.2.2.2.2.2.2.2.2.2.2.2.1)).trans (((congrFun (after_take_add 67 11 W) (Proc.devRef .tc main_v3)).trans ((Keep.keep_D2a (P W 67)).2.2.2.2.2.2.2.2.2.2.2.2.2.2.1)).trans (((congrFun (after_take_add 64 3 W) (Proc.devRef .tc main_v3)).trans ((Keep.keep_D1 (P W 64)).2.2.2.2.2.2.2.2.2.2.2.2.2.2.1)))))))).trans (dst0_at64 W)

theorem src3_at126 : (P W 126 (Proc.devRef .tc main_v94) : EdgeIdx) = val_main_v94 (F := Ideal) (W (Proc.devRef .tc main_arg1)) :=
  (congrFun (after_take_add 123 3 W) (Proc.devRef .tc main_v94)).trans (Vals.src3 (P W 123) _ (src0_at123 W))
theorem dst3_at126 : (P W 126 (Proc.devRef .tc main_v95) : EdgeIdx) = val_main_v95 (F := Ideal) (W (Proc.devRef .tc main_arg1)) :=
  (congrFun (after_take_add 123 3 W) (Proc.devRef .tc main_v95)).trans (Vals.dst3 (P W 123) _ (dst0_at123 W))

theorem pos3_at137 : (P W 137 (Proc.devRef .tc main_v101) : (⟨S100000, .i1⟩ : BufTy).Contents (Elt Ideal)) = val_main_v101 (F := Ideal) (W (Proc.devRef .tc main_arg1)) :=
  (congrFun (after_take_add 126 11 W) (Proc.devRef .tc main_v101)).trans (Vals.pos3 (P W 126) _ (dst3_at126 W))
theorem rsqrt3_at137 : (P W 137 (Proc.devRef .tc main_v102) : (⟨S100000, .f32⟩ : BufTy).Contents (Elt Ideal)) = val_main_v102 (F := Ideal) (W (Proc.devRef .tc main_arg1)) :=
  (congrFun (after_take_add 126 11 W) (Proc.devRef .tc main_v102)).trans (Vals.rsqrt3 (P W 126) _ (dst3_at126 W))
theorem zero3_at137 : (P W 137 (Proc.devRef .tc main_cst_23) : (⟨S_, .f32⟩ : BufTy).Contents (Elt Ideal)) = val_main_cst_23 (F := Ideal) :=
  (congrFun (after_take_add 126 11 W) (Proc.devRef .tc main_cst_23)).trans (Vals.zero3 (P W 126))
theorem dinv3_at140 : (P W 140 (Proc.devRef .tc main_v103) : (⟨S100000, .f32⟩ : BufTy).Contents (Elt Ideal)) = val_main_v103 (F := Ideal) (W (Proc.devRef .tc main_arg1)) :=
  (congrFun (after_take_add 137 3 W) (Proc.devRef .tc main_v103)).trans (Vals.dinv3 (P W 137) _ (pos3_at137 W) (rsqrt3_at137 W) (zero3_at137 W))
theorem wgt3_at159 : (P W 159 (Proc.devRef .tc main_v118) : EdgeW) = val_main_v118 (F := Ideal) (W (Proc.devRef .tc main_arg1)) :=
  (congrFun (after_take_add 140 19 W) (Proc.devRef .tc main_v118)).trans (Vals.wgt3 (P W 140) _ (dinv3_at140 W)
    ((((congrFun (after_take_add 137 3 W) (Proc.devRef .tc main_v94)).trans ((Keep.keep_G2b (P W 137)).2.2.2.2.2.2.2.2.2.2.2.2.2.2.1)).trans (((congrFun (after_take_add 126 11 W) (Proc.devRef .tc main_v94)).trans ((Keep.keep_G2a (P W 126)).2.2.2.2.2.2.2.2.2.2.2.2.2.2.1)))).trans (src3_at126 W))
    ((((congrFun (after_take_add 137 3 W) (Proc.devRef .tc main_v95)).trans ((Keep.keep_G2b (P W 137)).2.2.2.2.2.2.2.2.2.2.2.2.2.2.2)).trans (((congrFun (after_take_add 126 11 W) (Proc.devRef .tc main_v95)).trans ((Keep.keep_G2a (P W 126)).2.2.2.2.2.2.2.2.2.2.2.2.2.2.2)))).trans (dst3_at126 W)))

theorem dense2_at159 : (P W 159 (Proc.devRef .tc main_v92) : Mat) = val_main_v92 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) :=
  (((congrFun (after_take_add 140 19 W) (Proc.devRef .tc main_v92)).trans ((Keep.keep_G2c (P W 140)).2.2.2.2.2.2.2.2.2.2.2.2.2.1)).trans (((congrFun (after_take_add 137 3 W) (Proc.devRef .tc main_v92)).trans ((Keep.keep_G2b (P W 137)).2.2.2.2.2.2.2.2.2.2.2.2.2.1)).trans (((congrFun (after_take_add 126 11 W) (Proc.devRef .tc main_v92)).trans ((Keep.keep_G2a (P W 126)).2.2.2.2.2.2.2.2.2.2.2.2.2.1)).trans (((congrFun (after_take_add 123 3 W) (Proc.devRef .tc main_v92)).trans ((Keep.keep_G1 (P W 123)).2.2.2.2.2.2.2.2.2.2.2.2.2)))))).trans (dense2_at123 W)
theorem src3_at159 : (P W 159 (Proc.devRef .tc main_v94) : EdgeIdx) = val_main_v94 (F := Ideal) (W (Proc.devRef .tc main_arg1)) :=
  (((congrFun (after_take_add 140 19 W) (Proc.devRef .tc main_v94)).trans ((Keep.keep_G2c (P W 140)).2.2.2.2.2.2.2.2.2.2.2.2.2.2.1)).trans (((congrFun (after_take_add 137 3 W) (Proc.devRef .tc main_v94)).trans ((Keep.keep_G2b (P W 137)).2.2.2.2.2.2.2.2.2.2.2.2.2.2.1)).trans (((congrFun (after_take_add 126 11 W) (Proc.devRef .tc main_v94)).trans ((Keep.keep_G2a (P W 126)).2.2.2.2.2.2.2.2.2.2.2.2.2.2.1))))).trans (src3_at126 W)
theorem dst3_at159 : (P W 159 (Proc.devRef .tc main_v95) : EdgeIdx) = val_main_v95 (F := Ideal) (W (Proc.devRef .tc main_arg1)) :=
  (((congrFun (after_take_add 140 19 W) (Proc.devRef .tc main_v95)).trans ((Keep.keep_G2c (P W 140)).2.2.2.2.2.2.2.2.2.2.2.2.2.2.2)).trans (((congrFun (after_take_add 137 3 W) (Proc.devRef .tc main_v95)).trans ((Keep.keep_G2b (P W 137)).2.2.2.2.2.2.2.2.2.2.2.2.2.2.2)).trans (((congrFun (after_take_add 126 11 W) (Proc.devRef .tc main_v95)).trans ((Keep.keep_G2a (P W 126)).2.2.2.2.2.2.2.2.2.2.2.2.2.2.2))))).trans (dst3_at126 W)

theorem agg3_at175 : (P W 175 (Proc.devRef .tc main_v131) : Mat) = val_main_v131 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) := by
  refine ((congrFun (after_take_add 159 16 W) (Proc.devRef .tc main_v131)).trans (Vals.agg3 (P W 159))).trans ?_
  rw [dense2_at159 W, src3_at159 W, dst3_at159 W, wgt3_at159 W]
  rfl

theorem head1_at181 : (P W 181 (Proc.devRef .tc main_v135) : Mat) = val_main_v135 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  refine ((congrFun (after_take_add 175 6 W) (Proc.devRef .tc main_v135)).trans (Vals.head1 (P W 175) _ _ _ _ _ _ _ (agg3_at175 W))).trans ?_
  rw [arg8_at175 W]

theorem head2_at188 : (P W 188 (Proc.devRef .tc main_v140) : (⟨S100000x32, .f32⟩ : BufTy).Contents (Elt Ideal)) = val_main_v140 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  refine ((congrFun (after_take_add 181 7 W) (Proc.devRef .tc main_v140)).trans (Vals.head2 (P W 181) _ _ _ _ _ _ _ _ (head1_at181 W))).trans ?_
  rw [arg9_at181 W, arg10_at181 W]

theorem head3_at192 : (P W 192 (Proc.devRef .tc main_v144) : (⟨S100000x40, .f32⟩ : BufTy).Contents (Elt Ideal)) = val_main_v144 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) := by
  refine ((congrFun (after_take_add 188 4 W) (Proc.devRef .tc main_v144)).trans (Vals.head3 (P W 188) _ _ _ _ _ _ _ _ _ _ (head2_at188 W))).trans ?_
  rw [arg11_at188 W, arg12_at188 W]

theorem lsm1_at197 : (P W 197 (Proc.devRef .tc main_call7_v2) : (⟨S100000, .f32⟩ : BufTy).Contents (Elt Ideal)) = val_main_call7_v2 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) :=
  (congrFun (after_take_add 192 5 W) (Proc.devRef .tc main_call7_v2)).trans (Vals.lsm1 (P W 192) _ _ _ _ _ _ _ _ _ _ _ _ (head3_at192 W))

theorem lsm2_at200 : (P W 200 (Proc.devRef .tc main_call7_v5) : (⟨S100000x40, .f32⟩ : BufTy).Contents (Elt Ideal)) = val_main_call7_v5 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) :=
  (congrFun (after_take_add 197 3 W) (Proc.devRef .tc main_call7_v5)).trans (Vals.lsm2 (P W 197) _ _ _ _ _ _ _ _ _ _ _ _ (lsm1_at197 W)
    ((((congrFun (after_take_add 192 5 W) (Proc.devRef .tc main_v144)).trans ((Keep.keep_I4a (P W 192)).2.2.2.2.2.2.2.2.2.2.2.2.2))).trans (head3_at192 W)))

/-- After all 207 operations the result buffer holds the last stage of the launch arguments. -/
theorem value : (after opsI W (Proc.devRef .tc main_v145) : (⟨S100000x40, .f32⟩ : BufTy).Contents (Elt Ideal))
    = val_main_v145 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) :=
  (congrFun (after_take_all W) _).symm.trans ((congrFun (after_take_add 200 7 W) (Proc.devRef .tc main_v145)).trans (Vals.lsm3 (P W 200) _ _ _ _ _ _ _ _ _ _ _ _ (lsm2_at200 W)))

/-! ## The run -/

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v145) = val_main_v145 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v145).trans (value (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c)),
      (h c main_arg12).trans (kept_arg12 (launchContents m c))⟩)
    (run_seq scopedRefs_eq scopedSems_eq defs main (fun _ => opsI) main_eq (fun _ => ops_sub) m ρ)

end Cert.ReferenceIdeal.RunValue

end
-- ==== Proof.RefFrame.lean ====
/-
  The reference program's frame: its run ends with every argument array as launched.  The reference is a
  straight line of host operations, so its run is the fold of those operations' results; dropping the
  statement about the result leaves the frame.
-/
import proofs.«107386_j38878043964109_1_alg».proof.Defs
import proofs.«107386_j38878043964109_1_alg».proof.Proof.RefRun
import proofs.«107386_j38878043964109_1_alg».proof.Proof.Gen.ReferenceIdeal
import proofs.«107386_j38878043964109_1_alg».proof.Proof.Gen.Pre_finite_inputs

noncomputable section

namespace Cert.Proof.Frames

open Idealize.ShloMosaic Idealize.SL.Sem

theorem frame_ri : Cert.frame_ReferenceIdeal := fun m ρ _ =>
  (θ_run Cert.ReferenceIdeal.defs _ _).mono (fun _ h c => (h c).2) (Cert.ReferenceIdeal.RunValue.run m ρ)

end Cert.Proof.Frames

end
-- ==== Proof.KernelRun.lean ====
/-
  The idealized kernel's run, with its result named.

  The program is ten segments: three stretches of host operations, then four times a tiled dense stage followed (but for
  the last) by a stretch of host operations.  Every weakly fair execution runs the segments in order; between two
  segments every buffer outside the stages' private staging memory holds a known array, and after the last segment these
  are the arrays `W10`: each stage's output at what its blocks wrote, everything else as the segment before left it.
  So the run ends with the result buffer at `W10`'s array for it, and with every argument array as launched.
-/
import proofs.«107386_j38878043964109_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, its result buffer holding the last
    boundary's array for it and its argument arrays unchanged. -/
theorem run : θ_run defs (onTc (τ := τ) (main (F := F))) ⟨m, fun _ => 0, ρ⟩ (fun r => ∀ c : Dev nD,
      r.2.mem ((c.tc : Thread nD τ).loc main_v72) = W10 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v72 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.RunValue

end
-- ==== Proof.Spec.lean ====
/-
  What the two programs compute, row by row, on the extended reals.

  Every dense stage of the network acts on the rows of a node-feature matrix independently: a row `x` of K features goes to
  the row `c ↦ ∑ k, x k · w (k, c)` (a dense layer), to `k ↦ max (x k + b k) 0` (bias, then the rectifier), or to its
  log-softmax `c ↦ (x c − μ) − log (∑ c', exp (x c' − μ))`, where `μ` is the largest entry of the row, taken as a fold of
  `max` from the float word of minus infinity.  A function of rows is lifted to matrices by applying it to every row.
  The rectifier's zero and the fold's start are kept as the values of their float words: both programs use the same words,
  so neither is ever evaluated.
-/
import Mathlib
import Idealize.ShloMosaic.Lib.ValueIdx
import Idealize.ShloMosaic.PureOps.Ideal

noncomputable section

namespace Cert.Spec

open Idealize.ShloMosaic Idealize.ShloMosaic.ValueIdx

/-- The value of the float word of zero. -/
abbrev zeroW : EReal := Ideal.ofBits .f32 0x00000000#32
/-- The value of the float word of minus infinity. -/
abbrev negInfW : EReal := Ideal.ofBits .f32 0xFF800000#32

/-- A dense layer on one row: `c ↦ ∑ k, x k · w (k, c)`. -/
def dense {K N : Nat} (w : (⟨2, ![K, N]⟩ : Shape).Idx → EReal) (x : Fin K → EReal) : Fin N → EReal :=
  fun c => ∑ k : Fin K, x k * w (ix2 k c)

/-- Bias, then the rectifier, on one row: `k ↦ max (x k + b k) 0`. -/
def biasRelu {K : Nat} (b : (⟨1, ![K]⟩ : Shape).Idx → EReal) (x : Fin K → EReal) : Fin K → EReal :=
  fun k => max (x k + b (ix1 k)) zeroW

/-- Bias alone on one row. -/
def bias {K : Nat} (b : (⟨1, ![K]⟩ : Shape).Idx → EReal) (x : Fin K → EReal) : Fin K → EReal :=
  fun k => x k + b (ix1 k)

/-- The largest entry of a row, as a fold of `max` from minus infinity's word. -/
def rowMax {N : Nat} (x : Fin N → EReal) : EReal := (Finset.univ : Finset (Fin N)).fold max negInfW x

/-- The log-softmax of one row, shifted by its largest entry. -/
def logSoftmax {N : Nat} (x : Fin N → EReal) : Fin N → EReal :=
  fun c => (x c - rowMax x) - Ideal.log (∑ c' : Fin N, Ideal.exp (x c' - rowMax x))

/-- The first graph-convolution layer's dense stage on one row. -/
def layer0 (w : (⟨2, ![64, 64]⟩ : Shape).Idx → EReal) : (Fin 64 → EReal) → Fin 64 → EReal := dense w

/-- A later layer's dense stage on one aggregated row: the previous layer's bias and rectifier, then the product. -/
def layer1 (b : (⟨1, ![64]⟩ : Shape).Idx → EReal) (w : (⟨2, ![64, 64]⟩ : Shape).Idx → EReal) :
    (Fin 64 → EReal) → Fin 64 → EReal := fun x => dense w (biasRelu b x)

/-- The head on one aggregated row: the last layer's bias and rectifier, a 64→32 layer with its rectifier, a 32→40
    layer with its bias, and the log-softmax of the 40 logits. -/
def head (b : (⟨1, ![64]⟩ : Shape).Idx → EReal) (w1 : (⟨2, ![64, 32]⟩ : Shape).Idx → EReal)
    (b1 : (⟨1, ![32]⟩ : Shape).Idx → EReal) (w2 : (⟨2, ![32, 40]⟩ : Shape).Idx → EReal)
    (b2 : (⟨1, ![40]⟩ : Shape).Idx → EReal) : (Fin 64 → EReal) → Fin 40 → EReal :=
  fun x => logSoftmax (bias b2 (dense w2 (biasRelu b1 (dense w1 (biasRelu b x)))))

/-- A function of rows applied to every row of a matrix. -/
def rows {M K N : Nat} (f : (Fin K → EReal) → Fin N → EReal) (a : (⟨2, ![M, K]⟩ : Shape).Idx → EReal) :
    (⟨2, ![M, N]⟩ : Shape).Idx → EReal :=
  fun i => f (fun k => a (ix2 (i 0) k)) (i 1)

theorem rows_ix2 {M K N : Nat} (f : (Fin K → EReal) → Fin N → EReal) (a : (⟨2, ![M, K]⟩ : Shape).Idx → EReal)
    (r : Fin M) (c : Fin N) : rows f a (ix2 r c) = f (fun k => a (ix2 r k)) c := rfl

/-- The fold that takes a row's largest entry dominates its start, so taking `max` with the start again changes nothing. -/
theorem max_start_rowMax {N : Nat} (x : Fin N → EReal) : max negInfW (rowMax x) = rowMax x :=
  max_eq_right (Finset.le_fold_max (s := Finset.univ) (f := x) (b := negInfW) negInfW |>.mpr (Or.inl le_rfl))

end Cert.Spec

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibColumn.lean ====
/-
  A column of per-row values put beside a matrix (the "keep the reduced axis" forms): an `[a]` array cast to `[a, 1]` reads,
  at `(p, u)`, the operand at `p`; an `[a, 1]` array broadcast to `[a, b]` reads, at `(p, c)`, the operand's row `p`.
-/
import Mathlib
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRows.lean ====
/-
  Row-wise readings of the vector operations a dense network stage is made of, on the extended reals and at any extents
  M (rows), K, N (columns): a bias vector put as one row and repeated down the rows, with or without the rectifier, read at
  (r, k) as the specification's `biasRelu` / `bias` of row r; the index over row r with a reduced column put back; a row's
  largest entry (a `max` reduction over the columns, kept as a column and repeated across) read at (r, c) as the
  specification's `rowMax` of row r; and the log-softmax spelt with those pieces read at (r, c) as the specification's
  `logSoftmax` of row r.
-/
import proofs.«107386_j38878043964109_1_alg».proof.Proof.Spec
import proofs.«107386_j38878043964109_1_alg».proof.Proof.LibColumn
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.LibRows

open Idealize.ShloMosaic Idealize.ShloMosaic.ValueIdx Cert.Spec

/-- Bias (a vector put as one row and repeated down the rows), then the rectifier, read at (r, k). -/
theorem biasRelu_at {M K : Nat} (x : FVec Ideal ⟨2, ![M, K]⟩ .f32) (b : FVec Ideal ⟨1, ![K]⟩ .f32)
    (h0 : (⟨2, ![M, K]⟩ : Shape).ShapeCasts ⟨2, ![M, K]⟩) (h1 : (⟨1, ![K]⟩ : Shape).ShapeCasts ⟨2, ![1, K]⟩)
    (h2 : (⟨2, ![1, K]⟩ : Shape).Broadcasts ⟨2, ![M, K]⟩) (r : Fin M) (k : Fin K) :
    maximumf (addf (shapeCast ⟨2, ![M, K]⟩ x h0) (broadcastTo ⟨2, ![M, K]⟩ (shapeCast ⟨2, ![1, K]⟩ b h1) h2))
        (broadcast ⟨2, ![M, K]⟩ (Scalar.ofBits (F := Ideal) .f32 0x00000000#32)) (ix2 r k)
      = biasRelu b (fun k => x (ix2 r k)) k := by
  show max (shapeCast ⟨2, ![M, K]⟩ x h0 (ix2 r k) + broadcastTo ⟨2, ![M, K]⟩ (shapeCast ⟨2, ![1, K]⟩ b h1) h2 (ix2 r k)) _ = _
  rw [shapeCast_self, broadcastTo_1b_ab_apply, shapeCast_a_1a_apply]
  rfl

/-- Bias then the rectifier on a matrix that is not cast first (the head's hidden layer), read at (r, k). -/
theorem biasRelu_at' {M K : Nat} (x : FVec Ideal ⟨2, ![M, K]⟩ .f32) (b : FVec Ideal ⟨1, ![K]⟩ .f32)
    (h1 : (⟨1, ![K]⟩ : Shape).ShapeCasts ⟨2, ![1, K]⟩)
    (h2 : (⟨2, ![1, K]⟩ : Shape).Broadcasts ⟨2, ![M, K]⟩) (r : Fin M) (k : Fin K) :
    maximumf (addf x (broadcastTo ⟨2, ![M, K]⟩ (shapeCast ⟨2, ![1, K]⟩ b h1) h2))
        (broadcast ⟨2, ![M, K]⟩ (Scalar.ofBits (F := Ideal) .f32 0x00000000#32)) (ix2 r k)
      = biasRelu b (fun k => x (ix2 r k)) k := by
  show max (x (ix2 r k) + broadcastTo ⟨2, ![M, K]⟩ (shapeCast ⟨2, ![1, K]⟩ b h1) h2 (ix2 r k)) _ = _
  rw [broadcastTo_1b_ab_apply, shapeCast_a_1a_apply]
  rfl

/-- Bias alone, read at (r, k). -/
theorem bias_at {M K : Nat} (x : FVec Ideal ⟨2, ![M, K]⟩ .f32) (b : FVec Ideal ⟨1, ![K]⟩ .f32)
    (h1 : (⟨1, ![K]⟩ : Shape).ShapeCasts ⟨2, ![1, K]⟩)
    (h2 : (⟨2, ![1, K]⟩ : Shape).Broadcasts ⟨2, ![M, K]⟩) (r : Fin M) (k : Fin K) :
    addf x (broadcastTo ⟨2, ![M, K]⟩ (shapeCast ⟨2, ![1, K]⟩ b h1) h2) (ix2 r k) = bias b (fun k => x (ix2 r k)) k := by
  show x (ix2 r k) + broadcastTo ⟨2, ![M, K]⟩ (shapeCast ⟨2, ![1, K]⟩ b h1) h2 (ix2 r k) = _
  rw [broadcastTo_1b_ab_apply, shapeCast_a_1a_apply]
  rfl

/-- The index over row `r` with the reduced column put back is `(r, k)`. -/
theorem lift_row {M N : Nat} (h : (⟨2, ![M, N]⟩ : Shape).Reduces [1] ⟨1, ![M]⟩) (r : Fin M) (k : Fin N) :
    h.lift (ix1 r) k = ix2 r k :=
  funext fun a => Fin.ext (by match a with | ⟨0, _⟩ => rfl | ⟨1, _⟩ => rfl)

/-- A fold of the float `maximumf` over a row is the fold of `max`: at the extended reals they are one operation. -/
theorem fold_maximumf_eq_fold_max {N : Nat} (b : EReal) (g : Fin N → EReal) :
    (Finset.univ : Finset (Fin N)).fold (FloatOps.maximumf (F := Ideal) (φ := .f32)) b g = (Finset.univ : Finset (Fin N)).fold max b g := rfl

/-- A fold of `max` from minus infinity's word over a function that is a row, entry by entry, is the row's largest entry. -/
theorem fold_max_eq_rowMax {N : Nat} (b : EReal) (hb : b = negInfW) (g g' : Fin N → EReal) (hg : ∀ k, g k = g' k) :
    (Finset.univ : Finset (Fin N)).fold max b g = rowMax g' := by
  subst hb
  unfold rowMax
  exact congrArg (fun f => (Finset.univ : Finset (Fin N)).fold max negInfW f) (funext hg)

/-- The host's `max` reduction over the columns, started at minus infinity's word, read at row r: the row's largest entry. -/
theorem hostRowMax_at {M N : Nat} (z : FVec Ideal ⟨2, ![M, N]⟩ .f32) (init : (⟨0, ![]⟩ : Shape).Idx → EReal)
    (hinit : ∀ i, init i = negInfW) (h' : (⟨2, ![M, N]⟩ : Shape).ReducesTo [1] ⟨1, ![M]⟩)
    (h : (⟨2, ![M, N]⟩ : Shape).Reduces [1] ⟨1, ![M]⟩) (hu : 0 < (⟨0, ![]⟩ : Shape).numel) (r : Fin M) :
    Host.reduce (FloatOps.maximumf (F := Ideal) (φ := .f32)) z init h' hu (ix1 r) = rowMax (fun c' => z (ix2 r c')) := by
  rw [Host.reduce_eq_fold_single (FloatOps.maximumf (F := Ideal) (φ := .f32)) z init h' h hu (ix1 r), hinit]
  refine (fold_maximumf_eq_fold_max _ _).trans ?_
  exact fold_max_eq_rowMax _ rfl _ _ (fun k => congrArg z (lift_row h r k))

/-- A row's largest entry, reduced over the columns and put back beside every column, read at (r, c). -/
theorem colMax_at {M N : Nat} (z : FVec Ideal ⟨2, ![M, N]⟩ .f32)
    (hr : (⟨2, ![M, N]⟩ : Shape).Reduces [1] ⟨1, ![M]⟩) (hφ : FKind.Formats .f32)
    (hacc : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, N]⟩)
    (r : Fin M) (c : Fin N) :
    broadcastTo ⟨2, ![M, N]⟩ (shapeCast ⟨2, ![M, 1]⟩ (multiReduction .maximumf [1] ⟨1, ![M]⟩ z 0xFF800000#32 hr hφ hacc) hc) hb (ix2 r c)
      = rowMax (fun c' => z (ix2 r c')) := by
  rw [LibColumn.broadcastTo_a1_ab_apply, LibColumn.shapeCast_a_a1_apply, Ideal.multiReduction_maximumf_single]
  unfold rowMax
  exact congrArg (fun f => (Finset.univ : Finset (Fin N)).fold max negInfW f) (funext fun k => congrArg z (lift_row hr r k))

/-- The log-softmax of the rows of a matrix, as the kernel spells it: subtract the row's largest entry, then the logarithm
    of the row's sum of exponentials; read at (r, c). -/
theorem logSoftmax_at {M N : Nat} (z : FVec Ideal ⟨2, ![M, N]⟩ .f32)
    (hr : (⟨2, ![M, N]⟩ : Shape).Reduces [1] ⟨1, ![M]⟩) (hφ hφ' : FKind.Formats .f32)
    (hacc : (0xFF800000#32 : BitVec 32) = FKind.maximumf.neutral .f32 hφ)
    (hacc' : (0x00000000#32 : BitVec 32) = FKind.add.neutral .f32 hφ')
    (hc : (⟨1, ![M]⟩ : Shape).ShapeCasts ⟨2, ![M, 1]⟩) (hb : (⟨2, ![M, 1]⟩ : Shape).Broadcasts ⟨2, ![M, N]⟩)
    (r : Fin M) (c : Fin N) :
    subf (subf z (broadcastTo ⟨2, ![M, N]⟩ (shapeCast ⟨2, ![M, 1]⟩ (multiReduction .maximumf [1] ⟨1, ![M]⟩ z 0xFF800000#32 hr hφ hacc) hc) hb))
      (broadcastTo ⟨2, ![M, N]⟩ (log (shapeCast ⟨2, ![M, 1]⟩ (multiReduction .add [1] ⟨1, ![M]⟩
        (exp (subf z (broadcastTo ⟨2, ![M, N]⟩ (shapeCast ⟨2, ![M, 1]⟩ (multiReduction .maximumf [1] ⟨1, ![M]⟩ z 0xFF800000#32 hr hφ hacc) hc) hb)))
        0x00000000#32 hr hφ' hacc') hc)) hb) (ix2 r c)
      = logSoftmax (fun c' => z (ix2 r c')) c := by
  show (z (ix2 r c) - broadcastTo ⟨2, ![M, N]⟩ _ hb (ix2 r c)) - broadcastTo ⟨2, ![M, N]⟩ _ hb (ix2 r c) = _
  rw [colMax_at z hr hφ hacc hc hb r c, LibColumn.broadcastTo_a1_ab_apply]
  show _ - Ideal.log (shapeCast ⟨2, ![M, 1]⟩ _ hc (ix2 r (0 : Fin 1))) = _
  rw [LibColumn.shapeCast_a_a1_apply, Ideal.multiReduction_add_single]
  unfold logSoftmax
  refine congrArg (fun s => (z (ix2 r c) - rowMax fun c' => z (ix2 r c')) - Ideal.log s) ?_
  refine Finset.sum_congr rfl fun k _ => ?_
  rw [lift_row hr r k]
  show Ideal.exp (z (ix2 r k) - broadcastTo ⟨2, ![M, N]⟩ _ hb (ix2 r k)) = _
  rw [colMax_at z hr hφ hacc hc hb r k]

end Cert.LibRows

end
-- ==== Proof.KernelRows.lean ====
/-
  What each tiled stage of the idealized kernel stores, entry by entry.

  A stage loads a block of 10000 node rows together with its (whole) weights and biases and stores one block of results.
  At the extended reals a change of float format is the identity and a matrix product into a zero accumulator is the
  plain sum of products, so the stored entry (r, c) depends on row r of the loaded block only: it is the row function of
  the specification (a dense layer; bias, rectifier, dense layer; or the head with its log-softmax) applied to that row.
-/
import proofs.«107386_j38878043964109_1_alg».proof.Proof.Gen.KernelIdeal.Skeleton
import proofs.«107386_j38878043964109_1_alg».proof.Proof.Spec
import proofs.«107386_j38878043964109_1_alg».proof.Proof.LibDot
import proofs.«107386_j38878043964109_1_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx Cert.Spec Cert.LibRows

/-! ## The kernel's matrix products are plain rows-by-columns products -/

theorem plain_64_64 : LibDot.Plain dot_S10000x64_S64x64_S10000x64_1_0_0_1_n_n where
  hrank := rfl
  hs := rfl
  hl0 := fun j k => by
    unfold DotDims.lhsIdx
    rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
    rfl
  hl1 := fun j k => dot_S10000x64_S64x64_S10000x64_1_0_0_1_n_n.lhsIdx_val_of_single rfl j k
  hr0 := fun j k => dot_S10000x64_S64x64_S10000x64_1_0_0_1_n_n.rhsIdx_val_of_single rfl j k
  hr1 := fun j k => by
    unfold DotDims.rhsIdx
    rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
    rfl

theorem plain_64_32 : LibDot.Plain dot_S10000x64_S64x32_S10000x32_1_0_0_1_n_n where
  hrank := rfl
  hs := rfl
  hl0 := fun j k => by
    unfold DotDims.lhsIdx
    rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
    rfl
  hl1 := fun j k => dot_S10000x64_S64x32_S10000x32_1_0_0_1_n_n.lhsIdx_val_of_single rfl j k
  hr0 := fun j k => dot_S10000x64_S64x32_S10000x32_1_0_0_1_n_n.rhsIdx_val_of_single rfl j k
  hr1 := fun j k => by
    unfold DotDims.rhsIdx
    rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
    rfl

theorem plain_32_40 : LibDot.Plain dot_S10000x32_S32x40_S10000x40_1_0_0_1_n_n where
  hrank := rfl
  hs := rfl
  hl0 := fun j k => by
    unfold DotDims.lhsIdx
    rw [dif_neg (show ¬(0 : Fin S10000x32.rank) ∈ dot_S10000x32_S32x40_S10000x40_1_0_0_1_n_n.lhsBatch by decide), dif_pos (show (0 : Fin S10000x32.rank) ∈ dot_S10000x32_S32x40_S10000x40_1_0_0_1_n_n.lhsNonContracting by decide)]
    rfl
  hl1 := fun j k => dot_S10000x32_S32x40_S10000x40_1_0_0_1_n_n.lhsIdx_val_of_single rfl j k
  hr0 := fun j k => dot_S10000x32_S32x40_S10000x40_1_0_0_1_n_n.rhsIdx_val_of_single rfl j k
  hr1 := fun j k => by
    unfold DotDims.rhsIdx
    rw [dif_neg (show ¬(1 : Fin S32x40.rank) ∈ dot_S10000x32_S32x40_S10000x40_1_0_0_1_n_n.rhsBatch by decide), dif_pos (show (1 : Fin S32x40.rank) ∈ dot_S10000x32_S32x40_S10000x40_1_0_0_1_n_n.rhsNonContracting by decide)]
    rfl

/-! ## The four stages -/

/-- The first stage stores, at (r, c), the dense layer of row r of its block. -/
theorem stage0_at (x0 : Vec Ideal S10000x64 .f32) (x1 : Vec Ideal S64x64 .f32) (r : Fin 10000) (c : Fin 64) :
    k0_pay1 (F := Ideal) x0 x1 (ix2 r c) = layer0 x1 (fun k => x0 (ix2 r k)) c := by
  unfold k0_pay1
  refine (LibDot.matmul_ix2 plain_64_64 none _ _ r c).trans ?_
  rfl

/-- The second stage stores, at (r, c), bias, rectifier and dense layer of row r of its block. -/
theorem stage1_at (x0 : Vec Ideal S10000x64 .f32) (x2 : Vec Ideal S64 .f32) (x9 : Vec Ideal S64x64 .f32) (r : Fin 10000) (c : Fin 64) :
    k1_pay1 (F := Ideal) x0 x2 x9 (ix2 r c) = layer1 x2 x9 (fun k => x0 (ix2 r k)) c := by
  unfold k1_pay1
  refine (LibDot.matmul_ix2 plain_64_64 none _ _ r c).trans ?_
  show _ = ∑ k : Fin 64, biasRelu x2 (fun k => x0 (ix2 r k)) k * x9 (ix2 k c)
  refine Finset.sum_congr rfl fun k _ => ?_
  exact congrArg (· * x9 (ix2 k c)) (biasRelu_at x0 x2 _ _ _ r k)

/-- The third stage is the second with other weights. -/
theorem stage2_at (x0 : Vec Ideal S10000x64 .f32) (x2 : Vec Ideal S64 .f32) (x9 : Vec Ideal S64x64 .f32) (r : Fin 10000) (c : Fin 64) :
    k2_pay1 (F := Ideal) x0 x2 x9 (ix2 r c) = layer1 x2 x9 (fun k => x0 (ix2 r k)) c := by
  unfold k2_pay1
  refine (LibDot.matmul_ix2 plain_64_64 none _ _ r c).trans ?_
  show _ = ∑ k : Fin 64, biasRelu x2 (fun k => x0 (ix2 r k)) k * x9 (ix2 k c)
  refine Finset.sum_congr rfl fun k _ => ?_
  exact congrArg (· * x9 (ix2 k c)) (biasRelu_at x0 x2 _ _ _ r k)

/-- The last stage stores, at (r, c), the head of row r of its block: bias and rectifier, the 64→32 layer with its
    bias and rectifier, the 32→40 layer with its bias, and the log-softmax of the 40 logits. -/
theorem stage3_at (x0 : Vec Ideal S10000x64 .f32) (x2 : Vec Ideal S64 .f32) (x9 : Vec Ideal S64x32 .f32) (x12 : Vec Ideal S32 .f32)
    (x19 : Vec Ideal S32x40 .f32) (x22 : Vec Ideal S40 .f32) (r : Fin 10000) (c : Fin 40) :
    k3_pay1 (F := Ideal) x0 x2 x9 x12 x19 x22 (ix2 r c) = head x2 x9 x12 x19 x22 (fun k => x0 (ix2 r k)) c := by
  unfold k3_pay1
  refine (logSoftmax_at _ _ _ _ _ _ _ _ r c).trans ?_
  unfold head
  refine congrArg (fun f => logSoftmax f c) (funext fun c' => ?_)
  refine (bias_at _ x22 _ _ r c').trans ?_
  refine congrArg (fun f => bias x22 f c') (funext fun c'' => ?_)
  refine (LibDot.matmul_ix2 plain_32_40 none _ _ r c'').trans ?_
  refine Finset.sum_congr rfl fun j _ => ?_
  refine congrArg (· * x19 (ix2 j c'')) ?_
  refine (biasRelu_at' _ x12 _ _ r j).trans ?_
  refine congrArg (fun f => biasRelu x12 f j) (funext fun j' => ?_)
  refine (LibDot.matmul_ix2 plain_64_32 none _ _ r j').trans ?_
  refine Finset.sum_congr rfl fun k _ => ?_
  exact congrArg (· * x9 (ix2 k j')) (biasRelu_at x0 x2 _ _ _ r k)

end Cert.KernelIdeal.Rows

end
-- ==== Proof.Blocks0.lean ====
/-
  The array the first layer's dense stage leaves behind, as one function of the arrays it finds.

  The stage runs at ten grid points; at point t it reads rows 10000·t … 10000·t + 9999 of its first operand (and its
  weights and biases whole) and writes the same rows of its result.  Entry (r, c) of the block written at t is the row
  function of the specification applied to row r of the block read, that is to row 10000·t + r of the operand; the ten
  blocks tile the result, so the result array is that row function applied to every row of the operand.
-/
import proofs.«107386_j38878043964109_1_alg».proof.Proof.Gen.KernelIdeal.Frame
import proofs.«107386_j38878043964109_1_alg».proof.Proof.KernelRows
import Idealize.ShloMosaic.Lib.Pipeline.Value

set_option maxRecDepth 16384

noncomputable section

namespace Cert.KernelIdeal.Blocks0

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the first operand's block moves with the result's down the rows, every other
    operand is one whole block, and no block is offset along the columns. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the ten row blocks of the result is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the row function applied to every row of the first operand. -/
theorem flushed_eq (c : Dev nD) (t : Fin cfg0.N) :
    (dat0 V c).flushed 2 t = ((cfg0.win 2).blk t).view.read (Elt Ideal) (rows (layer0 (V c main_arg3)) (V c main_arg0)) := by
  show (cfg0.win 2).cut (grid0.coords t) ((dat0 V c).after 2 t) = _
  rw [after0_2]
  unfold out0_2
  rw [View.canon_unit_zero hz2]
  simp only [View.ld_unit_zero (S := S10000x64) hz2, View.ld_unit_zero (S := S64x64) hz2]
  obtain ⟨e00, e01, e10, e11, eo1⟩ := idx_facts t
  have hb1 : iblk0 V c 1 t = V c main_arg3 := by
    funext y
    show V c main_arg3 (((cfg0.win 1).blk t).view.emb y) = V c main_arg3 y
    refine congrArg (V c main_arg3) (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  funext j
  obtain ⟨r, q, rfl⟩ : ∃ (r : Fin 10000) (q : Fin 64), j = ix2 r q := ⟨j 0, j 1, eq_ix2 j⟩
  show k0_pay1 (iblk0 V c 0 t) (iblk0 V c 1 t) (ix2 r q) = (rows (layer0 (V c main_arg3)) (V c main_arg0)) (((cfg0.win 2).blk t).view.emb (ix2 r q))
  refine (Rows.stage0_at (iblk0 V c 0 t) (iblk0 V c 1 t) r q).trans ?_
  rw [hb1]
  have hq : (((cfg0.win 2).blk t).view.emb (ix2 r q)) 1 = q :=
    Fin.ext (by show win0_2.index t (1 : Fin 2) * 64 + 1 * q.val = q.val; omega)
  have hx : (fun k => iblk0 V c 0 t (ix2 r k)) = fun k => V c main_arg0 (ix2 ((((cfg0.win 2).blk t).view.emb (ix2 r q)) 0) k) := by
    funext k
    show V c main_arg0 (((cfg0.win 0).blk t).view.emb (ix2 r k)) = _
    refine congrArg (V c main_arg0) (funext fun a => Fin.ext ?_)
    match a with
    | ⟨0, _⟩ => show win0_0.index t (0 : Fin 2) * 10000 + 1 * r.val = win0_2.index t (0 : Fin 2) * 10000 + 1 * r.val; omega
    | ⟨1, _⟩ => show win0_0.index t (1 : Fin 2) * 64 + 1 * k.val = k.val; omega
  exact congr (congrArg (layer0 (V c main_arg3)) hx) hq.symm

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten blocks tile the result: row `R` lies in the block of point `R / 10000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the stage. -/
theorem final (c : Dev nD) : (dat0 V c).arrAt 2 cfg0.N = rows (layer0 (V c main_arg3)) (V c main_arg0) :=
  (dat0 V c).arrAt_eq_of_cover 2 _ (fun t _ => flushed_eq V c t) cover

end Cert.KernelIdeal.Blocks0

end
-- ==== Proof.Blocks1.lean ====
/-
  The array the second layer's dense stage leaves behind, as one function of the arrays it finds.

  The stage runs at ten grid points; at point t it reads rows 10000·t … 10000·t + 9999 of its first operand (and its
  weights and biases whole) and writes the same rows of its result.  Entry (r, c) of the block written at t is the row
  function of the specification applied to row r of the block read, that is to row 10000·t + r of the operand; the ten
  blocks tile the result, so the result array is that row function applied to every row of the operand.
-/
import proofs.«107386_j38878043964109_1_alg».proof.Proof.Gen.KernelIdeal.Frame
import proofs.«107386_j38878043964109_1_alg».proof.Proof.KernelRows
import Idealize.ShloMosaic.Lib.Pipeline.Value

set_option maxRecDepth 16384

noncomputable section

namespace Cert.KernelIdeal.Blocks1

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the first operand's block moves with the result's down the rows, every other
    operand is one whole block, and no block is offset along the columns. -/
theorem idx_facts : ∀ t : Fin cfg1.N, win1_0.index t (0 : Fin 2) = win1_3.index t (0 : Fin 2)
    ∧ win1_0.index t (1 : Fin 2) = 0
    ∧ win1_1.index t (0 : Fin 1) = 0
    ∧ win1_2.index t (0 : Fin 2) = 0
    ∧ win1_2.index t (1 : Fin 2) = 0
    ∧ win1_3.index t (1 : Fin 2) = 0 :=
  (by decide +kernel : ∀ t : Fin grid1.N, _)

/-- Every one of the ten row blocks of the result is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- What point `t` writes back is block `t` of the row function applied to every row of the first operand. -/
theorem flushed_eq (c : Dev nD) (t : Fin cfg1.N) :
    (dat1 V c).flushed 3 t = ((cfg1.win 3).blk t).view.read (Elt Ideal) (rows (layer1 (V c main_arg4) (V c main_arg5)) (V c main_v43)) := by
  show (cfg1.win 3).cut (grid1.coords t) ((dat1 V c).after 3 t) = _
  rw [after1_3]
  unfold out1_3
  rw [View.canon_unit_zero hz2]
  simp only [View.ld_unit_zero (S := S10000x64) hz2, View.ld_unit_zero (S := S64) hz1, View.ld_unit_zero (S := S64x64) hz2]
  obtain ⟨e00, e01, e10, e20, e21, eo1⟩ := idx_facts t
  have hb1 : iblk1 V c 1 t = V c main_arg4 := by
    funext y
    show V c main_arg4 (((cfg1.win 1).blk t).view.emb y) = V c main_arg4 y
    refine congrArg (V c main_arg4) (funext fun a => Fin.ext ?_)
    match a with
    | ⟨0, _⟩ => show win1_1.index t (0 : Fin 1) * 64 + 1 * (y 0).val = (y 0).val; omega
  have hb2 : iblk1 V c 2 t = V c main_arg5 := by
    funext y
    show V c main_arg5 (((cfg1.win 2).blk t).view.emb y) = V c main_arg5 y
    refine congrArg (V c main_arg5) (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  funext j
  obtain ⟨r, q, rfl⟩ : ∃ (r : Fin 10000) (q : Fin 64), j = ix2 r q := ⟨j 0, j 1, eq_ix2 j⟩
  show k1_pay1 (iblk1 V c 0 t) (iblk1 V c 1 t) (iblk1 V c 2 t) (ix2 r q) = (rows (layer1 (V c main_arg4) (V c main_arg5)) (V c main_v43)) (((cfg1.win 3).blk t).view.emb (ix2 r q))
  refine (Rows.stage1_at (iblk1 V c 0 t) (iblk1 V c 1 t) (iblk1 V c 2 t) r q).trans ?_
  rw [hb1, hb2]
  have hq : (((cfg1.win 3).blk t).view.emb (ix2 r q)) 1 = q :=
    Fin.ext (by show win1_3.index t (1 : Fin 2) * 64 + 1 * q.val = q.val; omega)
  have hx : (fun k => iblk1 V c 0 t (ix2 r k)) = fun k => V c main_v43 (ix2 ((((cfg1.win 3).blk t).view.emb (ix2 r q)) 0) k) := by
    funext k
    show V c main_v43 (((cfg1.win 0).blk t).view.emb (ix2 r k)) = _
    refine congrArg (V c main_v43) (funext fun a => Fin.ext ?_)
    match a with
    | ⟨0, _⟩ => show win1_0.index t (0 : Fin 2) * 10000 + 1 * r.val = win1_3.index t (0 : Fin 2) * 10000 + 1 * r.val; omega
    | ⟨1, _⟩ => show win1_0.index t (1 : Fin 2) * 64 + 1 * k.val = k.val; omega
  exact congr (congrArg (layer1 (V c main_arg4) (V c main_arg5)) hx) hq.symm

/-- An index of the result is in point `t`'s block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v44).slice (win1_3.rect t)).set ↔ _
  rw [View.set_slice_whole, Rect.mem_set_unit]
  exact Iff.rfl

/-- The ten blocks tile the result: row `R` lies in the block of point `R / 10000`. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The result array after the stage. -/
theorem final (c : Dev nD) : (dat1 V c).arrAt 3 cfg1.N = rows (layer1 (V c main_arg4) (V c main_arg5)) (V c main_v43) :=
  (dat1 V c).arrAt_eq_of_cover 3 _ (fun t _ => flushed_eq V c t) cover

end Cert.KernelIdeal.Blocks1

end
-- ==== Proof.Blocks2.lean ====
/-
  The array the third layer's dense stage leaves behind, as one function of the arrays it finds.

  The stage runs at ten grid points; at point t it reads rows 10000·t … 10000·t + 9999 of its first operand (and its
  weights and biases whole) and writes the same rows of its result.  Entry (r, c) of the block written at t is the row
  function of the specification applied to row r of the block read, that is to row 10000·t + r of the operand; the ten
  blocks tile the result, so the result array is that row function applied to every row of the operand.
-/
import proofs.«107386_j38878043964109_1_alg».proof.Proof.Gen.KernelIdeal.Frame
import proofs.«107386_j38878043964109_1_alg».proof.Proof.KernelRows
import Idealize.ShloMosaic.Lib.Pipeline.Value

set_option maxRecDepth 16384

noncomputable section

namespace Cert.KernelIdeal.Blocks2

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the first operand's block moves with the result's down the rows, every other
    operand is one whole block, and no block is offset along the columns. -/
theorem idx_facts : ∀ t : Fin cfg2.N, win2_0.index t (0 : Fin 2) = win2_3.index t (0 : Fin 2)
    ∧ win2_0.index t (1 : Fin 2) = 0
    ∧ win2_1.index t (0 : Fin 1) = 0
    ∧ win2_2.index t (0 : Fin 2) = 0
    ∧ win2_2.index t (1 : Fin 2) = 0
    ∧ win2_3.index t (1 : Fin 2) = 0 :=
  (by decide +kernel : ∀ t : Fin grid2.N, _)

/-- Every one of the ten row blocks of the result is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- What point `t` writes back is block `t` of the row function applied to every row of the first operand. -/
theorem flushed_eq (c : Dev nD) (t : Fin cfg2.N) :
    (dat2 V c).flushed 3 t = ((cfg2.win 3).blk t).view.read (Elt Ideal) (rows (layer1 (V c main_arg6) (V c main_arg7)) (V c main_v57)) := by
  show (cfg2.win 3).cut (grid2.coords t) ((dat2 V c).after 3 t) = _
  rw [after2_3]
  unfold out2_3
  rw [View.canon_unit_zero hz2]
  simp only [View.ld_unit_zero (S := S10000x64) hz2, View.ld_unit_zero (S := S64) hz1, View.ld_unit_zero (S := S64x64) hz2]
  obtain ⟨e00, e01, e10, e20, e21, eo1⟩ := idx_facts t
  have hb1 : iblk2 V c 1 t = V c main_arg6 := by
    funext y
    show V c main_arg6 (((cfg2.win 1).blk t).view.emb y) = V c main_arg6 y
    refine congrArg (V c main_arg6) (funext fun a => Fin.ext ?_)
    match a with
    | ⟨0, _⟩ => show win2_1.index t (0 : Fin 1) * 64 + 1 * (y 0).val = (y 0).val; omega
  have hb2 : iblk2 V c 2 t = V c main_arg7 := by
    funext y
    show V c main_arg7 (((cfg2.win 2).blk t).view.emb y) = V c main_arg7 y
    refine congrArg (V c main_arg7) (funext fun a => Fin.ext ?_)
    match a with
    | ⟨0, _⟩ => show win2_2.index t (0 : Fin 2) * 64 + 1 * (y 0).val = (y 0).val; omega
    | ⟨1, _⟩ => show win2_2.index t (1 : Fin 2) * 64 + 1 * (y 1).val = (y 1).val; omega
  funext j
  obtain ⟨r, q, rfl⟩ : ∃ (r : Fin 10000) (q : Fin 64), j = ix2 r q := ⟨j 0, j 1, eq_ix2 j⟩
  show k2_pay1 (iblk2 V c 0 t) (iblk2 V c 1 t) (iblk2 V c 2 t) (ix2 r q) = (rows (layer1 (V c main_arg6) (V c main_arg7)) (V c main_v57)) (((cfg2.win 3).blk t).view.emb (ix2 r q))
  refine (Rows.stage2_at (iblk2 V c 0 t) (iblk2 V c 1 t) (iblk2 V c 2 t) r q).trans ?_
  rw [hb1, hb2]
  have hq : (((cfg2.win 3).blk t).view.emb (ix2 r q)) 1 = q :=
    Fin.ext (by show win2_3.index t (1 : Fin 2) * 64 + 1 * q.val = q.val; omega)
  have hx : (fun k => iblk2 V c 0 t (ix2 r k)) = fun k => V c main_v57 (ix2 ((((cfg2.win 3).blk t).view.emb (ix2 r q)) 0) k) := by
    funext k
    show V c main_v57 (((cfg2.win 0).blk t).view.emb (ix2 r k)) = _
    refine congrArg (V c main_v57) (funext fun a => Fin.ext ?_)
    match a with
    | ⟨0, _⟩ => show win2_0.index t (0 : Fin 2) * 10000 + 1 * r.val = win2_3.index t (0 : Fin 2) * 10000 + 1 * r.val; omega
    | ⟨1, _⟩ => show win2_0.index t (1 : Fin 2) * 64 + 1 * k.val = k.val; omega
  exact congr (congrArg (layer1 (V c main_arg6) (V c main_arg7)) hx) hq.symm

/-- An index of the result is in point `t`'s block iff each coordinate is in the block's range on its axis. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v58).slice (win2_3.rect t)).set ↔ _
  rw [View.set_slice_whole, Rect.mem_set_unit]
  exact Iff.rfl

/-- The ten blocks tile the result: row `R` lies in the block of point `R / 10000`. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The result array after the stage. -/
theorem final (c : Dev nD) : (dat2 V c).arrAt 3 cfg2.N = rows (layer1 (V c main_arg6) (V c main_arg7)) (V c main_v57) :=
  (dat2 V c).arrAt_eq_of_cover 3 _ (fun t _ => flushed_eq V c t) cover

end Cert.KernelIdeal.Blocks2

end
-- ==== Proof.Blocks3.lean ====
/-
  The array the head leaves behind, as one function of the arrays it finds.

  The stage runs at ten grid points; at point t it reads rows 10000·t … 10000·t + 9999 of its first operand (and its
  weights and biases whole) and writes the same rows of its result.  Entry (r, c) of the block written at t is the row
  function of the specification applied to row r of the block read, that is to row 10000·t + r of the operand; the ten
  blocks tile the result, so the result array is that row function applied to every row of the operand.
-/
import proofs.«107386_j38878043964109_1_alg».proof.Proof.Gen.KernelIdeal.Frame
import proofs.«107386_j38878043964109_1_alg».proof.Proof.KernelRows
import Idealize.ShloMosaic.Lib.Pipeline.Value

set_option maxRecDepth 16384

noncomputable section

namespace Cert.KernelIdeal.Blocks3

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the first operand's block moves with the result's down the rows, every other
    operand is one whole block, and no block is offset along the columns. -/
theorem idx_facts : ∀ t : Fin cfg3.N, win3_0.index t (0 : Fin 2) = win3_6.index t (0 : Fin 2)
    ∧ win3_0.index t (1 : Fin 2) = 0
    ∧ win3_1.index t (0 : Fin 1) = 0
    ∧ win3_2.index t (0 : Fin 2) = 0
    ∧ win3_2.index t (1 : Fin 2) = 0
    ∧ win3_3.index t (0 : Fin 1) = 0
    ∧ win3_4.index t (0 : Fin 2) = 0
    ∧ win3_4.index t (1 : Fin 2) = 0
    ∧ win3_5.index t (0 : Fin 1) = 0
    ∧ win3_6.index t (1 : Fin 2) = 0 :=
  (by decide +kernel : ∀ t : Fin grid3.N, _)

/-- Every one of the ten row blocks of the result is some point's. -/
theorem idx_onto : ∀ q0 : Fin 10, ∃ t : Fin cfg3.N, win3_6.index t = ![q0.val, 0] :=
  (by decide +kernel : ∀ q0 : Fin 10, ∃ t : Fin grid3.N, win3_6.index t = ![q0.val, 0])

/-- What point `t` writes back is block `t` of the row function applied to every row of the first operand. -/
theorem flushed_eq (c : Dev nD) (t : Fin cfg3.N) :
    (dat3 V c).flushed 6 t = ((cfg3.win 6).blk t).view.read (Elt Ideal) (rows (head (V c main_arg8) (V c main_arg9) (V c main_arg10) (V c main_arg11) (V c main_arg12)) (V c main_v71)) := by
  show (cfg3.win 6).cut (grid3.coords t) ((dat3 V c).after 6 t) = _
  rw [after3_6]
  unfold out3_6
  rw [View.canon_unit_zero hz2]
  simp only [View.ld_unit_zero (S := S10000x64) hz2, View.ld_unit_zero (S := S64) hz1, View.ld_unit_zero (S := S64x32) hz2, View.ld_unit_zero (S := S32) hz1, View.ld_unit_zero (S := S32x40) hz2, View.ld_unit_zero (S := S40) hz1]
  obtain ⟨e00, e01, e10, e20, e21, e30, e40, e41, e50, eo1⟩ := idx_facts t
  have hb1 : iblk3 V c 1 t = V c main_arg8 := by
    funext y
    show V c main_arg8 (((cfg3.win 1).blk t).view.emb y) = V c main_arg8 y
    refine congrArg (V c main_arg8) (funext fun a => Fin.ext ?_)
    match a with
    | ⟨0, _⟩ => show win3_1.index t (0 : Fin 1) * 64 + 1 * (y 0).val = (y 0).val; omega
  have hb2 : iblk3 V c 2 t = V c main_arg9 := by
    funext y
    show V c main_arg9 (((cfg3.win 2).blk t).view.emb y) = V c main_arg9 y
    refine congrArg (V c main_arg9) (funext fun a => Fin.ext ?_)
    match a with
    | ⟨0, _⟩ => show win3_2.index t (0 : Fin 2) * 64 + 1 * (y 0).val = (y 0).val; omega
    | ⟨1, _⟩ => show win3_2.index t (1 : Fin 2) * 32 + 1 * (y 1).val = (y 1).val; omega
  have hb3 : iblk3 V c 3 t = V c main_arg10 := by
    funext y
    show V c main_arg10 (((cfg3.win 3).blk t).view.emb y) = V c main_arg10 y
    refine congrArg (V c main_arg10) (funext fun a => Fin.ext ?_)
    match a with
    | ⟨0, _⟩ => show win3_3.index t (0 : Fin 1) * 32 + 1 * (y 0).val = (y 0).val; omega
  have hb4 : iblk3 V c 4 t = V c main_arg11 := by
    funext y
    show V c main_arg11 (((cfg3.win 4).blk t).view.emb y) = V c main_arg11 y
    refine congrArg (V c main_arg11) (funext fun a => Fin.ext ?_)
    match a with
    | ⟨0, _⟩ => show win3_4.index t (0 : Fin 2) * 32 + 1 * (y 0).val = (y 0).val; omega
    | ⟨1, _⟩ => show win3_4.index t (1 : Fin 2) * 40 + 1 * (y 1).val = (y 1).val; omega
  have hb5 : iblk3 V c 5 t = V c main_arg12 := by
    funext y
    show V c main_arg12 (((cfg3.win 5).blk t).view.emb y) = V c main_arg12 y
    refine congrArg (V c main_arg12) (funext fun a => Fin.ext ?_)
    match a with
    | ⟨0, _⟩ => show win3_5.index t (0 : Fin 1) * 40 + 1 * (y 0).val = (y 0).val; omega
  funext j
  obtain ⟨r, q, rfl⟩ : ∃ (r : Fin 10000) (q : Fin 40), j = ix2 r q := ⟨j 0, j 1, eq_ix2 j⟩
  show k3_pay1 (iblk3 V c 0 t) (iblk3 V c 1 t) (iblk3 V c 2 t) (iblk3 V c 3 t) (iblk3 V c 4 t) (iblk3 V c 5 t) (ix2 r q) = (rows (head (V c main_arg8) (V c main_arg9) (V c main_arg10) (V c main_arg11) (V c main_arg12)) (V c main_v71)) (((cfg3.win 6).blk t).view.emb (ix2 r q))
  refine (Rows.stage3_at (iblk3 V c 0 t) (iblk3 V c 1 t) (iblk3 V c 2 t) (iblk3 V c 3 t) (iblk3 V c 4 t) (iblk3 V c 5 t) r q).trans ?_
  rw [hb1, hb2, hb3, hb4, hb5]
  have hq : (((cfg3.win 6).blk t).view.emb (ix2 r q)) 1 = q :=
    Fin.ext (by show win3_6.index t (1 : Fin 2) * 40 + 1 * q.val = q.val; omega)
  have hx : (fun k => iblk3 V c 0 t (ix2 r k)) = fun k => V c main_v71 (ix2 ((((cfg3.win 6).blk t).view.emb (ix2 r q)) 0) k) := by
    funext k
    show V c main_v71 (((cfg3.win 0).blk t).view.emb (ix2 r k)) = _
    refine congrArg (V c main_v71) (funext fun a => Fin.ext ?_)
    match a with
    | ⟨0, _⟩ => show win3_0.index t (0 : Fin 2) * 10000 + 1 * r.val = win3_6.index t (0 : Fin 2) * 10000 + 1 * r.val; omega
    | ⟨1, _⟩ => show win3_0.index t (1 : Fin 2) * 64 + 1 * k.val = k.val; omega
  exact congr (congrArg (head (V c main_arg8) (V c main_arg9) (V c main_arg10) (V c main_arg11) (V c main_arg12)) hx) hq.symm

/-- An index of the result is in point `t`'s block iff each coordinate is in the block's range on its axis. -/
theorem mem_blk (t : Fin cfg3.N) (i : S100000x40.Idx) :
    i ∈ ((cfg3.win 6).blk t).view.set ↔ ∀ a : Fin 2, win3_6.index t a * S10000x40.size a ≤ (i a).val ∧ (i a).val < win3_6.index t a * S10000x40.size a + S10000x40.size a := by
  show i ∈ ((View.whole main_v72).slice (win3_6.rect t)).set ↔ _
  rw [View.set_slice_whole, Rect.mem_set_unit]
  exact Iff.rfl

/-- The ten blocks tile the result: row `R` lies in the block of point `R / 10000`. -/
theorem cover (i : S100000x40.Idx) :
    ∃ t : Fin cfg3.N, (cfg3.win 6).flush t = true ∧ i ∈ ((cfg3.win 6).blk t).view.set := by
  have hi0 : (i 0).val < 100000 := (i 0).isLt
  have hi1 : (i 1).val < 40 := (i 1).isLt
  obtain ⟨t, ht⟩ := idx_onto ⟨(i 0).val / 10000, by omega⟩
  have q0 : win3_6.index t (0 : Fin 2) = (i 0).val / 10000 := congrFun ht 0
  have q1 : win3_6.index t (1 : Fin 2) = 0 := congrFun ht 1
  refine ⟨t, flush3_6 t, ?_⟩
  rw [mem_blk]
  intro a
  match a with
  | ⟨0, _⟩ => show win3_6.index t (0 : Fin 2) * 10000 ≤ (i 0).val ∧ (i 0).val < win3_6.index t (0 : Fin 2) * 10000 + 10000; omega
  | ⟨1, _⟩ => show win3_6.index t (1 : Fin 2) * 40 ≤ (i 1).val ∧ (i 1).val < win3_6.index t (1 : Fin 2) * 40 + 40; omega

/-- The result array after the stage. -/
theorem final (c : Dev nD) : (dat3 V c).arrAt 6 cfg3.N = rows (head (V c main_arg8) (V c main_arg9) (V c main_arg10) (V c main_arg11) (V c main_arg12)) (V c main_v71) :=
  (dat3 V c).arrAt_eq_of_cover 6 _ (fun t _ => flushed_eq V c t) cover

end Cert.KernelIdeal.Blocks3

end
-- ==== Proof.KernelKeep.lean ====
/-
  What the idealized kernel's stretches of host operations leave alone.

  A stretch of host operations writes only the buffers of its own results.  So an argument array, and the edge lists and edge
  weights computed once at the start, hold after a later stretch what they held before it.
-/
import proofs.«107386_j38878043964109_1_alg».proof.Proof.Gen.KernelIdeal.Launch
import Idealize.ShloMosaic.Lib.StableHlo.Run
import Idealize.ShloMosaic.PureOps.Ideal

set_option maxRecDepth 65536

noncomputable section

namespace Cert.KernelIdeal.Keep

open Cert.KernelIdeal Cert.KernelIdeal.Gen Idealize.ShloMosaic Idealize.ShloMosaic.TcCoe Idealize.SL.Sem Idealize.ShloMosaic.StableHlo

variable (Wv : Valuation τ sig (Elt Ideal))

theorem keep_0_main_arg0 : StableHlo.after (hostOps0 (F := Ideal)) Wv (Proc.devRef .tc main_arg0) = Wv (Proc.devRef .tc main_arg0) := by
  dsimp only [hostOps0]; after_results_simp
theorem keep_0_1_main_arg0 : StableHlo.after (hostOps0_1 (F := Ideal)) Wv (Proc.devRef .tc main_arg0) = Wv (Proc.devRef .tc main_arg0) := by
  dsimp only [hostOps0_1]; after_results_simp
theorem keep_0_2_main_arg0 : StableHlo.after (hostOps0_2 (F := Ideal)) Wv (Proc.devRef .tc main_arg0) = Wv (Proc.devRef .tc main_arg0) := by
  dsimp only [hostOps0_2]; after_results_simp
theorem keep_0_main_arg3 : StableHlo.after (hostOps0 (F := Ideal)) Wv (Proc.devRef .tc main_arg3) = Wv (Proc.devRef .tc main_arg3) := by
  dsimp only [hostOps0]; after_results_simp
theorem keep_0_1_main_arg3 : StableHlo.after (hostOps0_1 (F := Ideal)) Wv (Proc.devRef .tc main_arg3) = Wv (Proc.devRef .tc main_arg3) := by
  dsimp only [hostOps0_1]; after_results_simp
theorem keep_0_2_main_arg3 : StableHlo.after (hostOps0_2 (F := Ideal)) Wv (Proc.devRef .tc main_arg3) = Wv (Proc.devRef .tc main_arg3) := by
  dsimp only [hostOps0_2]; after_results_simp
theorem keep_0_main_arg4 : StableHlo.after (hostOps0 (F := Ideal)) Wv (Proc.devRef .tc main_arg4) = Wv (Proc.devRef .tc main_arg4) := by
  dsimp only [hostOps0]; after_results_simp
theorem keep_0_1_main_arg4 : StableHlo.after (hostOps0_1 (F := Ideal)) Wv (Proc.devRef .tc main_arg4) = Wv (Proc.devRef .tc main_arg4) := by
  dsimp only [hostOps0_1]; after_results_simp
theorem keep_0_2_main_arg4 : StableHlo.after (hostOps0_2 (F := Ideal)) Wv (Proc.devRef .tc main_arg4) = Wv (Proc.devRef .tc main_arg4) := by
  dsimp only [hostOps0_2]; after_results_simp
theorem keep_1_main_arg4 : StableHlo.after (hostOps1 (F := Ideal)) Wv (Proc.devRef .tc main_arg4) = Wv (Proc.devRef .tc main_arg4) := by
  dsimp only [hostOps1]; after_results_simp
theorem keep_0_main_arg5 : StableHlo.after (hostOps0 (F := Ideal)) Wv (Proc.devRef .tc main_arg5) = Wv (Proc.devRef .tc main_arg5) := by
  dsimp only [hostOps0]; after_results_simp
theorem keep_0_1_main_arg5 : StableHlo.after (hostOps0_1 (F := Ideal)) Wv (Proc.devRef .tc main_arg5) = Wv (Proc.devRef .tc main_arg5) := by
  dsimp only [hostOps0_1]; after_results_simp
theorem keep_0_2_main_arg5 : StableHlo.after (hostOps0_2 (F := Ideal)) Wv (Proc.devRef .tc main_arg5) = Wv (Proc.devRef .tc main_arg5) := by
  dsimp only [hostOps0_2]; after_results_simp
theorem keep_1_main_arg5 : StableHlo.after (hostOps1 (F := Ideal)) Wv (Proc.devRef .tc main_arg5) = Wv (Proc.devRef .tc main_arg5) := by
  dsimp only [hostOps1]; after_results_simp
theorem keep_0_main_arg6 : StableHlo.after (hostOps0 (F := Ideal)) Wv (Proc.devRef .tc main_arg6) = Wv (Proc.devRef .tc main_arg6) := by
  dsimp only [hostOps0]; after_results_simp
theorem keep_0_1_main_arg6 : StableHlo.after (hostOps0_1 (F := Ideal)) Wv (Proc.devRef .tc main_arg6) = Wv (Proc.devRef .tc main_arg6) := by
  dsimp only [hostOps0_1]; after_results_simp
theorem keep_0_2_main_arg6 : StableHlo.after (hostOps0_2 (F := Ideal)) Wv (Proc.devRef .tc main_arg6) = Wv (Proc.devRef .tc main_arg6) := by
  dsimp only [hostOps0_2]; after_results_simp
theorem keep_1_main_arg6 : StableHlo.after (hostOps1 (F := Ideal)) Wv (Proc.devRef .tc main_arg6) = Wv (Proc.devRef .tc main_arg6) := by
  dsimp only [hostOps1]; after_results_simp
theorem keep_2_main_arg6 : StableHlo.after (hostOps2 (F := Ideal)) Wv (Proc.devRef .tc main_arg6) = Wv (Proc.devRef .tc main_arg6) := by
  dsimp only [hostOps2]; after_results_simp
theorem keep_0_main_arg7 : StableHlo.after (hostOps0 (F := Ideal)) Wv (Proc.devRef .tc main_arg7) = Wv (Proc.devRef .tc main_arg7) := by
  dsimp only [hostOps0]; after_results_simp
theorem keep_0_1_main_arg7 : StableHlo.after (hostOps0_1 (F := Ideal)) Wv (Proc.devRef .tc main_arg7) = Wv (Proc.devRef .tc main_arg7) := by
  dsimp only [hostOps0_1]; after_results_simp
theorem keep_0_2_main_arg7 : StableHlo.after (hostOps0_2 (F := Ideal)) Wv (Proc.devRef .tc main_arg7) = Wv (Proc.devRef .tc main_arg7) := by
  dsimp only [hostOps0_2]; after_results_simp
theorem keep_1_main_arg7 : StableHlo.after (hostOps1 (F := Ideal)) Wv (Proc.devRef .tc main_arg7) = Wv (Proc.devRef .tc main_arg7) := by
  dsimp only [hostOps1]; after_results_simp
theorem keep_2_main_arg7 : StableHlo.after (hostOps2 (F := Ideal)) Wv (Proc.devRef .tc main_arg7) = Wv (Proc.devRef .tc main_arg7) := by
  dsimp only [hostOps2]; after_results_simp
theorem keep_0_main_arg8 : StableHlo.after (hostOps0 (F := Ideal)) Wv (Proc.devRef .tc main_arg8) = Wv (Proc.devRef .tc main_arg8) := by
  dsimp only [hostOps0]; after_results_simp
theorem keep_0_1_main_arg8 : StableHlo.after (hostOps0_1 (F := Ideal)) Wv (Proc.devRef .tc main_arg8) = Wv (Proc.devRef .tc main_arg8) := by
  dsimp only [hostOps0_1]; after_results_simp
theorem keep_0_2_main_arg8 : StableHlo.after (hostOps0_2 (F := Ideal)) Wv (Proc.devRef .tc main_arg8) = Wv (Proc.devRef .tc main_arg8) := by
  dsimp only [hostOps0_2]; after_results_simp
theorem keep_1_main_arg8 : StableHlo.after (hostOps1 (F := Ideal)) Wv (Proc.devRef .tc main_arg8) = Wv (Proc.devRef .tc main_arg8) := by
  dsimp only [hostOps1]; after_results_simp
theorem keep_2_main_arg8 : StableHlo.after (hostOps2 (F := Ideal)) Wv (Proc.devRef .tc main_arg8) = Wv (Proc.devRef .tc main_arg8) := by
  dsimp only [hostOps2]; after_results_simp
theorem keep_3_main_arg8 : StableHlo.after (hostOps3 (F := Ideal)) Wv (Proc.devRef .tc main_arg8) = Wv (Proc.devRef .tc main_arg8) := by
  dsimp only [hostOps3]; after_results_simp
theorem keep_0_main_arg9 : StableHlo.after (hostOps0 (F := Ideal)) Wv (Proc.devRef .tc main_arg9) = Wv (Proc.devRef .tc main_arg9) := by
  dsimp only [hostOps0]; after_results_simp
theorem keep_0_1_main_arg9 : StableHlo.after (hostOps0_1 (F := Ideal)) Wv (Proc.devRef .tc main_arg9) = Wv (Proc.devRef .tc main_arg9) := by
  dsimp only [hostOps0_1]; after_results_simp
theorem keep_0_2_main_arg9 : StableHlo.after (hostOps0_2 (F := Ideal)) Wv (Proc.devRef .tc main_arg9) = Wv (Proc.devRef .tc main_arg9) := by
  dsimp only [hostOps0_2]; after_results_simp
theorem keep_1_main_arg9 : StableHlo.after (hostOps1 (F := Ideal)) Wv (Proc.devRef .tc main_arg9) = Wv (Proc.devRef .tc main_arg9) := by
  dsimp only [hostOps1]; after_results_simp
theorem keep_2_main_arg9 : StableHlo.after (hostOps2 (F := Ideal)) Wv (Proc.devRef .tc main_arg9) = Wv (Proc.devRef .tc main_arg9) := by
  dsimp only [hostOps2]; after_results_simp
theorem keep_3_main_arg9 : StableHlo.after (hostOps3 (F := Ideal)) Wv (Proc.devRef .tc main_arg9) = Wv (Proc.devRef .tc main_arg9) := by
  dsimp only [hostOps3]; after_results_simp
theorem keep_0_main_arg10 : StableHlo.after (hostOps0 (F := Ideal)) Wv (Proc.devRef .tc main_arg10) = Wv (Proc.devRef .tc main_arg10) := by
  dsimp only [hostOps0]; after_results_simp
theorem keep_0_1_main_arg10 : StableHlo.after (hostOps0_1 (F := Ideal)) Wv (Proc.devRef .tc main_arg10) = Wv (Proc.devRef .tc main_arg10) := by
  dsimp only [hostOps0_1]; after_results_simp
theorem keep_0_2_main_arg10 : StableHlo.after (hostOps0_2 (F := Ideal)) Wv (Proc.devRef .tc main_arg10) = Wv (Proc.devRef .tc main_arg10) := by
  dsimp only [hostOps0_2]; after_results_simp
theorem keep_1_main_arg10 : StableHlo.after (hostOps1 (F := Ideal)) Wv (Proc.devRef .tc main_arg10) = Wv (Proc.devRef .tc main_arg10) := by
  dsimp only [hostOps1]; after_results_simp
theorem keep_2_main_arg10 : StableHlo.after (hostOps2 (F := Ideal)) Wv (Proc.devRef .tc main_arg10) = Wv (Proc.devRef .tc main_arg10) := by
  dsimp only [hostOps2]; after_results_simp
theorem keep_3_main_arg10 : StableHlo.after (hostOps3 (F := Ideal)) Wv (Proc.devRef .tc main_arg10) = Wv (Proc.devRef .tc main_arg10) := by
  dsimp only [hostOps3]; after_results_simp
theorem keep_0_main_arg11 : StableHlo.after (hostOps0 (F := Ideal)) Wv (Proc.devRef .tc main_arg11) = Wv (Proc.devRef .tc main_arg11) := by
  dsimp only [hostOps0]; after_results_simp
theorem keep_0_1_main_arg11 : StableHlo.after (hostOps0_1 (F := Ideal)) Wv (Proc.devRef .tc main_arg11) = Wv (Proc.devRef .tc main_arg11) := by
  dsimp only [hostOps0_1]; after_results_simp
theorem keep_0_2_main_arg11 : StableHlo.after (hostOps0_2 (F := Ideal)) Wv (Proc.devRef .tc main_arg11) = Wv (Proc.devRef .tc main_arg11) := by
  dsimp only [hostOps0_2]; after_results_simp
theorem keep_1_main_arg11 : StableHlo.after (hostOps1 (F := Ideal)) Wv (Proc.devRef .tc main_arg11) = Wv (Proc.devRef .tc main_arg11) := by
  dsimp only [hostOps1]; after_results_simp
theorem keep_2_main_arg11 : StableHlo.after (hostOps2 (F := Ideal)) Wv (Proc.devRef .tc main_arg11) = Wv (Proc.devRef .tc main_arg11) := by
  dsimp only [hostOps2]; after_results_simp
theorem keep_3_main_arg11 : StableHlo.after (hostOps3 (F := Ideal)) Wv (Proc.devRef .tc main_arg11) = Wv (Proc.devRef .tc main_arg11) := by
  dsimp only [hostOps3]; after_results_simp
theorem keep_0_main_arg12 : StableHlo.after (hostOps0 (F := Ideal)) Wv (Proc.devRef .tc main_arg12) = Wv (Proc.devRef .tc main_arg12) := by
  dsimp only [hostOps0]; after_results_simp
theorem keep_0_1_main_arg12 : StableHlo.after (hostOps0_1 (F := Ideal)) Wv (Proc.devRef .tc main_arg12) = Wv (Proc.devRef .tc main_arg12) := by
  dsimp only [hostOps0_1]; after_results_simp
theorem keep_0_2_main_arg12 : StableHlo.after (hostOps0_2 (F := Ideal)) Wv (Proc.devRef .tc main_arg12) = Wv (Proc.devRef .tc main_arg12) := by
  dsimp only [hostOps0_2]; after_results_simp
theorem keep_1_main_arg12 : StableHlo.after (hostOps1 (F := Ideal)) Wv (Proc.devRef .tc main_arg12) = Wv (Proc.devRef .tc main_arg12) := by
  dsimp only [hostOps1]; after_results_simp
theorem keep_2_main_arg12 : StableHlo.after (hostOps2 (F := Ideal)) Wv (Proc.devRef .tc main_arg12) = Wv (Proc.devRef .tc main_arg12) := by
  dsimp only [hostOps2]; after_results_simp
theorem keep_3_main_arg12 : StableHlo.after (hostOps3 (F := Ideal)) Wv (Proc.devRef .tc main_arg12) = Wv (Proc.devRef .tc main_arg12) := by
  dsimp only [hostOps3]; after_results_simp
theorem keep_0_1_main_v5 : StableHlo.after (hostOps0_1 (F := Ideal)) Wv (Proc.devRef .tc main_v5) = Wv (Proc.devRef .tc main_v5) := by
  dsimp only [hostOps0_1]; after_results_simp
theorem keep_0_2_main_v5 : StableHlo.after (hostOps0_2 (F := Ideal)) Wv (Proc.devRef .tc main_v5) = Wv (Proc.devRef .tc main_v5) := by
  dsimp only [hostOps0_2]; after_results_simp
theorem keep_1_main_v5 : StableHlo.after (hostOps1 (F := Ideal)) Wv (Proc.devRef .tc main_v5) = Wv (Proc.devRef .tc main_v5) := by
  dsimp only [hostOps1]; after_results_simp
theorem keep_2_main_v5 : StableHlo.after (hostOps2 (F := Ideal)) Wv (Proc.devRef .tc main_v5) = Wv (Proc.devRef .tc main_v5) := by
  dsimp only [hostOps2]; after_results_simp
theorem keep_0_1_main_v6 : StableHlo.after (hostOps0_1 (F := Ideal)) Wv (Proc.devRef .tc main_v6) = Wv (Proc.devRef .tc main_v6) := by
  dsimp only [hostOps0_1]; after_results_simp
theorem keep_0_2_main_v6 : StableHlo.after (hostOps0_2 (F := Ideal)) Wv (Proc.devRef .tc main_v6) = Wv (Proc.devRef .tc main_v6) := by
  dsimp only [hostOps0_2]; after_results_simp
theorem keep_1_main_v6 : StableHlo.after (hostOps1 (F := Ideal)) Wv (Proc.devRef .tc main_v6) = Wv (Proc.devRef .tc main_v6) := by
  dsimp only [hostOps1]; after_results_simp
theorem keep_2_main_v6 : StableHlo.after (hostOps2 (F := Ideal)) Wv (Proc.devRef .tc main_v6) = Wv (Proc.devRef .tc main_v6) := by
  dsimp only [hostOps2]; after_results_simp
theorem keep_1_main_v29 : StableHlo.after (hostOps1 (F := Ideal)) Wv (Proc.devRef .tc main_v29) = Wv (Proc.devRef .tc main_v29) := by
  dsimp only [hostOps1]; after_results_simp
theorem keep_2_main_v29 : StableHlo.after (hostOps2 (F := Ideal)) Wv (Proc.devRef .tc main_v29) = Wv (Proc.devRef .tc main_v29) := by
  dsimp only [hostOps2]; after_results_simp

end Cert.KernelIdeal.Keep

end
-- ==== Proof.KernelHost.lean ====
/-
  What the idealized kernel's stretches of host operations compute.

  The first stretches build, from the edge input, the source list and the destination list with self-loops appended and the
  edge weights: by the same operations as the reference, so they are the reference's own stage functions of the edge input.
  Each later stretch is one aggregation step `aggOf` of the matrix the stage before it left, with those lists and weights.
-/
import proofs.«107386_j38878043964109_1_alg».proof.Proof.Gen.KernelIdeal.Launch
import proofs.«107386_j38878043964109_1_alg».proof.Proof.RefAgg
import Idealize.ShloMosaic.Lib.StableHlo.Run

set_option maxRecDepth 65536

noncomputable section

namespace Cert.KernelIdeal.HostSide

open Cert.KernelIdeal Cert.KernelIdeal.Gen Idealize.ShloMosaic Idealize.ShloMosaic.TcCoe Idealize.SL.Sem Idealize.ShloMosaic.StableHlo
open Cert.ReferenceIdeal.Agg (aggOf Mat EdgeIdx EdgeW)

variable (Wv : Valuation τ sig (Elt Ideal))

/-- The source list with self-loops appended. -/
theorem prep_src : (StableHlo.after (hostOps0 (F := Ideal)) Wv (Proc.devRef .tc main_v5) : EdgeIdx)
    = Cert.ReferenceIdeal.ReadP.val_main_v6 (F := Ideal) (Wv (Proc.devRef .tc main_arg1)) := by
  dsimp only [hostOps0]; after_results_simp; rfl

/-- The destination list with self-loops appended. -/
theorem prep_dst : (StableHlo.after (hostOps0 (F := Ideal)) Wv (Proc.devRef .tc main_v6) : EdgeIdx)
    = Cert.ReferenceIdeal.ReadP.val_main_v7 (F := Ideal) (Wv (Proc.devRef .tc main_arg1)) := by
  dsimp only [hostOps0]; after_results_simp; rfl

/-- Which nodes have a positive degree, and the inverse square root of every degree (the degree is a scatter-add of ones at
    the destination list). -/
theorem prep_pos : (StableHlo.after (hostOps0 (F := Ideal)) Wv (Proc.devRef .tc main_v12) : (⟨Cert.ReferenceIdeal.S100000, .i1⟩ : BufTy).Contents (Elt Ideal))
    = Cert.ReferenceIdeal.ReadP.val_main_v13 (F := Ideal) (Wv (Proc.devRef .tc main_arg1)) := by
  dsimp only [hostOps0]; after_results; rfl

theorem prep_rsqrt : (StableHlo.after (hostOps0 (F := Ideal)) Wv (Proc.devRef .tc main_v13) : (⟨Cert.ReferenceIdeal.S100000, .f32⟩ : BufTy).Contents (Elt Ideal))
    = Cert.ReferenceIdeal.ReadP.val_main_v14 (F := Ideal) (Wv (Proc.devRef .tc main_arg1)) := by
  dsimp only [hostOps0]; after_results; rfl

theorem prep_zero : (StableHlo.after (hostOps0 (F := Ideal)) Wv (Proc.devRef .tc main_cst_2) : (⟨Cert.ReferenceIdeal.S_, .f32⟩ : BufTy).Contents (Elt Ideal))
    = Cert.ReferenceIdeal.ReadP.val_main_cst_2 (F := Ideal) := by
  dsimp only [hostOps0]; after_results; rfl

/-! The three operations of the `where` the program calls read and write their buffers through a change of name between "contents
    of this buffer" and "contents of an array of this shape and element type": the identity, buffer by buffer. -/
theorem toBuf_main_cst_2 (p1 : main_cst_2.ty = ⟨S_, .f32⟩) (p2 : main_cst_2.space ≠ .host) (p3 : main_cst_2.isScoped = false)
    (v : (⟨S_, .f32⟩ : BufTy).Contents (Elt Ideal)) : (TRef.of main_cst_2 p1 p2 p3).toBuf v = v := rfl
theorem ofBuf_main_cst_2 (p1 : main_cst_2.ty = ⟨S_, .f32⟩) (p2 : main_cst_2.space ≠ .host) (p3 : main_cst_2.isScoped = false)
    (v : main_cst_2.ty.Contents (Elt Ideal)) : (TRef.of main_cst_2 p1 p2 p3).ofBuf v = v := rfl
theorem toBuf_main_call0_v0 (p1 : main_call0_v0.ty = ⟨S_, .f32⟩) (p2 : main_call0_v0.space ≠ .host) (p3 : main_call0_v0.isScoped = false)
    (v : (⟨S_, .f32⟩ : BufTy).Contents (Elt Ideal)) : (TRef.of main_call0_v0 p1 p2 p3).toBuf v = v := rfl
theorem ofBuf_main_call0_v0 (p1 : main_call0_v0.ty = ⟨S_, .f32⟩) (p2 : main_call0_v0.space ≠ .host) (p3 : main_call0_v0.isScoped = false)
    (v : main_call0_v0.ty.Contents (Elt Ideal)) : (TRef.of main_call0_v0 p1 p2 p3).ofBuf v = v := rfl
theorem toBuf_main_call0_v1 (p1 : main_call0_v1.ty = ⟨S100000, .f32⟩) (p2 : main_call0_v1.space ≠ .host) (p3 : main_call0_v1.isScoped = false)
    (v : (⟨S100000, .f32⟩ : BufTy).Contents (Elt Ideal)) : (TRef.of main_call0_v1 p1 p2 p3).toBuf v = v := rfl
theorem ofBuf_main_call0_v1 (p1 : main_call0_v1.ty = ⟨S100000, .f32⟩) (p2 : main_call0_v1.space ≠ .host) (p3 : main_call0_v1.isScoped = false)
    (v : main_call0_v1.ty.Contents (Elt Ideal)) : (TRef.of main_call0_v1 p1 p2 p3).ofBuf v = v := rfl
theorem toBuf_main_v12 (p1 : main_v12.ty = ⟨S100000, .i1⟩) (p2 : main_v12.space ≠ .host) (p3 : main_v12.isScoped = false)
    (v : (⟨S100000, .i1⟩ : BufTy).Contents (Elt Ideal)) : (TRef.of main_v12 p1 p2 p3).toBuf v = v := rfl
theorem ofBuf_main_v12 (p1 : main_v12.ty = ⟨S100000, .i1⟩) (p2 : main_v12.space ≠ .host) (p3 : main_v12.isScoped = false)
    (v : main_v12.ty.Contents (Elt Ideal)) : (TRef.of main_v12 p1 p2 p3).ofBuf v = v := rfl
theorem toBuf_main_v13 (p1 : main_v13.ty = ⟨S100000, .f32⟩) (p2 : main_v13.space ≠ .host) (p3 : main_v13.isScoped = false)
    (v : (⟨S100000, .f32⟩ : BufTy).Contents (Elt Ideal)) : (TRef.of main_v13 p1 p2 p3).toBuf v = v := rfl
theorem ofBuf_main_v13 (p1 : main_v13.ty = ⟨S100000, .f32⟩) (p2 : main_v13.space ≠ .host) (p3 : main_v13.isScoped = false)
    (v : main_v13.ty.Contents (Elt Ideal)) : (TRef.of main_v13 p1 p2 p3).ofBuf v = v := rfl
theorem toBuf_main_v14 (p1 : main_v14.ty = ⟨S100000, .f32⟩) (p2 : main_v14.space ≠ .host) (p3 : main_v14.isScoped = false)
    (v : (⟨S100000, .f32⟩ : BufTy).Contents (Elt Ideal)) : (TRef.of main_v14 p1 p2 p3).toBuf v = v := rfl
theorem ofBuf_main_v14 (p1 : main_v14.ty = ⟨S100000, .f32⟩) (p2 : main_v14.space ≠ .host) (p3 : main_v14.isScoped = false)
    (v : main_v14.ty.Contents (Elt Ideal)) : (TRef.of main_v14 p1 p2 p3).ofBuf v = v := rfl

/-- The inverse square root of the degree where the degree is positive, zero elsewhere. -/
theorem prep_dinv (x1 : (⟨Cert.ReferenceIdeal.S2x1600000, .i32⟩ : BufTy).Contents (Elt Ideal))
    (h12 : (Wv (Proc.devRef .tc main_v12) : (⟨Cert.ReferenceIdeal.S100000, .i1⟩ : BufTy).Contents (Elt Ideal)) = Cert.ReferenceIdeal.ReadP.val_main_v13 (F := Ideal) x1)
    (h13 : (Wv (Proc.devRef .tc main_v13) : (⟨Cert.ReferenceIdeal.S100000, .f32⟩ : BufTy).Contents (Elt Ideal)) = Cert.ReferenceIdeal.ReadP.val_main_v14 (F := Ideal) x1)
    (hc : (Wv (Proc.devRef .tc main_cst_2) : (⟨Cert.ReferenceIdeal.S_, .f32⟩ : BufTy).Contents (Elt Ideal)) = Cert.ReferenceIdeal.ReadP.val_main_cst_2 (F := Ideal)) :
    (StableHlo.after (hostOps0_1 (F := Ideal)) Wv (Proc.devRef .tc main_v14) : (⟨Cert.ReferenceIdeal.S100000, .f32⟩ : BufTy).Contents (Elt Ideal))
      = Cert.ReferenceIdeal.ReadP.val_main_v15 (F := Ideal) x1 := by
  dsimp only [hostOps0_1]; after_results_simp
  simp only [toBuf_main_cst_2, ofBuf_main_cst_2, toBuf_main_call0_v0, ofBuf_main_call0_v0, toBuf_main_call0_v1, ofBuf_main_call0_v1, toBuf_main_v12, ofBuf_main_v12, toBuf_main_v13, ofBuf_main_v13, toBuf_main_v14, ofBuf_main_v14]
  rw [h12, h13, hc]
  rfl

/-- The edge weights: the product of the inverse square roots of the two end nodes' degrees. -/
theorem prep_wgt (x1 : (⟨Cert.ReferenceIdeal.S2x1600000, .i32⟩ : BufTy).Contents (Elt Ideal))
    (h14 : (Wv (Proc.devRef .tc main_v14) : (⟨Cert.ReferenceIdeal.S100000, .f32⟩ : BufTy).Contents (Elt Ideal)) = Cert.ReferenceIdeal.ReadP.val_main_v15 (F := Ideal) x1)
    (h5 : (Wv (Proc.devRef .tc main_v5) : EdgeIdx) = Cert.ReferenceIdeal.ReadP.val_main_v6 (F := Ideal) x1)
    (h6 : (Wv (Proc.devRef .tc main_v6) : EdgeIdx) = Cert.ReferenceIdeal.ReadP.val_main_v7 (F := Ideal) x1) :
    (StableHlo.after (hostOps0_2 (F := Ideal)) Wv (Proc.devRef .tc main_v29) : EdgeW) = Cert.ReferenceIdeal.ReadP.val_main_v30 (F := Ideal) x1 := by
  dsimp only [hostOps0_2]; after_results_simp
  rw [h14, h5, h6]
  rfl

/-- The three aggregation stretches. -/
theorem agg1 : (StableHlo.after (hostOps1 (F := Ideal)) Wv (Proc.devRef .tc main_v43) : Mat)
    = aggOf (Wv (Proc.devRef .tc main_v30)) (Wv (Proc.devRef .tc main_v5)) (Wv (Proc.devRef .tc main_v6)) (Wv (Proc.devRef .tc main_v29)) := by
  dsimp only [hostOps1]; after_results_simp; rfl

theorem agg2 : (StableHlo.after (hostOps2 (F := Ideal)) Wv (Proc.devRef .tc main_v57) : Mat)
    = aggOf (Wv (Proc.devRef .tc main_v44)) (Wv (Proc.devRef .tc main_v5)) (Wv (Proc.devRef .tc main_v6)) (Wv (Proc.devRef .tc main_v29)) := by
  dsimp only [hostOps2]; after_results_simp; rfl

theorem agg3 : (StableHlo.after (hostOps3 (F := Ideal)) Wv (Proc.devRef .tc main_v71) : Mat)
    = aggOf (Wv (Proc.devRef .tc main_v58)) (Wv (Proc.devRef .tc main_v5)) (Wv (Proc.devRef .tc main_v6)) (Wv (Proc.devRef .tc main_v29)) := by
  dsimp only [hostOps3]; after_results_simp; rfl

end Cert.KernelIdeal.HostSide

end
-- ==== Proof.RefRowsA.lean ====
/-
  The reference's three graph-convolution dense stages, row by row: the host's matrix product is the plain sum of products, and
  each stage is the specification's row function (a dense layer; or bias, rectifier, dense layer of the aggregate before it)
  applied to every row.
-/
import proofs.«107386_j38878043964109_1_alg».proof.Proof.RefReadP
import proofs.«107386_j38878043964109_1_alg».proof.Proof.Spec
import proofs.«107386_j38878043964109_1_alg».proof.Proof.LibDot
import proofs.«107386_j38878043964109_1_alg».proof.Proof.LibRows
import Idealize.ShloMosaic.Lib.ValueIdx
import Idealize.ShloMosaic.PureOps.Ideal.Laws
import Idealize.ShloMosaic.PureOps.Reduce

noncomputable section

namespace Cert.ReferenceIdeal.Rows

open Cert.ReferenceIdeal Cert.ReferenceIdeal.Gen Cert.ReferenceIdeal.ReadP Idealize.ShloMosaic Idealize.ShloMosaic.ValueIdx Cert.Spec Cert.LibRows

/-! ## The host's matrix products are plain rows-by-columns products -/

theorem plain_64_64 : LibDot.Plain dot_S100000x64_S64x64_S100000x64_1_0_0_1_n_n where
  hrank := rfl
  hs := rfl
  hl0 := fun j k => by
    unfold DotDims.lhsIdx
    rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
    rfl
  hl1 := fun j k => dot_S100000x64_S64x64_S100000x64_1_0_0_1_n_n.lhsIdx_val_of_single rfl j k
  hr0 := fun j k => dot_S100000x64_S64x64_S100000x64_1_0_0_1_n_n.rhsIdx_val_of_single rfl j k
  hr1 := fun j k => by
    unfold DotDims.rhsIdx
    rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
    rfl

theorem plain_64_32 : LibDot.Plain dot_S100000x64_S64x32_S100000x32_1_0_0_1_n_n where
  hrank := rfl
  hs := rfl
  hl0 := fun j k => by
    unfold DotDims.lhsIdx
    rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
    rfl
  hl1 := fun j k => dot_S100000x64_S64x32_S100000x32_1_0_0_1_n_n.lhsIdx_val_of_single rfl j k
  hr0 := fun j k => dot_S100000x64_S64x32_S100000x32_1_0_0_1_n_n.rhsIdx_val_of_single rfl j k
  hr1 := fun j k => by
    unfold DotDims.rhsIdx
    rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
    rfl

theorem plain_32_40 : LibDot.Plain dot_S100000x32_S32x40_S100000x40_1_0_0_1_n_n where
  hrank := rfl
  hs := rfl
  hl0 := fun j k => by
    unfold DotDims.lhsIdx
    rw [dif_neg (show ¬(0 : Fin S100000x32.rank) ∈ dot_S100000x32_S32x40_S100000x40_1_0_0_1_n_n.lhsBatch by decide), dif_pos (show (0 : Fin S100000x32.rank) ∈ dot_S100000x32_S32x40_S100000x40_1_0_0_1_n_n.lhsNonContracting by decide)]
    rfl
  hl1 := fun j k => dot_S100000x32_S32x40_S100000x40_1_0_0_1_n_n.lhsIdx_val_of_single rfl j k
  hr0 := fun j k => dot_S100000x32_S32x40_S100000x40_1_0_0_1_n_n.rhsIdx_val_of_single rfl j k
  hr1 := fun j k => by
    unfold DotDims.rhsIdx
    rw [dif_neg (show ¬(1 : Fin S32x40.rank) ∈ dot_S100000x32_S32x40_S100000x40_1_0_0_1_n_n.rhsBatch by decide), dif_pos (show (1 : Fin S32x40.rank) ∈ dot_S100000x32_S32x40_S100000x40_1_0_0_1_n_n.rhsNonContracting by decide)]
    rfl

/-! ## The first layer's dense stage -/

theorem v4_rows (x0 : (⟨S100000x64, .f32⟩ : BufTy).Contents (Elt Ideal)) (x3 : (⟨S64x64, .f32⟩ : BufTy).Contents (Elt Ideal)) :
    val_main_v4 (F := Ideal) x0 x3 = rows (layer0 x3) x0 := by
  funext i
  obtain ⟨R, c, rfl⟩ : ∃ (R : Fin 100000) (c : Fin 64), i = ix2 R c := ⟨i 0, i 1, eq_ix2 i⟩
  unfold val_main_v4
  refine (LibDot.dotGeneral_ix2 plain_64_64 none _ _ R c).trans ?_
  rfl

/-! ## The second layer's dense stage, over the first aggregate -/

/-- The first aggregate with its bias and the rectifier, read at (R, k). -/
theorem v47_at (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (R : Fin 100000) (k : Fin 64) :
    val_main_v47 (F := Ideal) x0 x1 x3 x4 (ix2 R k) = biasRelu x4 (fun k => val_main_v43 (F := Ideal) x0 x1 x3 (ix2 R k)) k := by
  rw [val_main_v47_apply, val_main_v46_apply, val_main_v45_apply, val_main_v44_apply, val_main_call1_v0_apply, val_main_call1_cst_apply]
  have e : idx_main_v44 (idx_main_v45 (ix2 R k)) = ix1 k := funext fun a => Fin.ext (by match a with | ⟨0, _⟩ => rfl)
  rw [e, Ideal.maximumf_def, Ideal.addf_def, Ideal.ofBits_def]
  unfold biasRelu
  rfl

theorem v48_rows (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) :
    val_main_v48 (F := Ideal) x0 x1 x3 x4 x5 = rows (layer1 x4 x5) (val_main_v43 (F := Ideal) x0 x1 x3) := by
  funext i
  obtain ⟨R, c, rfl⟩ : ∃ (R : Fin 100000) (c : Fin 64), i = ix2 R c := ⟨i 0, i 1, eq_ix2 i⟩
  unfold val_main_v48
  refine (LibDot.dotGeneral_ix2 plain_64_64 none _ _ R c).trans ?_
  show _ = ∑ k : Fin 64, biasRelu x4 (fun k => val_main_v43 (F := Ideal) x0 x1 x3 (ix2 R k)) k * x5 (ix2 k c)
  refine Finset.sum_congr rfl fun k _ => ?_
  exact congrArg (· * x5 (ix2 k c)) (v47_at x0 x1 x3 x4 R k)

/-! ## The third layer's dense stage, over the second aggregate -/

/-- The second aggregate with its bias and the rectifier, read at (R, k). -/
theorem v91_at (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (R : Fin 100000) (k : Fin 64) :
    val_main_v91 (F := Ideal) x0 x1 x3 x4 x5 x6 (ix2 R k) = biasRelu x6 (fun k => val_main_v87 (F := Ideal) x0 x1 x3 x4 x5 (ix2 R k)) k := by
  rw [val_main_v91_apply, val_main_v90_apply, val_main_v89_apply, val_main_v88_apply, val_main_call3_v0_apply, val_main_call3_cst_apply]
  have e : idx_main_v88 (idx_main_v89 (ix2 R k)) = ix1 k := funext fun a => Fin.ext (by match a with | ⟨0, _⟩ => rfl)
  rw [e, Ideal.maximumf_def, Ideal.addf_def, Ideal.ofBits_def]
  unfold biasRelu
  rfl

theorem v92_rows (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v92 (F := Ideal) x0 x1 x3 x4 x5 x6 x7 = rows (layer1 x6 x7) (val_main_v87 (F := Ideal) x0 x1 x3 x4 x5) := by
  funext i
  obtain ⟨R, c, rfl⟩ : ∃ (R : Fin 100000) (c : Fin 64), i = ix2 R c := ⟨i 0, i 1, eq_ix2 i⟩
  unfold val_main_v92
  refine (LibDot.dotGeneral_ix2 plain_64_64 none _ _ R c).trans ?_
  show _ = ∑ k : Fin 64, biasRelu x6 (fun k => val_main_v87 (F := Ideal) x0 x1 x3 x4 x5 (ix2 R k)) k * x7 (ix2 k c)
  refine Finset.sum_congr rfl fun k _ => ?_
  exact congrArg (· * x7 (ix2 k c)) (v91_at x0 x1 x3 x4 x5 x6 R k)

end Cert.ReferenceIdeal.Rows

end
-- ==== Proof.RefRowsB.lean ====
/-
  The reference's head before its log-softmax, read at an entry: bias and rectifier of the third aggregate, the 64→32 layer with
  its bias and rectifier, the 32→40 layer with its bias — the logits of a row as the specification's functions of that row.
-/
import proofs.«107386_j38878043964109_1_alg».proof.Proof.RefReadP
import proofs.«107386_j38878043964109_1_alg».proof.Proof.RefRowsA
import proofs.«107386_j38878043964109_1_alg».proof.Proof.Spec
import proofs.«107386_j38878043964109_1_alg».proof.Proof.LibDot
import proofs.«107386_j38878043964109_1_alg».proof.Proof.LibRows
import Idealize.ShloMosaic.Lib.ValueIdx
import Idealize.ShloMosaic.PureOps.Ideal.Laws
import Idealize.ShloMosaic.PureOps.Reduce

noncomputable section

namespace Cert.ReferenceIdeal.Rows

open Cert.ReferenceIdeal Cert.ReferenceIdeal.Gen Cert.ReferenceIdeal.ReadP Idealize.ShloMosaic Idealize.ShloMosaic.ValueIdx Cert.Spec Cert.LibRows

/-! ## The head, over the third aggregate -/

/-- The third aggregate with its bias and the rectifier, read at (R, k). -/
theorem v135_at (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (R : Fin 100000) (k : Fin 64) :
    val_main_v135 (F := Ideal) x0 x1 x3 x4 x5 x6 x7 x8 (ix2 R k) = biasRelu x8 (fun k => val_main_v131 (F := Ideal) x0 x1 x3 x4 x5 x6 x7 (ix2 R k)) k := by
  rw [val_main_v135_apply, val_main_v134_apply, val_main_v133_apply, val_main_v132_apply, val_main_call5_v0_apply, val_main_call5_cst_apply]
  have e : idx_main_v132 (idx_main_v133 (ix2 R k)) = ix1 k := funext fun a => Fin.ext (by match a with | ⟨0, _⟩ => rfl)
  rw [e, Ideal.maximumf_def, Ideal.addf_def, Ideal.ofBits_def]
  unfold biasRelu
  rfl

/-- The head's hidden layer before its bias, read at (R, j). -/
theorem v136_at (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (R : Fin 100000) (j : Fin 32) :
    val_main_v136 (F := Ideal) x0 x1 x3 x4 x5 x6 x7 x8 x9 (ix2 R j)
      = dense x9 (biasRelu x8 (fun k => val_main_v131 (F := Ideal) x0 x1 x3 x4 x5 x6 x7 (ix2 R k))) j := by
  unfold val_main_v136
  refine (LibDot.dotGeneral_ix2 plain_64_32 none _ _ R j).trans ?_
  show _ = ∑ k : Fin 64, biasRelu x8 (fun k => val_main_v131 (F := Ideal) x0 x1 x3 x4 x5 x6 x7 (ix2 R k)) k * x9 (ix2 k j)
  refine Finset.sum_congr rfl fun k _ => ?_
  exact congrArg (· * x9 (ix2 k j)) (v135_at x0 x1 x3 x4 x5 x6 x7 x8 R k)

/-- The head's hidden layer with its bias and the rectifier, read at (R, j). -/
theorem v140_at (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (R : Fin 100000) (j : Fin 32) :
    val_main_v140 (F := Ideal) x0 x1 x3 x4 x5 x6 x7 x8 x9 x10 (ix2 R j)
      = biasRelu x10 (dense x9 (biasRelu x8 (fun k => val_main_v131 (F := Ideal) x0 x1 x3 x4 x5 x6 x7 (ix2 R k)))) j := by
  rw [val_main_v140_apply, val_main_v139_apply, val_main_v138_apply, val_main_v137_apply, val_main_call6_v0_apply, val_main_call6_cst_apply]
  have e : idx_main_v137 (idx_main_v138 (ix2 R j)) = ix1 j := funext fun a => Fin.ext (by match a with | ⟨0, _⟩ => rfl)
  rw [e, v136_at, Ideal.maximumf_def, Ideal.addf_def, Ideal.ofBits_def]
  unfold biasRelu
  rfl

/-- The logits before their bias, read at (R, c). -/
theorem v141_at (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x40, .f32⟩ : BufTy).Contents (Elt Ideal)) (R : Fin 100000) (c : Fin 40) :
    val_main_v141 (F := Ideal) x0 x1 x3 x4 x5 x6 x7 x8 x9 x10 x11 (ix2 R c)
      = dense x11 (biasRelu x10 (dense x9 (biasRelu x8 (fun k => val_main_v131 (F := Ideal) x0 x1 x3 x4 x5 x6 x7 (ix2 R k))))) c := by
  unfold val_main_v141
  refine (LibDot.dotGeneral_ix2 plain_32_40 none _ _ R c).trans ?_
  show _ = ∑ j : Fin 32, biasRelu x10 (dense x9 (biasRelu x8 (fun k => val_main_v131 (F := Ideal) x0 x1 x3 x4 x5 x6 x7 (ix2 R k)))) j * x11 (ix2 j c)
  refine Finset.sum_congr rfl fun j _ => ?_
  exact congrArg (· * x11 (ix2 j c)) (v140_at x0 x1 x3 x4 x5 x6 x7 x8 x9 x10 R j)

/-- The logits, read at (R, c). -/
theorem v144_at (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x40, .f32⟩ : BufTy).Contents (Elt Ideal)) (x12 : (⟨S40, .f32⟩ : BufTy).Contents (Elt Ideal)) (R : Fin 100000) (c : Fin 40) :
    val_main_v144 (F := Ideal) x0 x1 x3 x4 x5 x6 x7 x8 x9 x10 x11 x12 (ix2 R c)
      = bias x12 (dense x11 (biasRelu x10 (dense x9 (biasRelu x8 (fun k => val_main_v131 (F := Ideal) x0 x1 x3 x4 x5 x6 x7 (ix2 R k)))))) c := by
  rw [val_main_v144_apply, val_main_v143_apply, val_main_v142_apply]
  have e : idx_main_v142 (idx_main_v143 (ix2 R c)) = ix1 c := funext fun a => Fin.ext (by match a with | ⟨0, _⟩ => rfl)
  rw [e, v141_at, Ideal.addf_def]
  unfold bias
  rfl

end Cert.ReferenceIdeal.Rows

end
-- ==== Proof.RefRowsC.lean ====
/-
  The reference's log-softmax, row by row: the row's largest logit by a `max` reduction started at minus infinity (and compared with
  minus infinity once more, which changes nothing), the shifted logits, the logarithm of the sum of their exponentials; so the
  reference's result is the specification's head applied to every row of the third aggregate.
-/
import proofs.«107386_j38878043964109_1_alg».proof.Proof.RefReadP
import proofs.«107386_j38878043964109_1_alg».proof.Proof.RefRowsB
import proofs.«107386_j38878043964109_1_alg».proof.Proof.Spec
import proofs.«107386_j38878043964109_1_alg».proof.Proof.LibDot
import proofs.«107386_j38878043964109_1_alg».proof.Proof.LibRows
import Idealize.ShloMosaic.Lib.ValueIdx
import Idealize.ShloMosaic.PureOps.Ideal.Laws
import Idealize.ShloMosaic.PureOps.Reduce

noncomputable section

namespace Cert.ReferenceIdeal.Rows

open Cert.ReferenceIdeal Cert.ReferenceIdeal.Gen Cert.ReferenceIdeal.ReadP Idealize.ShloMosaic Idealize.ShloMosaic.ValueIdx Cert.Spec Cert.LibRows

/-- The largest logit of row R, as the reference finds it and puts it beside every column. -/
theorem rowMax_at (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x40, .f32⟩ : BufTy).Contents (Elt Ideal)) (x12 : (⟨S40, .f32⟩ : BufTy).Contents (Elt Ideal)) (R : Fin 100000) (c : Fin 40) :
    val_main_call7_v4 (F := Ideal) x0 x1 x3 x4 x5 x6 x7 x8 x9 x10 x11 x12 (ix2 R c) = rowMax (fun c' => val_main_v144 (F := Ideal) x0 x1 x3 x4 x5 x6 x7 x8 x9 x10 x11 x12 (ix2 R c')) := by
  rw [val_main_call7_v4_apply, val_main_call7_v3_apply, val_main_call7_v2_apply, val_main_call7_v1_apply, val_main_call7_cst_0_apply]
  have e : idx_main_call7_v3 (idx_main_call7_v4 (ix2 R c)) = ix1 R := funext fun a => Fin.ext (by match a with | ⟨0, _⟩ => rfl)
  rw [e]
  have h0 : val_main_call7_v0 (F := Ideal) x0 x1 x3 x4 x5 x6 x7 x8 x9 x10 x11 x12 (ix1 R) = rowMax (fun c' => val_main_v144 (F := Ideal) x0 x1 x3 x4 x5 x6 x7 x8 x9 x10 x11 x12 (ix2 R c')) := by
    unfold val_main_call7_v0
    generalize val_main_v144 (F := Ideal) x0 x1 x3 x4 x5 x6 x7 x8 x9 x10 x11 x12 = z
    exact hostRowMax_at z _ (fun i => (val_main_call7_cst_apply i).trans (Ideal.ofBits_def _)) reducesTo_S100000x40_S100000_d1 (by decide) h_S_ R
  rw [h0, Ideal.maximumf_def, Ideal.ofBits_def]
  exact max_start_rowMax _

/-- The shifted logits, read at (R, c). -/
theorem shifted_at (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x40, .f32⟩ : BufTy).Contents (Elt Ideal)) (x12 : (⟨S40, .f32⟩ : BufTy).Contents (Elt Ideal)) (R : Fin 100000) (c : Fin 40) :
    val_main_call7_v5 (F := Ideal) x0 x1 x3 x4 x5 x6 x7 x8 x9 x10 x11 x12 (ix2 R c)
      = val_main_v144 (F := Ideal) x0 x1 x3 x4 x5 x6 x7 x8 x9 x10 x11 x12 (ix2 R c) - rowMax (fun c' => val_main_v144 (F := Ideal) x0 x1 x3 x4 x5 x6 x7 x8 x9 x10 x11 x12 (ix2 R c')) := by
  rw [val_main_call7_v5_apply, rowMax_at, Ideal.subf_def]

/-- The reference's result is the log-softmax of the logits, row by row. -/
theorem v145_logSoftmax (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x40, .f32⟩ : BufTy).Contents (Elt Ideal)) (x12 : (⟨S40, .f32⟩ : BufTy).Contents (Elt Ideal)) (R : Fin 100000) (c : Fin 40) :
    val_main_v145 (F := Ideal) x0 x1 x3 x4 x5 x6 x7 x8 x9 x10 x11 x12 (ix2 R c) = logSoftmax (fun c' => val_main_v144 (F := Ideal) x0 x1 x3 x4 x5 x6 x7 x8 x9 x10 x11 x12 (ix2 R c')) c := by
  rw [val_main_v145_apply, val_main_call7_v10_apply, val_main_call7_v9_apply, val_main_call7_v8_apply, val_main_call7_v7_apply, val_main_call7_cst_1_apply, shifted_at]
  have e : idx_main_call7_v8 (idx_main_call7_v10 (ix2 R c)) = ix1 R := funext fun a => Fin.ext (by match a with | ⟨0, _⟩ => rfl)
  rw [e]
  unfold logSoftmax
  rw [Ideal.subf_def, Ideal.hostUnary_log_def, Ideal.ofBits_def, Ideal.ofBits_zero_f32, zero_add]
  refine congrArg (fun s => (val_main_v144 (F := Ideal) x0 x1 x3 x4 x5 x6 x7 x8 x9 x10 x11 x12 (ix2 R c) - rowMax fun c' => val_main_v144 (F := Ideal) x0 x1 x3 x4 x5 x6 x7 x8 x9 x10 x11 x12 (ix2 R c')) - Ideal.log s) ?_
  refine Finset.sum_congr rfl fun k _ => ?_
  have ek : idx_main_call7_v7 (ix1 R) k = ix2 R k := funext fun a => Fin.ext (by match a with | ⟨0, _⟩ => rfl | ⟨1, _⟩ => rfl)
  rw [ek, val_main_call7_v6_apply, shifted_at, Ideal.hostUnary_exp_def]

theorem v145_rows (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x40, .f32⟩ : BufTy).Contents (Elt Ideal)) (x12 : (⟨S40, .f32⟩ : BufTy).Contents (Elt Ideal)) :
    val_main_v145 (F := Ideal) x0 x1 x3 x4 x5 x6 x7 x8 x9 x10 x11 x12 = rows (head x8 x9 x10 x11 x12) (val_main_v131 (F := Ideal) x0 x1 x3 x4 x5 x6 x7) := by
  funext i
  obtain ⟨R, c, rfl⟩ : ∃ (R : Fin 100000) (c : Fin 40), i = ix2 R c := ⟨i 0, i 1, eq_ix2 i⟩
  rw [v145_logSoftmax]
  show _ = logSoftmax (bias x12 (dense x11 (biasRelu x10 (dense x9 (biasRelu x8 (fun k => val_main_v131 (F := Ideal) x0 x1 x3 x4 x5 x6 x7 (ix2 R k))))))) c
  exact congrArg (fun f => logSoftmax f c) (funext fun c' => v144_at x0 x1 x3 x4 x5 x6 x7 x8 x9 x10 x11 x12 R c')

end Cert.ReferenceIdeal.Rows

end
-- ==== Proof.KernelValue.lean ====
/-
  The idealized kernel's result array is the reference's result stage, as a function of the arguments.

  Walking the program's segments from the launch: the edge lists and weights are the reference's; the first stage leaves
  the first layer's dense matrix; each stretch of host operations aggregates the matrix before it; each later stage applies
  its row function to every row of the aggregate.  At every step the array left is the reference's stage function of the
  arguments (the stages row by row, the aggregations as the one shared function), so the last stage's array is the
  reference's last stage.
-/
import proofs.«107386_j38878043964109_1_alg».proof.Proof.Gen.KernelIdeal.Frame
import proofs.«107386_j38878043964109_1_alg».proof.Proof.Blocks0
import proofs.«107386_j38878043964109_1_alg».proof.Proof.Blocks1
import proofs.«107386_j38878043964109_1_alg».proof.Proof.Blocks2
import proofs.«107386_j38878043964109_1_alg».proof.Proof.Blocks3
import proofs.«107386_j38878043964109_1_alg».proof.Proof.KernelKeep
import proofs.«107386_j38878043964109_1_alg».proof.Proof.KernelHost
import proofs.«107386_j38878043964109_1_alg».proof.Proof.RefRowsA
import proofs.«107386_j38878043964109_1_alg».proof.Proof.RefRowsC
import proofs.«107386_j38878043964109_1_alg».proof.Proof.RefAgg

set_option maxRecDepth 65536

noncomputable section

namespace Cert.KernelIdeal.ValueChain

open Cert.KernelIdeal Cert.KernelIdeal.Gen Idealize.ShloMosaic Idealize.ShloMosaic.TcCoe Idealize.SL.Sem Idealize.ShloMosaic.StableHlo
open Cert.Spec
open Cert.ReferenceIdeal.Agg (aggOf Mat EdgeIdx EdgeW)

variable (m : (ℓ : Loc nD τ sig) → Buf (Elt Ideal) ℓ) (ρ : Dev nD → PrngReg) (c : Dev nD)

/-! ## The arguments, as each stage finds them -/

theorem W3_arg0 : W3 m ρ c (Proc.devRef .tc main_arg0) = m ((c : Thread nD τ).loc main_arg0) :=
  (Keep.keep_0_2_main_arg0 (W2 m ρ c)).trans ((Keep.keep_0_1_main_arg0 (W1 m ρ c)).trans ((Keep.keep_0_main_arg0 (W0 m ρ c))))
theorem W3_arg3 : W3 m ρ c (Proc.devRef .tc main_arg3) = m ((c : Thread nD τ).loc main_arg3) :=
  (Keep.keep_0_2_main_arg3 (W2 m ρ c)).trans ((Keep.keep_0_1_main_arg3 (W1 m ρ c)).trans ((Keep.keep_0_main_arg3 (W0 m ρ c))))
theorem W5_arg4 : W5 m ρ c (Proc.devRef .tc main_arg4) = m ((c : Thread nD τ).loc main_arg4) :=
  (Keep.keep_1_main_arg4 (W4 m ρ c)).trans ((W4_of_ne m ρ c main_arg4 (by decide)).trans ((Keep.keep_0_2_main_arg4 (W2 m ρ c)).trans ((Keep.keep_0_1_main_arg4 (W1 m ρ c)).trans ((Keep.keep_0_main_arg4 (W0 m ρ c))))))
theorem W5_arg5 : W5 m ρ c (Proc.devRef .tc main_arg5) = m ((c : Thread nD τ).loc main_arg5) :=
  (Keep.keep_1_main_arg5 (W4 m ρ c)).trans ((W4_of_ne m ρ c main_arg5 (by decide)).trans ((Keep.keep_0_2_main_arg5 (W2 m ρ c)).trans ((Keep.keep_0_1_main_arg5 (W1 m ρ c)).trans ((Keep.keep_0_main_arg5 (W0 m ρ c))))))
theorem W7_arg6 : W7 m ρ c (Proc.devRef .tc main_arg6) = m ((c : Thread nD τ).loc main_arg6) :=
  (Keep.keep_2_main_arg6 (W6 m ρ c)).trans ((W6_of_ne m ρ c main_arg6 (by decide)).trans ((Keep.keep_1_main_arg6 (W4 m ρ c)).trans ((W4_of_ne m ρ c main_arg6 (by decide)).trans ((Keep.keep_0_2_main_arg6 (W2 m ρ c)).trans ((Keep.keep_0_1_main_arg6 (W1 m ρ c)).trans ((Keep.keep_0_main_arg6 (W0 m ρ c))))))))
theorem W7_arg7 : W7 m ρ c (Proc.devRef .tc main_arg7) = m ((c : Thread nD τ).loc main_arg7) :=
  (Keep.keep_2_main_arg7 (W6 m ρ c)).trans ((W6_of_ne m ρ c main_arg7 (by decide)).trans ((Keep.keep_1_main_arg7 (W4 m ρ c)).trans ((W4_of_ne m ρ c main_arg7 (by decide)).trans ((Keep.keep_0_2_main_arg7 (W2 m ρ c)).trans ((Keep.keep_0_1_main_arg7 (W1 m ρ c)).trans ((Keep.keep_0_main_arg7 (W0 m ρ c))))))))
theorem W9_arg8 : W9 m ρ c (Proc.devRef .tc main_arg8) = m ((c : Thread nD τ).loc main_arg8) :=
  (Keep.keep_3_main_arg8 (W8 m ρ c)).trans ((W8_of_ne m ρ c main_arg8 (by decide)).trans ((Keep.keep_2_main_arg8 (W6 m ρ c)).trans ((W6_of_ne m ρ c main_arg8 (by decide)).trans ((Keep.keep_1_main_arg8 (W4 m ρ c)).trans ((W4_of_ne m ρ c main_arg8 (by decide)).trans ((Keep.keep_0_2_main_arg8 (W2 m ρ c)).trans ((Keep.keep_0_1_main_arg8 (W1 m ρ c)).trans ((Keep.keep_0_main_arg8 (W0 m ρ c))))))))))
theorem W9_arg9 : W9 m ρ c (Proc.devRef .tc main_arg9) = m ((c : Thread nD τ).loc main_arg9) :=
  (Keep.keep_3_main_arg9 (W8 m ρ c)).trans ((W8_of_ne m ρ c main_arg9 (by decide)).trans ((Keep.keep_2_main_arg9 (W6 m ρ c)).trans ((W6_of_ne m ρ c main_arg9 (by decide)).trans ((Keep.keep_1_main_arg9 (W4 m ρ c)).trans ((W4_of_ne m ρ c main_arg9 (by decide)).trans ((Keep.keep_0_2_main_arg9 (W2 m ρ c)).trans ((Keep.keep_0_1_main_arg9 (W1 m ρ c)).trans ((Keep.keep_0_main_arg9 (W0 m ρ c))))))))))
theorem W9_arg10 : W9 m ρ c (Proc.devRef .tc main_arg10) = m ((c : Thread nD τ).loc main_arg10) :=
  (Keep.keep_3_main_arg10 (W8 m ρ c)).trans ((W8_of_ne m ρ c main_arg10 (by decide)).trans ((Keep.keep_2_main_arg10 (W6 m ρ c)).trans ((W6_of_ne m ρ c main_arg10 (by decide)).trans ((Keep.keep_1_main_arg10 (W4 m ρ c)).trans ((W4_of_ne m ρ c main_arg10 (by decide)).trans ((Keep.keep_0_2_main_arg10 (W2 m ρ c)).trans ((Keep.keep_0_1_main_arg10 (W1 m ρ c)).trans ((Keep.keep_0_main_arg10 (W0 m ρ c))))))))))
theorem W9_arg11 : W9 m ρ c (Proc.devRef .tc main_arg11) = m ((c : Thread nD τ).loc main_arg11) :=
  (Keep.keep_3_main_arg11 (W8 m ρ c)).trans ((W8_of_ne m ρ c main_arg11 (by decide)).trans ((Keep.keep_2_main_arg11 (W6 m ρ c)).trans ((W6_of_ne m ρ c main_arg11 (by decide)).trans ((Keep.keep_1_main_arg11 (W4 m ρ c)).trans ((W4_of_ne m ρ c main_arg11 (by decide)).trans ((Keep.keep_0_2_main_arg11 (W2 m ρ c)).trans ((Keep.keep_0_1_main_arg11 (W1 m ρ c)).trans ((Keep.keep_0_main_arg11 (W0 m ρ c))))))))))
theorem W9_arg12 : W9 m ρ c (Proc.devRef .tc main_arg12) = m ((c : Thread nD τ).loc main_arg12) :=
  (Keep.keep_3_main_arg12 (W8 m ρ c)).trans ((W8_of_ne m ρ c main_arg12 (by decide)).trans ((Keep.keep_2_main_arg12 (W6 m ρ c)).trans ((W6_of_ne m ρ c main_arg12 (by decide)).trans ((Keep.keep_1_main_arg12 (W4 m ρ c)).trans ((W4_of_ne m ρ c main_arg12 (by decide)).trans ((Keep.keep_0_2_main_arg12 (W2 m ρ c)).trans ((Keep.keep_0_1_main_arg12 (W1 m ρ c)).trans ((Keep.keep_0_main_arg12 (W0 m ρ c))))))))))

/-! ## The edge lists and weights, as each aggregation finds them -/

theorem W3_src : (W3 m ρ c (Proc.devRef .tc main_v5) : EdgeIdx) = Cert.ReferenceIdeal.ReadP.val_main_v6 (F := Ideal) (m ((c : Thread nD τ).loc main_arg1)) :=
  ((Keep.keep_0_2_main_v5 (W2 m ρ c)).trans ((Keep.keep_0_1_main_v5 (W1 m ρ c)))).trans (HostSide.prep_src (W0 m ρ c))
theorem W3_dst : (W3 m ρ c (Proc.devRef .tc main_v6) : EdgeIdx) = Cert.ReferenceIdeal.ReadP.val_main_v7 (F := Ideal) (m ((c : Thread nD τ).loc main_arg1)) :=
  ((Keep.keep_0_2_main_v6 (W2 m ρ c)).trans ((Keep.keep_0_1_main_v6 (W1 m ρ c)))).trans (HostSide.prep_dst (W0 m ρ c))
theorem W3_wgt : (W3 m ρ c (Proc.devRef .tc main_v29) : EdgeW) = Cert.ReferenceIdeal.ReadP.val_main_v30 (F := Ideal) (m ((c : Thread nD τ).loc main_arg1)) :=
  HostSide.prep_wgt (W2 m ρ c) _
    (HostSide.prep_dinv (W1 m ρ c) _ (HostSide.prep_pos (W0 m ρ c)) (HostSide.prep_rsqrt (W0 m ρ c)) (HostSide.prep_zero (W0 m ρ c)))
    ((Keep.keep_0_1_main_v5 (W1 m ρ c)).trans (HostSide.prep_src (W0 m ρ c)))
    ((Keep.keep_0_1_main_v6 (W1 m ρ c)).trans (HostSide.prep_dst (W0 m ρ c)))
theorem W4_src : (W4 m ρ c (Proc.devRef .tc main_v5) : EdgeIdx) = Cert.ReferenceIdeal.ReadP.val_main_v6 (F := Ideal) (m ((c : Thread nD τ).loc main_arg1)) :=
  ((W4_of_ne m ρ c main_v5 (by decide))).trans (W3_src m ρ c)
theorem W4_dst : (W4 m ρ c (Proc.devRef .tc main_v6) : EdgeIdx) = Cert.ReferenceIdeal.ReadP.val_main_v7 (F := Ideal) (m ((c : Thread nD τ).loc main_arg1)) :=
  ((W4_of_ne m ρ c main_v6 (by decide))).trans (W3_dst m ρ c)
theorem W4_wgt : (W4 m ρ c (Proc.devRef .tc main_v29) : EdgeW) = Cert.ReferenceIdeal.ReadP.val_main_v30 (F := Ideal) (m ((c : Thread nD τ).loc main_arg1)) :=
  ((W4_of_ne m ρ c main_v29 (by decide))).trans (W3_wgt m ρ c)
theorem W6_src : (W6 m ρ c (Proc.devRef .tc main_v5) : EdgeIdx) = Cert.ReferenceIdeal.ReadP.val_main_v6 (F := Ideal) (m ((c : Thread nD τ).loc main_arg1)) :=
  ((W6_of_ne m ρ c main_v5 (by decide)).trans ((Keep.keep_1_main_v5 (W4 m ρ c)).trans ((W4_of_ne m ρ c main_v5 (by decide))))).trans (W3_src m ρ c)
theorem W6_dst : (W6 m ρ c (Proc.devRef .tc main_v6) : EdgeIdx) = Cert.ReferenceIdeal.ReadP.val_main_v7 (F := Ideal) (m ((c : Thread nD τ).loc main_arg1)) :=
  ((W6_of_ne m ρ c main_v6 (by decide)).trans ((Keep.keep_1_main_v6 (W4 m ρ c)).trans ((W4_of_ne m ρ c main_v6 (by decide))))).trans (W3_dst m ρ c)
theorem W6_wgt : (W6 m ρ c (Proc.devRef .tc main_v29) : EdgeW) = Cert.ReferenceIdeal.ReadP.val_main_v30 (F := Ideal) (m ((c : Thread nD τ).loc main_arg1)) :=
  ((W6_of_ne m ρ c main_v29 (by decide)).trans ((Keep.keep_1_main_v29 (W4 m ρ c)).trans ((W4_of_ne m ρ c main_v29 (by decide))))).trans (W3_wgt m ρ c)
theorem W8_src : (W8 m ρ c (Proc.devRef .tc main_v5) : EdgeIdx) = Cert.ReferenceIdeal.ReadP.val_main_v6 (F := Ideal) (m ((c : Thread nD τ).loc main_arg1)) :=
  ((W8_of_ne m ρ c main_v5 (by decide)).trans ((Keep.keep_2_main_v5 (W6 m ρ c)).trans ((W6_of_ne m ρ c main_v5 (by decide)).trans ((Keep.keep_1_main_v5 (W4 m ρ c)).trans ((W4_of_ne m ρ c main_v5 (by decide))))))).trans (W3_src m ρ c)
theorem W8_dst : (W8 m ρ c (Proc.devRef .tc main_v6) : EdgeIdx) = Cert.ReferenceIdeal.ReadP.val_main_v7 (F := Ideal) (m ((c : Thread nD τ).loc main_arg1)) :=
  ((W8_of_ne m ρ c main_v6 (by decide)).trans ((Keep.keep_2_main_v6 (W6 m ρ c)).trans ((W6_of_ne m ρ c main_v6 (by decide)).trans ((Keep.keep_1_main_v6 (W4 m ρ c)).trans ((W4_of_ne m ρ c main_v6 (by decide))))))).trans (W3_dst m ρ c)
theorem W8_wgt : (W8 m ρ c (Proc.devRef .tc main_v29) : EdgeW) = Cert.ReferenceIdeal.ReadP.val_main_v30 (F := Ideal) (m ((c : Thread nD τ).loc main_arg1)) :=
  ((W8_of_ne m ρ c main_v29 (by decide)).trans ((Keep.keep_2_main_v29 (W6 m ρ c)).trans ((W6_of_ne m ρ c main_v29 (by decide)).trans ((Keep.keep_1_main_v29 (W4 m ρ c)).trans ((W4_of_ne m ρ c main_v29 (by decide))))))).trans (W3_wgt m ρ c)

/-! ## The matrices, stage by stage -/

theorem first_dense : (W4 m ρ c (Proc.devRef .tc main_v30) : Mat) = Cert.ReferenceIdeal.ReadP.val_main_v4 (F := Ideal) (m ((c : Thread nD τ).loc main_arg0)) (m ((c : Thread nD τ).loc main_arg3)) := by
  refine (W4_arr m ρ c 2).trans ((Blocks0.final (V3 m ρ) c).trans ?_)
  show rows (layer0 (W3 m ρ c (Proc.devRef .tc main_arg3))) (W3 m ρ c (Proc.devRef .tc main_arg0)) = _
  rw [W3_arg3, W3_arg0]
  exact (Cert.ReferenceIdeal.Rows.v4_rows _ _).symm

theorem first_agg : (W5 m ρ c (Proc.devRef .tc main_v43) : Mat) = Cert.ReferenceIdeal.ReadP.val_main_v43 (F := Ideal) (m ((c : Thread nD τ).loc main_arg0)) (m ((c : Thread nD τ).loc main_arg1)) (m ((c : Thread nD τ).loc main_arg3)) := by
  refine (HostSide.agg1 (W4 m ρ c)).trans ?_
  rw [first_dense, W4_src, W4_dst, W4_wgt]
  exact (Cert.ReferenceIdeal.Agg.v43_eq _ _ _).symm

theorem second_dense : (W6 m ρ c (Proc.devRef .tc main_v44) : Mat) = Cert.ReferenceIdeal.ReadP.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 3).trans ((Blocks1.final (V5 m ρ) c).trans ?_)
  show rows (layer1 (W5 m ρ c (Proc.devRef .tc main_arg4)) (W5 m ρ c (Proc.devRef .tc main_arg5))) (W5 m ρ c (Proc.devRef .tc main_v43)) = _
  rw [W5_arg4, W5_arg5, first_agg]
  exact (Cert.ReferenceIdeal.Rows.v48_rows _ _ _ _ _).symm

theorem second_agg : (W7 m ρ c (Proc.devRef .tc main_v57) : Mat) = Cert.ReferenceIdeal.ReadP.val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (HostSide.agg2 (W6 m ρ c)).trans ?_
  rw [second_dense, W6_src, W6_dst, W6_wgt]
  exact (Cert.ReferenceIdeal.Agg.v87_eq _ _ _ _ _).symm

theorem third_dense : (W8 m ρ c (Proc.devRef .tc main_v58) : Mat) = Cert.ReferenceIdeal.ReadP.val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 3).trans ((Blocks2.final (V7 m ρ) c).trans ?_)
  show rows (layer1 (W7 m ρ c (Proc.devRef .tc main_arg6)) (W7 m ρ c (Proc.devRef .tc main_arg7))) (W7 m ρ c (Proc.devRef .tc main_v57)) = _
  rw [W7_arg6, W7_arg7, second_agg]
  exact (Cert.ReferenceIdeal.Rows.v92_rows _ _ _ _ _ _ _).symm

theorem third_agg : (W9 m ρ c (Proc.devRef .tc main_v71) : Mat) = Cert.ReferenceIdeal.ReadP.val_main_v131 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (HostSide.agg3 (W8 m ρ c)).trans ?_
  rw [third_dense, W8_src, W8_dst, W8_wgt]
  exact (Cert.ReferenceIdeal.Agg.v131_eq _ _ _ _ _ _ _).symm

/-- The result array. -/
theorem result : (W10 m ρ c (Proc.devRef .tc main_v72) : (⟨Cert.ReferenceIdeal.S100000x40, .f32⟩ : BufTy).Contents (Elt Ideal))
    = Cert.ReferenceIdeal.ReadP.val_main_v145 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W10_arr m ρ c 6).trans ((Blocks3.final (V9 m ρ) c).trans ?_)
  show rows (head (W9 m ρ c (Proc.devRef .tc main_arg8)) (W9 m ρ c (Proc.devRef .tc main_arg9)) (W9 m ρ c (Proc.devRef .tc main_arg10)) (W9 m ρ c (Proc.devRef .tc main_arg11)) (W9 m ρ c (Proc.devRef .tc main_arg12))) (W9 m ρ c (Proc.devRef .tc main_v71)) = _
  rw [W9_arg8, W9_arg9, W9_arg10, W9_arg11, W9_arg12, third_agg]
  exact (Cert.ReferenceIdeal.Rows.v145_rows _ _ _ _ _ _ _ _ _ _ _ _).symm

end Cert.KernelIdeal.ValueChain

end
-- ==== Proof.lean ====
/-
  The kernel is a three-layer graph convolution network with a two-layer head and a log-softmax, over 100000 nodes and
  1600000 edges.  Its dense stages — x·W₀; max(agg + b, 0)·W twice; and the head max(max(agg + b₂, 0)·Wp₁ + bp₁, 0)·Wp₂ + bp₂
  followed by the log-softmax — run as four tiled stages, ten blocks of 10000 rows each; between them plain host operations
  gather the rows at the source nodes, scale them by the edge weights and add them up at the destination nodes.  The reference
  computes the same network with whole matrices.

  On the extended reals the two agree without any side condition: a change of float format is the identity, a matrix product
  into a zero accumulator and the host's product are the same sum of products, every dense stage acts on each row
  independently, so ten row blocks give what the whole matrix gives, the aggregation is literally the same function in both
  programs, and the reference's extra comparison of a row's largest entry with minus infinity changes nothing.

  The three frames: the kernel's two are its generated frame certificates; the reference's is its run with the statement
  about the result dropped.  The idealization rewrote nothing, so there is nothing to preserve.  For the equivalence, the
  kernel's run ends with its result buffer at the last segment boundary's array (Proof/KernelRun.lean), which is the
  reference's last stage as a function of the arguments (Proof/KernelValue.lean, over Proof/Blocks0–3.lean for the stages,
  Proof/KernelHost.lean and Proof/KernelKeep.lean for the host operations, Proof/RefRows.lean and Proof/RefAgg.lean for the
  reference); the reference's run, read piece by piece (Proof/RefRun.lean over Proof/RefChunks.lean, Proof/RefKeep.lean,
  Proof/RefKeep2.lean, Proof/RefVals*.lean, Proof/RefCasts.lean), ends at that same stage of its own arguments, which agree with the kernel's.
-/
import proofs.«107386_j38878043964109_1_alg».proof.Defs
import proofs.«107386_j38878043964109_1_alg».proof.Proof.Gen.Kernel
import proofs.«107386_j38878043964109_1_alg».proof.Proof.Gen.Kernel.Frame
import proofs.«107386_j38878043964109_1_alg».proof.Proof.Gen.KernelIdeal
import proofs.«107386_j38878043964109_1_alg».proof.Proof.Gen.KernelIdeal.Frame
import proofs.«107386_j38878043964109_1_alg».proof.Proof.Gen.ReferenceIdeal
import proofs.«107386_j38878043964109_1_alg».proof.Proof.Gen.Pre_finite_inputs
import proofs.«107386_j38878043964109_1_alg».proof.Proof.RefFrame
import proofs.«107386_j38878043964109_1_alg».proof.Proof.RefReadP
import proofs.«107386_j38878043964109_1_alg».proof.Proof.RefRun
import proofs.«107386_j38878043964109_1_alg».proof.Proof.KernelRun
import proofs.«107386_j38878043964109_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem preserves : Cert.preserves_Kernel_KernelIdeal := trivial

/-- Both runs end with the result at the reference's last stage of the (agreeing) arguments. -/
theorem algebraic : Cert.algebraic_KernelIdeal_ReferenceIdeal := by
  intro m ρ m' ρ' _ hagree
  refine ⟨fun c => Cert.ReferenceIdeal.ReadP.val_main_v145 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.ValueChain.result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.RunValue.run m' ρ')
    obtain ⟨e0, e1, e2, e3, e4, e5, e6, e7, e8, e9, e10, e11, e12⟩ := hagree c
    rw [e0, e1, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, Frames.frame_ri, preserves, algebraic⟩

end Cert.Proof

end
